-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v129)) (v2 : (c : Dev Cert.KernelIdeal.nD) → Buf (Elt Ideal) ((c.tc : Thread Cert.KernelIdeal.nD Cert.KernelIdeal.τ).loc Cert.KernelIdeal.main_v131)) (v3 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_v131) = v2 c
          ∧ r.2.mem ((c.tc : Thread Cert.KernelIdeal.nD Cert.KernelIdeal.τ).loc Cert.KernelIdeal.main_v132) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_v241) = v1 c
          ∧ r.2.mem ((c.tc : Thread Cert.ReferenceIdeal.nD Cert.ReferenceIdeal.τ).loc Cert.ReferenceIdeal.main_v243) = v2 c
          ∧ r.2.mem ((c.tc : Thread Cert.ReferenceIdeal.nD Cert.ReferenceIdeal.τ).loc Cert.ReferenceIdeal.main_v244) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x5 : Shape := ⟨3, ![16, 32, 5]⟩
abbrev S_ : Shape := ⟨0, ![]⟩

class Facts : Prop where
  bcast_S_S16x144x80x80 : S_.BroadcastsInDim S16x144x80x80 (![] : Fin 0 → Fin S16x144x80x80.rank)
  reducesTo_S16x144x80x80_S_d0_1_2_3 : S16x144x80x80.ReducesTo [0, 1, 2, 3] S_
  h_S_ : 0 < S_.numel
  bcast_S_S16x144x40x40 : S_.BroadcastsInDim S16x144x40x40 (![] : Fin 0 → Fin S16x144x40x40.rank)
  reducesTo_S16x144x40x40_S_d0_1_2_3 : S16x144x40x40.ReducesTo [0, 1, 2, 3] S_
  bcast_S_S16x144x20x20 : S_.BroadcastsInDim S16x144x20x20 (![] : Fin 0 → Fin S16x144x20x20.rank)
  reducesTo_S16x144x20x20_S_d0_1_2_3 : S16x144x20x20.ReducesTo [0, 1, 2, 3] S_
  bcast_S_S16x32x5 : S_.BroadcastsInDim S16x32x5 (![] : Fin 0 → Fin S16x32x5.rank)
  reducesTo_S16x32x5_S_d0_1_2 : S16x32x5.ReducesTo [0, 1, 2] S_

variable [Facts]

def fn_part1 {F : FTy → Type} [FloatOps F] (main_v13 : IVec S_ 1) (main_v16 : IVec S16x32x5 1) : IVec S_ 1 :=
  let main_c_5 : IVec S_ 1 := constantI S_ 1 1#1
  let main_v17 : IVec S_ 1 := (fun x v => Host.reduce IntOp.andi x v reducesTo_S16x32x5_S_d0_1_2 h_S_) main_v16 main_c_5
  let main_v18 : IVec S_ 1 := andi main_v13 main_v17
  main_v18

def fn {F : FTy → Type} [FloatOps F] (main_arg0 : FVec F S16x144x80x80 .f32) (main_arg1 : FVec F S16x144x40x40 .f32) (main_arg2 : FVec F S16x144x20x20 .f32) (main_arg3 : FVec F S16x32x5 .f32) : IVec S_ 1 :=
  let main_v0 : FVec F S16x144x80x80 .f32 := Host.absf main_arg0
  let main_cst : FVec F S_ .f32 := constant S_ .f32 0x7F800000#32
  let main_v1 : FVec F S16x144x80x80 .f32 := broadcastInDim S16x144x80x80 ![] bcast_S_S16x144x80x80 main_cst
  let main_v2 : IVec S16x144x80x80 1 := cmpf .olt main_v0 main_v1
  let main_c : IVec S_ 1 := constantI S_ 1 1#1
  let main_v3 : IVec S_ 1 := (fun x v => Host.reduce IntOp.andi x v reducesTo_S16x144x80x80_S_d0_1_2_3 h_S_) main_v2 main_c
  let main_v4 : FVec F S16x144x40x40 .f32 := Host.absf main_arg1
  let main_cst_0 : FVec F S_ .f32 := constant S_ .f32 0x7F800000#32
  let main_v5 : FVec F S16x144x40x40 .f32 := broadcastInDim S16x144x40x40 ![] bcast_S_S16x144x40x40 main_cst_0
  let main_v6 : IVec S16x144x40x40 1 := cmpf .olt main_v4 main_v5
  let main_c_1 : IVec S_ 1 := constantI S_ 1 1#1
  let main_v7 : IVec S_ 1 := (fun x v => Host.reduce IntOp.andi x v reducesTo_S16x144x40x40_S_d0_1_2_3 h_S_) main_v6 main_c_1
  let main_v8 : IVec S_ 1 := andi main_v3 main_v7
  let main_v9 : FVec F S16x144x20x20 .f32 := Host.absf main_arg2
  let main_cst_2 : FVec F S_ .f32 := constant S_ .f32 0x7F800000#32
  let main_v10 : FVec F S16x144x20x20 .f32 := broadcastInDim S16x144x20x20 ![] bcast_S_S16x144x20x20 main_cst_2
  let main_v11 : IVec S16x144x20x20 1 := cmpf .olt main_v9 main_v10
  let main_c_3 : IVec S_ 1 := constantI S_ 1 1#1
  let main_v12 : IVec S_ 1 := (fun x v => Host.reduce IntOp.andi x v reducesTo_S16x144x20x20_S_d0_1_2_3 h_S_) main_v11 main_c_3
  let main_v13 : IVec S_ 1 := andi main_v8 main_v12
  let main_v14 : FVec F S16x32x5 .f32 := Host.absf main_arg3
  let main_cst_4 : FVec F S_ .f32 := constant S_ .f32 0x7F800000#32
  let main_v15 : FVec F S16x32x5 .f32 := broadcastInDim S16x32x5 ![] bcast_S_S16x32x5 main_cst_4
  let main_v16 : IVec S16x32x5 1 := cmpf .olt main_v14 main_v15
  fn_part1 (F := F) main_v13 main_v16
-- ==== Kernel.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x5 : Shape := ⟨3, ![16, 32, 5]⟩
abbrev S16x32x4 : Shape := ⟨3, ![16, 32, 4]⟩
abbrev S16x32x1 : Shape := ⟨3, ![16, 32, 1]⟩
abbrev S16x32 : Shape := ⟨2, ![16, 32]⟩
abbrev S16x32x2 : Shape := ⟨3, ![16, 32, 2]⟩
abbrev S_ : Shape := ⟨0, ![]⟩
abbrev S1x1x80 : Shape := ⟨3, ![1, 1, 80]⟩
abbrev S16x32x80 : Shape := ⟨3, ![16, 32, 80]⟩
abbrev S16x144x6400 : Shape := ⟨3, ![16, 144, 6400]⟩
abbrev S16x144x1600 : Shape := ⟨3, ![16, 144, 1600]⟩
abbrev S16x144x400 : Shape := ⟨3, ![16, 144, 400]⟩
abbrev S16x32x144 : Shape := ⟨3, ![16, 32, 144]⟩
abbrev S1x144x6400 : Shape := ⟨3, ![1, 144, 6400]⟩
abbrev S1x144x1600 : Shape := ⟨3, ![1, 144, 1600]⟩
abbrev S1x144x400 : Shape := ⟨3, ![1, 144, 400]⟩
abbrev S1x32x1 : Shape := ⟨3, ![1, 32, 1]⟩
abbrev S1x32x144 : Shape := ⟨3, ![1, 32, 144]⟩
abbrev S32x1 : Shape := ⟨2, ![32, 1]⟩
abbrev S32x6400 : Shape := ⟨2, ![32, 6400]⟩
abbrev S144x6400 : Shape := ⟨2, ![144, 6400]⟩
abbrev S32x144 : Shape := ⟨2, ![32, 144]⟩
abbrev S32x1600 : Shape := ⟨2, ![32, 1600]⟩
abbrev S144x1600 : Shape := ⟨2, ![144, 1600]⟩
abbrev S32x400 : Shape := ⟨2, ![32, 400]⟩
abbrev S144x400 : Shape := ⟨2, ![144, 400]⟩
abbrev S16x32x64 : Shape := ⟨3, ![16, 32, 64]⟩
abbrev S1 : Shape := ⟨1, ![1]⟩

abbrev nBuf : Space → Nat
  | .hbm => 233
  | .vmem => 18
  | .smem => 0
  | _ => 0

abbrev hbmTy0_0 (i : Nat) : BufTy := match i % 128 with
  | 0 => ⟨S16x144x80x80, .f32⟩
  | 1 => ⟨S16x144x40x40, .f32⟩
  | 2 => ⟨S16x144x20x20, .f32⟩
  | 3 => ⟨S16x32x5, .f32⟩
  | 4 => ⟨S16x32x4, .f32⟩
  | 5 => ⟨S16x32x1, .f32⟩
  | 6 => ⟨S16x32, .f32⟩
  | 7 => ⟨S16x32, .i32⟩
  | 8 => ⟨S16x32x2, .f32⟩
  | 9 => ⟨S16x32x2, .f32⟩
  | 10 => ⟨S16x32x2, .f32⟩
  | 11 => ⟨S_, .f32⟩
  | 12 => ⟨S16x32x2, .f32⟩
  | 13 => ⟨S16x32x2, .f32⟩
  | 14 => ⟨S16x32x1, .i32⟩
  | 15 => ⟨S1x1x80, .i32⟩
  | 16 => ⟨S16x32x80, .i32⟩
  | 17 => ⟨S16x32x80, .i32⟩
  | 18 => ⟨S16x32x80, .i1⟩
  | 19 => ⟨S16x32x80, .f32⟩
  | 20 => ⟨S_, .f32⟩
  | 21 => ⟨S16x32x2, .f32⟩
  | 22 => ⟨S16x32x2, .f32⟩
  | 23 => ⟨S16x32x1, .f32⟩
  | 24 => ⟨S16x32, .f32⟩
  | 25 => ⟨S_, .i32⟩
  | 26 => ⟨S_, .i32⟩
  | 27 => ⟨S_, .f32⟩
  | 28 => ⟨S16x32, .f32⟩
  | 29 => ⟨S16x32, .f32⟩
  | 30 => ⟨S_, .f32⟩
  | 31 => ⟨S16x32, .f32⟩
  | 32 => ⟨S16x32, .f32⟩
  | 33 => ⟨S16x32, .i32⟩
  | 34 => ⟨S16x32x1, .f32⟩
  | 35 => ⟨S16x32, .f32⟩
  | 36 => ⟨S_, .i32⟩
  | 37 => ⟨S_, .i32⟩
  | 38 => ⟨S_, .f32⟩
  | 39 => ⟨S16x32, .f32⟩
  | 40 => ⟨S16x32, .f32⟩
  | 41 => ⟨S_, .f32⟩
  | 42 => ⟨S16x32, .f32⟩
  | 43 => ⟨S16x32, .f32⟩
  | 44 => ⟨S16x32, .i32⟩
  | 45 => ⟨S_, .i32⟩
  | 46 => ⟨S16x32, .i32⟩
  | 47 => ⟨S16x32, .i32⟩
  | 48 => ⟨S16x32, .i32⟩
  | 49 => ⟨S16x144x6400, .f32⟩
  | 50 => ⟨S16x32x1, .i32⟩
  | 51 => ⟨S_, .f32⟩
  | 52 => ⟨S16x32x2, .f32⟩
  | 53 => ⟨S16x32x2, .f32⟩
  | 54 => ⟨S16x32x1, .f32⟩
  | 55 => ⟨S16x32, .f32⟩
  | 56 => ⟨S_, .i32⟩
  | 57 => ⟨S_, .i32⟩
  | 58 => ⟨S_, .f32⟩
  | 59 => ⟨S16x32, .f32⟩
  | 60 => ⟨S16x32, .f32⟩
  | 61 => ⟨S_, .f32⟩
  | 62 => ⟨S16x32, .f32⟩
  | 63 => ⟨S16x32, .f32⟩
  | 64 => ⟨S16x32, .i32⟩
  | 65 => ⟨S16x32x1, .f32⟩
  | 66 => ⟨S16x32, .f32⟩
  | 67 => ⟨S_, .i32⟩
  | 68 => ⟨S_, .i32⟩
  | 69 => ⟨S_, .f32⟩
  | 70 => ⟨S16x32, .f32⟩
  | 71 => ⟨S16x32, .f32⟩
  | 72 => ⟨S_, .f32⟩
  | 73 => ⟨S16x32, .f32⟩
  | 74 => ⟨S16x32, .f32⟩
  | 75 => ⟨S16x32, .i32⟩
  | 76 => ⟨S_, .i32⟩
  | 77 => ⟨S16x32, .i32⟩
  | 78 => ⟨S16x32, .i32⟩
  | 79 => ⟨S16x32, .i32⟩
  | 80 => ⟨S16x144x1600, .f32⟩
  | 81 => ⟨S16x32x1, .i32⟩
  | 82 => ⟨S_, .f32⟩
  | 83 => ⟨S16x32x2, .f32⟩
  | 84 => ⟨S16x32x2, .f32⟩
  | 85 => ⟨S16x32x1, .f32⟩
  | 86 => ⟨S16x32, .f32⟩
  | 87 => ⟨S_, .i32⟩
  | 88 => ⟨S_, .i32⟩
  | 89 => ⟨S_, .f32⟩
  | 90 => ⟨S16x32, .f32⟩
  | 91 => ⟨S16x32, .f32⟩
  | 92 => ⟨S_, .f32⟩
  | 93 => ⟨S16x32, .f32⟩
  | 94 => ⟨S16x32, .f32⟩
  | 95 => ⟨S16x32, .i32⟩
  | 96 => ⟨S16x32x1, .f32⟩
  | 97 => ⟨S16x32, .f32⟩
  | 98 => ⟨S_, .i32⟩
  | 99 => ⟨S_, .i32⟩
  | 100 => ⟨S_, .f32⟩
  | 101 => ⟨S16x32, .f32⟩
  | 102 => ⟨S16x32, .f32⟩
  | 103 => ⟨S_, .f32⟩
  | 104 => ⟨S16x32, .f32⟩
  | 105 => ⟨S16x32, .f32⟩
  | 106 => ⟨S16x32, .i32⟩
  | 107 => ⟨S_, .i32⟩
  | 108 => ⟨S16x32, .i32⟩
  | 109 => ⟨S16x32, .i32⟩
  | 110 => ⟨S16x32, .i32⟩
  | 111 => ⟨S16x144x400, .f32⟩
  | 112 => ⟨S16x32x1, .i32⟩
  | 113 => ⟨S16x32x144, .f32⟩
  | 114 => ⟨S16x32x144, .f32⟩
  | 115 => ⟨S16x32x144, .f32⟩
  | 116 => ⟨S16x32x64, .f32⟩
  | 117 => ⟨S16x32x80, .f32⟩
  | 118 => ⟨S_, .f32⟩
  | 119 => ⟨S16x32x80, .f32⟩
  | 120 => ⟨S16x32x80, .f32⟩
  | 121 => ⟨S16x32x80, .f32⟩
  | 122 => ⟨S16x32x80, .f32⟩
  | 123 => ⟨S16x32x80, .f32⟩
  | 124 => ⟨S16x32x80, .f32⟩
  | 125 => ⟨S16x32x80, .f32⟩
  | 126 => ⟨S16x32x80, .f32⟩
  | 127 => ⟨S16x32x80, .f32⟩
  | _ => ⟨S16x144x80x80, .f32⟩

abbrev hbmTy0_1 (i : Nat) : BufTy := match i % 128 with
  | 0 => ⟨S_, .f32⟩
  | 1 => ⟨S16x32, .f32⟩
  | 2 => ⟨S_, .f32⟩
  | 3 => ⟨S16x32, .f32⟩
  | 4 => ⟨S16x32, .f32⟩
  | 5 => ⟨S_, .f32⟩
  | 6 => ⟨S_, .f32⟩
  | 7 => ⟨S_, .f32⟩
  | 8 => ⟨S_, .f32⟩
  | 9 => ⟨S_, .f32⟩
  | 10 => ⟨S16x32, .f32⟩
  | 11 => ⟨S_, .f32⟩
  | 12 => ⟨S16x32, .f32⟩
  | 13 => ⟨S16x32, .f32⟩
  | 14 => ⟨S16x32, .f32⟩
  | 15 => ⟨S_, .f32⟩
  | 16 => ⟨S16x32, .f32⟩
  | 17 => ⟨S16x32, .f32⟩
  | 18 => ⟨S_, .f32⟩
  | 19 => ⟨S_, .f32⟩
  | 20 => ⟨S_, .f32⟩
  | 21 => ⟨S_, .f32⟩
  | 22 => ⟨S16x32x64, .f32⟩
  | 23 => ⟨S16x32x80, .f32⟩
  | 24 => ⟨S_, .f32⟩
  | 25 => ⟨S16x32x80, .f32⟩
  | 26 => ⟨S16x32x80, .f32⟩
  | 27 => ⟨S16x32x80, .f32⟩
  | 28 => ⟨S16x32x80, .f32⟩
  | 29 => ⟨S16x32x80, .f32⟩
  | 30 => ⟨S16x32x80, .f32⟩
  | 31 => ⟨S16x32x80, .f32⟩
  | 32 => ⟨S16x32x80, .f32⟩
  | 33 => ⟨S16x32x80, .f32⟩
  | 34 => ⟨S_, .f32⟩
  | 35 => ⟨S16x32, .f32⟩
  | 36 => ⟨S_, .f32⟩
  | 37 => ⟨S16x32, .f32⟩
  | 38 => ⟨S16x32, .f32⟩
  | 39 => ⟨S_, .f32⟩
  | 40 => ⟨S_, .f32⟩
  | 41 => ⟨S_, .f32⟩
  | 42 => ⟨S_, .f32⟩
  | 43 => ⟨S16x32, .f32⟩
  | 44 => ⟨S_, .f32⟩
  | 45 => ⟨S16x32, .f32⟩
  | 46 => ⟨S16x32, .f32⟩
  | 47 => ⟨S16x32, .f32⟩
  | 48 => ⟨S_, .f32⟩
  | 49 => ⟨S16x32, .f32⟩
  | 50 => ⟨S16x32, .f32⟩
  | 51 => ⟨S_, .f32⟩
  | 52 => ⟨S_, .f32⟩
  | 53 => ⟨S_, .f32⟩
  | 54 => ⟨S16x32x64, .f32⟩
  | 55 => ⟨S16x32x80, .f32⟩
  | 56 => ⟨S_, .f32⟩
  | 57 => ⟨S16x32x80, .f32⟩
  | 58 => ⟨S16x32x80, .f32⟩
  | 59 => ⟨S16x32x80, .f32⟩
  | 60 => ⟨S16x32x80, .f32⟩
  | 61 => ⟨S16x32x80, .f32⟩
  | 62 => ⟨S16x32x80, .f32⟩
  | 63 => ⟨S16x32x80, .f32⟩
  | 64 => ⟨S16x32x80, .f32⟩
  | 65 => ⟨S16x32x80, .f32⟩
  | 66 => ⟨S_, .f32⟩
  | 67 => ⟨S16x32, .f32⟩
  | 68 => ⟨S_, .f32⟩
  | 69 => ⟨S16x32, .f32⟩
  | 70 => ⟨S16x32, .f32⟩
  | 71 => ⟨S_, .f32⟩
  | 72 => ⟨S_, .f32⟩
  | 73 => ⟨S_, .f32⟩
  | 74 => ⟨S_, .f32⟩
  | 75 => ⟨S16x32, .f32⟩
  | 76 => ⟨S_, .f32⟩
  | 77 => ⟨S16x32, .f32⟩
  | 78 => ⟨S16x32, .f32⟩
  | 79 => ⟨S16x32, .f32⟩
  | 80 => ⟨S_, .f32⟩
  | 81 => ⟨S16x32, .f32⟩
  | 82 => ⟨S16x32, .f32⟩
  | 83 => ⟨S_, .f32⟩
  | 84 => ⟨S_, .f32⟩
  | 85 => ⟨S_, .f32⟩
  | 86 => ⟨S_, .f32⟩
  | 87 => ⟨S_, .f32⟩
  | 88 => ⟨S1, .f32⟩
  | 89 => ⟨S_, .f32⟩
  | 90 => ⟨S_, .f32⟩
  | 91 => ⟨S1, .f32⟩
  | 92 => ⟨S_, .f32⟩
  | 93 => ⟨S1, .f32⟩
  | 94 => ⟨S_, .f32⟩
  | 95 => ⟨S1, .f32⟩
  | 96 => ⟨S1, .f32⟩
  | 97 => ⟨S_, .f32⟩
  | 98 => ⟨S1, .f32⟩
  | 99 => ⟨S1, .f32⟩
  | 100 => ⟨S1, .f32⟩
  | 101 => ⟨S_, .f32⟩
  | 102 => ⟨S1, .f32⟩
  | 103 => ⟨S1, .f32⟩
  | 104 => ⟨S1, .f32⟩
  | _ => ⟨S16x144x80x80, .f32⟩

abbrev hbmTy (i : Nat) : BufTy := match i / 128 with
  | 0 => hbmTy0_0 i
  | 1 => hbmTy0_1 i
  | _ => ⟨S16x144x80x80, .f32⟩

abbrev bufTy : (tb : Table) → Fin (tcTables nBuf tb) → BufTy
  | .hbm, ⟨i, _⟩ => hbmTy i
  | .local _ .vmem, ⟨0, _⟩ => ⟨S1x144x6400, .f32⟩
  | .local _ .vmem, ⟨1, _⟩ => ⟨S1x144x6400, .f32⟩
  | .local _ .vmem, ⟨2, _⟩ => ⟨S1x144x1600, .f32⟩
  | .local _ .vmem, ⟨3, _⟩ => ⟨S1x144x1600, .f32⟩
  | .local _ .vmem, ⟨4, _⟩ => ⟨S1x144x400, .f32⟩
  | .local _ .vmem, ⟨5, _⟩ => ⟨S1x144x400, .f32⟩
  | .local _ .vmem, ⟨6, _⟩ => ⟨S1x32x1, .i32⟩
  | .local _ .vmem, ⟨7, _⟩ => ⟨S1x32x1, .i32⟩
  | .local _ .vmem, ⟨8, _⟩ => ⟨S1x32x1, .i32⟩
  | .local _ .vmem, ⟨9, _⟩ => ⟨S1x32x1, .i32⟩
  | .local _ .vmem, ⟨10, _⟩ => ⟨S1x32x1, .i32⟩
  | .local _ .vmem, ⟨11, _⟩ => ⟨S1x32x1, .i32⟩
  | .local _ .vmem, ⟨12, _⟩ => ⟨S1x32x144, .f32⟩
  | .local _ .vmem, ⟨13, _⟩ => ⟨S1x32x144, .f32⟩
  | .local _ .vmem, ⟨14, _⟩ => ⟨S1x32x144, .f32⟩
  | .local _ .vmem, ⟨15, _⟩ => ⟨S1x32x144, .f32⟩
  | .local _ .vmem, ⟨16, _⟩ => ⟨S1x32x144, .f32⟩
  | .local _ .vmem, ⟨17, _⟩ => ⟨S1x32x144, .f32⟩
  | _, _ => ⟨S16x144x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_c_7 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_c_9 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v33 : Ref sig .tc := ⟨.hbm, 74, rfl⟩
abbrev main_v34 : Ref sig .tc := ⟨.hbm, 75, rfl⟩
abbrev main_c_10 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_11 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_12 : Ref sig .tc := ⟨.hbm, 87, rfl⟩
abbrev main_c_13 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_14 : Ref sig .tc := ⟨.hbm, 98, rfl⟩
abbrev main_c_15 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_v48 : Ref sig .tc := ⟨.hbm, 105, rfl⟩
abbrev main_v49 : Ref sig .tc := ⟨.hbm, 106, rfl⟩
abbrev main_c_16 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55_0 : Ref sig .tc := ⟨.hbm, 113, rfl⟩
abbrev main_v55_1 : Ref sig .tc := ⟨.hbm, 114, rfl⟩
abbrev main_v55_2 : Ref sig .tc := ⟨.hbm, 115, rfl⟩
abbrev main_v56 : Ref sig .tc := ⟨.hbm, 116, rfl⟩
abbrev main_v57 : Ref sig .tc := ⟨.hbm, 117, rfl⟩
abbrev main_cst_17 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_18 : Ref sig .tc := ⟨.hbm, 128, rfl⟩
abbrev main_v67 : Ref sig .tc := ⟨.hbm, 129, rfl⟩
abbrev main_cst_19 : Ref sig .tc := ⟨.hbm, 130, rfl⟩
abbrev main_v68 : Ref sig .tc := ⟨.hbm, 131, rfl⟩
abbrev main_v69 : Ref sig .tc := ⟨.hbm, 132, rfl⟩
abbrev main_cst_20 : Ref sig .tc := ⟨.hbm, 133, rfl⟩
abbrev main_v70 : Ref sig .tc := ⟨.hbm, 134, rfl⟩
abbrev main_cst_21 : Ref sig .tc := ⟨.hbm, 135, rfl⟩
abbrev main_v71 : Ref sig .tc := ⟨.hbm, 136, rfl⟩
abbrev main_cst_22 : Ref sig .tc := ⟨.hbm, 137, rfl⟩
abbrev main_v72 : Ref sig .tc := ⟨.hbm, 138, rfl⟩
abbrev main_cst_23 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_24 : Ref sig .tc := ⟨.hbm, 143, rfl⟩
abbrev main_v76 : Ref sig .tc := ⟨.hbm, 144, rfl⟩
abbrev main_v77 : Ref sig .tc := ⟨.hbm, 145, rfl⟩
abbrev main_cst_25 : Ref sig .tc := ⟨.hbm, 146, rfl⟩
abbrev main_v78 : Ref sig .tc := ⟨.hbm, 147, rfl⟩
abbrev main_cst_26 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_cst_27 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_28 : Ref sig .tc := ⟨.hbm, 162, rfl⟩
abbrev main_v91 : Ref sig .tc := ⟨.hbm, 163, rfl⟩
abbrev main_cst_29 : Ref sig .tc := ⟨.hbm, 164, rfl⟩
abbrev main_v92 : Ref sig .tc := ⟨.hbm, 165, rfl⟩
abbrev main_v93 : Ref sig .tc := ⟨.hbm, 166, rfl⟩
abbrev main_cst_30 : Ref sig .tc := ⟨.hbm, 167, rfl⟩
abbrev main_v94 : Ref sig .tc := ⟨.hbm, 168, rfl⟩
abbrev main_v95 : Ref sig .tc := ⟨.hbm, 169, rfl⟩
abbrev main_cst_31 : Ref sig .tc := ⟨.hbm, 170, rfl⟩
abbrev main_v96 : Ref sig .tc := ⟨.hbm, 171, rfl⟩
abbrev main_cst_32 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_cst_33 : Ref sig .tc := ⟨.hbm, 176, rfl⟩
abbrev main_v100 : Ref sig .tc := ⟨.hbm, 177, rfl⟩
abbrev main_v101 : Ref sig .tc := ⟨.hbm, 178, rfl⟩
abbrev main_cst_34 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_35 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_36 : Ref sig .tc := ⟨.hbm, 194, rfl⟩
abbrev main_v115 : Ref sig .tc := ⟨.hbm, 195, rfl⟩
abbrev main_cst_37 : Ref sig .tc := ⟨.hbm, 196, rfl⟩
abbrev main_v116 : Ref sig .tc := ⟨.hbm, 197, rfl⟩
abbrev main_v117 : Ref sig .tc := ⟨.hbm, 198, rfl⟩
abbrev main_cst_38 : Ref sig .tc := ⟨.hbm, 199, rfl⟩
abbrev main_v118 : Ref sig .tc := ⟨.hbm, 200, rfl⟩
abbrev main_v119 : Ref sig .tc := ⟨.hbm, 201, rfl⟩
abbrev main_cst_39 : Ref sig .tc := ⟨.hbm, 202, rfl⟩
abbrev main_v120 : Ref sig .tc := ⟨.hbm, 203, rfl⟩
abbrev main_cst_40 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_41 : Ref sig .tc := ⟨.hbm, 208, rfl⟩
abbrev main_v124 : Ref sig .tc := ⟨.hbm, 209, rfl⟩
abbrev main_v125 : Ref sig .tc := ⟨.hbm, 210, rfl⟩
abbrev main_cst_42 : Ref sig .tc := ⟨.hbm, 211, rfl⟩
abbrev main_v126 : Ref sig .tc := ⟨.hbm, 212, rfl⟩
abbrev main_v127 : Ref sig .tc := ⟨.hbm, 213, rfl⟩
abbrev main_cst_43 : Ref sig .tc := ⟨.hbm, 214, rfl⟩
abbrev main_v128 : Ref sig .tc := ⟨.hbm, 215, rfl⟩
abbrev main_v129 : Ref sig .tc := ⟨.hbm, 216, rfl⟩
abbrev main_cst_44 : Ref sig .tc := ⟨.hbm, 217, rfl⟩
abbrev main_v130 : Ref sig .tc := ⟨.hbm, 218, rfl⟩
abbrev main_v131 : Ref sig .tc := ⟨.hbm, 219, rfl⟩
abbrev main_cst_45 : Ref sig .tc := ⟨.hbm, 220, rfl⟩
abbrev main_v132 : Ref sig .tc := ⟨.hbm, 221, rfl⟩
abbrev main_cst_46 : Ref sig .tc := ⟨.hbm, 222, rfl⟩
abbrev main_v133 : Ref sig .tc := ⟨.hbm, 223, rfl⟩
abbrev main_v134 : Ref sig .tc := ⟨.hbm, 224, rfl⟩
abbrev main_cst_47 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_cst_48 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x144x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x144x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S16x32x5_S16x32x4_0_0_0 : S16x32x5.Slices ![0, 0, 0] S16x32x4
  slices_S16x32x5_S16x32x1_0_0_4 : S16x32x5.Slices ![0, 0, 4] S16x32x1
  shapeCasts_S16x32x1_S16x32 : S16x32x1.ShapeCasts S16x32
  slices_S16x32x4_S16x32x2_0_0_0 : S16x32x4.Slices ![0, 0, 0] S16x32x2
  slices_S16x32x4_S16x32x2_0_0_2 : S16x32x4.Slices ![0, 0, 2] S16x32x2
  bcast_S_S16x32x2 : S_.BroadcastsInDim S16x32x2 (![] : Fin 0 → Fin S16x32x2.rank)
  bcast_S16x32_S16x32x1_0_1 : S16x32.BroadcastsInDim S16x32x1 (![0, 1] : Fin 2 → Fin S16x32x1.rank)
  bcast_S16x32x1_S16x32x80_0_1_2 : S16x32x1.BroadcastsInDim S16x32x80 (![0, 1, 2] : Fin 3 → Fin S16x32x80.rank)
  bcast_S1x1x80_S16x32x80_0_1_2 : S1x1x80.BroadcastsInDim S16x32x80 (![0, 1, 2] : Fin 3 → Fin S16x32x80.rank)
  slices_S16x32x2_S16x32x1_0_0_1 : S16x32x2.Slices ![0, 0, 1] S16x32x1
  bcast_S_S16x32 : S_.BroadcastsInDim S16x32 (![] : Fin 0 → Fin S16x32.rank)
  slices_S16x32x2_S16x32x1_0_0_0 : S16x32x2.Slices ![0, 0, 0] S16x32x1
  shapeCasts_S16x144x80x80_S16x144x6400 : S16x144x80x80.ShapeCasts S16x144x6400
  shapeCasts_S16x144x40x40_S16x144x1600 : S16x144x40x40.ShapeCasts S16x144x1600
  shapeCasts_S16x144x20x20_S16x144x400 : S16x144x20x20.ShapeCasts S16x144x400
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  iota_S32x6400_d1_w32 : S32x6400.Iotas .tc 32 [1]
  broadcasts_S32x1_S32x6400 : S32x1.Broadcasts S32x6400
  natLt_1_32 : 1 < 32
  inb_S1x144x6400_S1x144x6400_0_0_0 : ∀ a, (![0, 0, 0] : Fin 3 → Nat) a + S1x144x6400.size a ≤ S1x144x6400.size a
  h_S1x144x6400 : 0 < S1x144x6400.numel
  shapeCasts_S1x144x6400_S144x6400 : S1x144x6400.ShapeCasts S144x6400
  inb_S1x32x144_S1x32x144_0_0_0 : ∀ a, (![0, 0, 0] : Fin 3 → Nat) a + S1x32x144.size a ≤ S1x32x144.size a
  h_S1x32x144 : 0 < S1x32x144.numel
  shapeCasts_S1x32x144_S32x144 : S1x32x144.ShapeCasts S32x144
  shapeCasts_S32x144_S1x32x144 : S32x144.ShapeCasts S1x32x144
  iota_S32x1600_d1_w32 : S32x1600.Iotas .tc 32 [1]
  broadcasts_S32x1_S32x1600 : S32x1.Broadcasts S32x1600
  inb_S1x144x1600_S1x144x1600_0_0_0 : ∀ a, (![0, 0, 0] : Fin 3 → Nat) a + S1x144x1600.size a ≤ S1x144x1600.size a
  h_S1x144x1600 : 0 < S1x144x1600.numel
  shapeCasts_S1x144x1600_S144x1600 : S1x144x1600.ShapeCasts S144x1600
  iota_S32x400_d1_w32 : S32x400.Iotas .tc 32 [1]
  broadcasts_S32x1_S32x400 : S32x1.Broadcasts S32x400
  inb_S1x144x400_S1x144x400_0_0_0 : ∀ a, (![0, 0, 0] : Fin 3 → Nat) a + S1x144x400.size a ≤ S1x144x400.size a
  h_S1x144x400 : 0 < S1x144x400.numel
  shapeCasts_S1x144x400_S144x400 : S1x144x400.ShapeCasts S144x400
  slices_S16x32x144_S16x32x64_0_0_0 : S16x32x144.Slices ![0, 0, 0] S16x32x64
  slices_S16x32x144_S16x32x80_0_0_64 : S16x32x144.Slices ![0, 0, 64] S16x32x80
  bcast_S_S16x32x80 : S_.BroadcastsInDim S16x32x80 (![] : Fin 0 → Fin S16x32x80.rank)
  reducesTo_S16x32x80_S16x32_d2 : S16x32x80.ReducesTo [2] S16x32
  h_S_ : 0 < S_.numel
  reducesTo_S16x32_S_d0_1 : S16x32.ReducesTo [0, 1] S_
  reducesTo_S16x32x64_S16x32_d2 : S16x32x64.ReducesTo [2] S16x32
  shapeCasts_S_S1 : S_.ShapeCasts S1
  bcast_S_S1 : S_.BroadcastsInDim S1 (![] : Fin 0 → Fin S1.rank)
  dot_S32x6400_S144x6400_S32x144_1_1_0_0_n_n_wf : DotDims.WF S32x6400 S144x6400 S32x144 [1] [1] [0] [0] [] []
  dot_S32x1600_S144x1600_S32x144_1_1_0_0_n_n_wf : DotDims.WF S32x1600 S144x1600 S32x144 [1] [1] [0] [0] [] []
  dot_S32x400_S144x400_S32x144_1_1_0_0_n_n_wf : DotDims.WF S32x400 S144x400 S32x144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x144x6400.size a ≤ S16x144x6400.size a
  hwx0_0 : ∀ i : grid0.Coords, EltTy.bits .f32 = 32 ∨ (Rect.block (s := S16x144x6400) S1x144x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x1600.size a ≤ S16x144x1600.size a
  hwx0_1 : ∀ i : grid0.Coords, EltTy.bits .f32 = 32 ∨ (Rect.block (s := S16x144x1600) S1x144x1600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x144x400.size a ≤ S16x144x400.size a
  hwx0_2 : ∀ i : grid0.Coords, EltTy.bits .f32 = 32 ∨ (Rect.block (s := S16x144x400) S1x144x400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S16x32x1.size a
  hwx0_3 : ∀ i : grid0.Coords, EltTy.bits .i32 = 32 ∨ (Rect.block (s := S16x32x1) S1x32x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1.size a ≤ S16x32x1.size a
  hwx0_4 : ∀ i : grid0.Coords, EltTy.bits .i32 = 32 ∨ (Rect.block (s := S16x32x1) S1x32x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x1.size a ≤ S16x32x1.size a
  hwx0_5 : ∀ i : grid0.Coords, EltTy.bits .i32 = 32 ∨ (Rect.block (s := S16x32x1) S1x32x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x144.size a ≤ S16x32x144.size a
  hwx0_6 : ∀ i : grid0.Coords, EltTy.bits .f32 = 32 ∨ (Rect.block (s := S16x32x144) S1x32x144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x144.size a ≤ S16x32x144.size a
  hwx0_7 : ∀ i : grid0.Coords, EltTy.bits .f32 = 32 ∨ (Rect.block (s := S16x32x144) S1x32x144.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x144.size a ≤ S16x32x144.size a
  hwx0_8 : ∀ i : grid0.Coords, EltTy.bits .f32 = 32 ∨ (Rect.block (s := S16x32x144) S1x32x144.size (cc0_transform_8 i) (hinb0_8 i)).WholeWords (EltTy.packing .f32)

variable [Facts₀]

def dot_S32x6400_S144x6400_S32x144_1_1_0_0_n_n : DotDims S32x6400 S144x6400 S32x144 where
  lhsContracting := [1]
  rhsContracting := [1]
  lhsNonContracting := [0]
  rhsNonContracting := [0]
  lhsBatch := []
  rhsBatch := []
  wf := dot_S32x6400_S144x6400_S32x144_1_1_0_0_n_n_wf
def dot_S32x1600_S144x1600_S32x144_1_1_0_0_n_n : DotDims S32x1600 S144x1600 S32x144 where
  lhsContracting := [1]
  rhsContracting := [1]
  lhsNonContracting := [0]
  rhsNonContracting := [0]
  lhsBatch := []
  rhsBatch := []
  wf := dot_S32x1600_S144x1600_S32x144_1_1_0_0_n_n_wf
def dot_S32x400_S144x400_S32x144_1_1_0_0_n_n : DotDims S32x400 S144x400 S32x144 where
  lhsContracting := [1]
  rhsContracting := [1]
  lhsNonContracting := [0]
  rhsNonContracting := [0]
  lhsBatch := []
  rhsBatch := []
  wf := dot_S32x400_S144x400_S32x144_1_1_0_0_n_n_wf

abbrev win0_0 : Pipeline.Window sig grid0 :=
  Pipeline.Window.ofSpec (Memref.whole main_v23) S1x144x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x144x1600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x144x400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x32x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S1x32x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v55_0) S1x32x144.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v55_1) S1x32x144.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v55_2) S1x32x144.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x144x80x80 : Shape := ⟨4, ![16, 144, 80, 80]⟩
abbrev S16x144x40x40 : Shape := ⟨4, ![16, 144, 40, 40]⟩
abbrev S16x144x20x20 : Shape := ⟨4, ![16, 144, 20, 20]⟩
abbrev S16x32x5 : Shape := ⟨3, ![16, 32, 5]⟩
abbrev S16x32x4 : Shape := ⟨3, ![16, 32, 4]⟩
abbrev S16x32x1 : Shape := ⟨3, ![16, 32, 1]⟩
abbrev S16x32 : Shape := ⟨2, ![16, 32]⟩
abbrev S16x32x2 : Shape := ⟨3, ![16, 32, 2]⟩
abbrev S_ : Shape := ⟨0, ![]⟩
abbrev S1x1x80 : Shape := ⟨3, ![1, 1, 80]⟩
abbrev S16x32x80 : Shape := ⟨3, ![16, 32, 80]⟩
abbrev S16 : Shape := ⟨1, ![16]⟩
abbrev S16x1 : Shape := ⟨2, ![16, 1]⟩
abbrev S16x64x80x80 : Shape := ⟨4, ![16, 64, 80, 80]⟩
abbrev S16x80x80x80 : Shape := ⟨4, ![16, 80, 80, 80]⟩
abbrev S16x32x3 : Shape := ⟨3, ![16, 32, 3]⟩
abbrev S16x32x64 : Shape := ⟨3, ![16, 32, 64]⟩
abbrev S16x64x40x40 : Shape := ⟨4, ![16, 64, 40, 40]⟩
abbrev S16x80x40x40 : Shape := ⟨4, ![16, 80, 40, 40]⟩
abbrev S16x64x20x20 : Shape := ⟨4, ![16, 64, 20, 20]⟩
abbrev S16x80x20x20 : Shape := ⟨4, ![16, 80, 20, 20]⟩
abbrev S1 : Shape := ⟨1, ![1]⟩

abbrev nBuf : Space → Nat
  | .hbm => 376
  | .vmem => 0
  | .smem => 0
  | _ => 0

abbrev hbmTy0_0 (i : Nat) : BufTy := match i % 128 with
  | 0 => ⟨S16x144x80x80, .f32⟩
  | 1 => ⟨S16x144x40x40, .f32⟩
  | 2 => ⟨S16x144x20x20, .f32⟩
  | 3 => ⟨S16x32x5, .f32⟩
  | 4 => ⟨S16x32x4, .f32⟩
  | 5 => ⟨S16x32x1, .f32⟩
  | 6 => ⟨S16x32, .f32⟩
  | 7 => ⟨S16x32, .i32⟩
  | 8 => ⟨S16x32x2, .f32⟩
  | 9 => ⟨S16x32x2, .f32⟩
  | 10 => ⟨S16x32x2, .f32⟩
  | 11 => ⟨S_, .f32⟩
  | 12 => ⟨S16x32x2, .f32⟩
  | 13 => ⟨S16x32x2, .f32⟩
  | 14 => ⟨S16x32x1, .i32⟩
  | 15 => ⟨S1x1x80, .i32⟩
  | 16 => ⟨S16x32x80, .i32⟩
  | 17 => ⟨S16x32x80, .i32⟩
  | 18 => ⟨S16x32x80, .i1⟩
  | 19 => ⟨S16x32x80, .f32⟩
  | 20 => ⟨S16, .i32⟩
  | 21 => ⟨S16x1, .i32⟩
  | 22 => ⟨S_, .f32⟩
  | 23 => ⟨S16x32x2, .f32⟩
  | 24 => ⟨S16x32x2, .f32⟩
  | 25 => ⟨S16x32x1, .f32⟩
  | 26 => ⟨S16x32, .f32⟩
  | 27 => ⟨S_, .i32⟩
  | 28 => ⟨S_, .i32⟩
  | 29 => ⟨S_, .f32⟩
  | 30 => ⟨S16x32, .f32⟩
  | 31 => ⟨S16x32, .f32⟩
  | 32 => ⟨S_, .f32⟩
  | 33 => ⟨S16x32, .f32⟩
  | 34 => ⟨S16x32, .f32⟩
  | 35 => ⟨S16x32, .i32⟩
  | 36 => ⟨S16x32x1, .f32⟩
  | 37 => ⟨S16x32, .f32⟩
  | 38 => ⟨S_, .i32⟩
  | 39 => ⟨S_, .i32⟩
  | 40 => ⟨S_, .f32⟩
  | 41 => ⟨S16x32, .f32⟩
  | 42 => ⟨S16x32, .f32⟩
  | 43 => ⟨S_, .f32⟩
  | 44 => ⟨S16x32, .f32⟩
  | 45 => ⟨S16x32, .f32⟩
  | 46 => ⟨S16x32, .i32⟩
  | 47 => ⟨S16x64x80x80, .f32⟩
  | 48 => ⟨S16x80x80x80, .f32⟩
  | 49 => ⟨S_, .i32⟩
  | 50 => ⟨S16x1, .i32⟩
  | 51 => ⟨S16x1, .i1⟩
  | 52 => ⟨S_, .i32⟩
  | 53 => ⟨S16x1, .i32⟩
  | 54 => ⟨S16x1, .i32⟩
  | 55 => ⟨S16x1, .i32⟩
  | 56 => ⟨S_, .i32⟩
  | 57 => ⟨S16x32, .i32⟩
  | 58 => ⟨S16x32, .i1⟩
  | 59 => ⟨S_, .i32⟩
  | 60 => ⟨S16x32, .i32⟩
  | 61 => ⟨S16x32, .i32⟩
  | 62 => ⟨S16x32, .i32⟩
  | 63 => ⟨S_, .i32⟩
  | 64 => ⟨S16x32, .i32⟩
  | 65 => ⟨S16x32, .i1⟩
  | 66 => ⟨S_, .i32⟩
  | 67 => ⟨S16x32, .i32⟩
  | 68 => ⟨S16x32, .i32⟩
  | 69 => ⟨S16x32, .i32⟩
  | 70 => ⟨S16x32, .i32⟩
  | 71 => ⟨S16x32x1, .i32⟩
  | 72 => ⟨S16x32x1, .i32⟩
  | 73 => ⟨S16x32x1, .i32⟩
  | 74 => ⟨S16x32x3, .i32⟩
  | 75 => ⟨S16x32x80, .f32⟩
  | 76 => ⟨S_, .i32⟩
  | 77 => ⟨S16x1, .i32⟩
  | 78 => ⟨S16x1, .i1⟩
  | 79 => ⟨S_, .i32⟩
  | 80 => ⟨S16x1, .i32⟩
  | 81 => ⟨S16x1, .i32⟩
  | 82 => ⟨S16x1, .i32⟩
  | 83 => ⟨S_, .i32⟩
  | 84 => ⟨S16x32, .i32⟩
  | 85 => ⟨S16x32, .i1⟩
  | 86 => ⟨S_, .i32⟩
  | 87 => ⟨S16x32, .i32⟩
  | 88 => ⟨S16x32, .i32⟩
  | 89 => ⟨S16x32, .i32⟩
  | 90 => ⟨S_, .i32⟩
  | 91 => ⟨S16x32, .i32⟩
  | 92 => ⟨S16x32, .i1⟩
  | 93 => ⟨S_, .i32⟩
  | 94 => ⟨S16x32, .i32⟩
  | 95 => ⟨S16x32, .i32⟩
  | 96 => ⟨S16x32, .i32⟩
  | 97 => ⟨S16x32, .i32⟩
  | 98 => ⟨S16x32x1, .i32⟩
  | 99 => ⟨S16x32x1, .i32⟩
  | 100 => ⟨S16x32x1, .i32⟩
  | 101 => ⟨S16x32x3, .i32⟩
  | 102 => ⟨S16x32x64, .f32⟩
  | 103 => ⟨S_, .f32⟩
  | 104 => ⟨S16x32x80, .f32⟩
  | 105 => ⟨S16x32x80, .f32⟩
  | 106 => ⟨S16x32x80, .f32⟩
  | 107 => ⟨S16x32x80, .f32⟩
  | 108 => ⟨S16x32x80, .f32⟩
  | 109 => ⟨S16x32x80, .f32⟩
  | 110 => ⟨S16x32x80, .f32⟩
  | 111 => ⟨S16x32x80, .f32⟩
  | 112 => ⟨S16x32x80, .f32⟩
  | 113 => ⟨S_, .f32⟩
  | 114 => ⟨S16x32, .f32⟩
  | 115 => ⟨S_, .f32⟩
  | 116 => ⟨S16x32, .f32⟩
  | 117 => ⟨S16x32, .f32⟩
  | 118 => ⟨S_, .f32⟩
  | 119 => ⟨S_, .f32⟩
  | 120 => ⟨S_, .f32⟩
  | 121 => ⟨S_, .f32⟩
  | 122 => ⟨S_, .f32⟩
  | 123 => ⟨S16x32, .f32⟩
  | 124 => ⟨S_, .f32⟩
  | 125 => ⟨S16x32, .f32⟩
  | 126 => ⟨S16x32, .f32⟩
  | 127 => ⟨S16x32, .f32⟩
  | _ => ⟨S16x144x80x80, .f32⟩

abbrev hbmTy0_1 (i : Nat) : BufTy := match i % 128 with
  | 0 => ⟨S_, .f32⟩
  | 1 => ⟨S16x32, .f32⟩
  | 2 => ⟨S16x32, .f32⟩
  | 3 => ⟨S_, .f32⟩
  | 4 => ⟨S_, .f32⟩
  | 5 => ⟨S_, .f32⟩
  | 6 => ⟨S_, .f32⟩
  | 7 => ⟨S_, .f32⟩
  | 8 => ⟨S16x32x2, .f32⟩
  | 9 => ⟨S16x32x2, .f32⟩
  | 10 => ⟨S16x32x1, .f32⟩
  | 11 => ⟨S16x32, .f32⟩
  | 12 => ⟨S_, .i32⟩
  | 13 => ⟨S_, .i32⟩
  | 14 => ⟨S_, .f32⟩
  | 15 => ⟨S16x32, .f32⟩
  | 16 => ⟨S16x32, .f32⟩
  | 17 => ⟨S_, .f32⟩
  | 18 => ⟨S16x32, .f32⟩
  | 19 => ⟨S16x32, .f32⟩
  | 20 => ⟨S16x32, .i32⟩
  | 21 => ⟨S16x32x1, .f32⟩
  | 22 => ⟨S16x32, .f32⟩
  | 23 => ⟨S_, .i32⟩
  | 24 => ⟨S_, .i32⟩
  | 25 => ⟨S_, .f32⟩
  | 26 => ⟨S16x32, .f32⟩
  | 27 => ⟨S16x32, .f32⟩
  | 28 => ⟨S_, .f32⟩
  | 29 => ⟨S16x32, .f32⟩
  | 30 => ⟨S16x32, .f32⟩
  | 31 => ⟨S16x32, .i32⟩
  | 32 => ⟨S16x64x40x40, .f32⟩
  | 33 => ⟨S16x80x40x40, .f32⟩
  | 34 => ⟨S_, .i32⟩
  | 35 => ⟨S16x1, .i32⟩
  | 36 => ⟨S16x1, .i1⟩
  | 37 => ⟨S_, .i32⟩
  | 38 => ⟨S16x1, .i32⟩
  | 39 => ⟨S16x1, .i32⟩
  | 40 => ⟨S16x1, .i32⟩
  | 41 => ⟨S_, .i32⟩
  | 42 => ⟨S16x32, .i32⟩
  | 43 => ⟨S16x32, .i1⟩
  | 44 => ⟨S_, .i32⟩
  | 45 => ⟨S16x32, .i32⟩
  | 46 => ⟨S16x32, .i32⟩
  | 47 => ⟨S16x32, .i32⟩
  | 48 => ⟨S_, .i32⟩
  | 49 => ⟨S16x32, .i32⟩
  | 50 => ⟨S16x32, .i1⟩
  | 51 => ⟨S_, .i32⟩
  | 52 => ⟨S16x32, .i32⟩
  | 53 => ⟨S16x32, .i32⟩
  | 54 => ⟨S16x32, .i32⟩
  | 55 => ⟨S16x32, .i32⟩
  | 56 => ⟨S16x32x1, .i32⟩
  | 57 => ⟨S16x32x1, .i32⟩
  | 58 => ⟨S16x32x1, .i32⟩
  | 59 => ⟨S16x32x3, .i32⟩
  | 60 => ⟨S16x32x80, .f32⟩
  | 61 => ⟨S_, .i32⟩
  | 62 => ⟨S16x1, .i32⟩
  | 63 => ⟨S16x1, .i1⟩
  | 64 => ⟨S_, .i32⟩
  | 65 => ⟨S16x1, .i32⟩
  | 66 => ⟨S16x1, .i32⟩
  | 67 => ⟨S16x1, .i32⟩
  | 68 => ⟨S_, .i32⟩
  | 69 => ⟨S16x32, .i32⟩
  | 70 => ⟨S16x32, .i1⟩
  | 71 => ⟨S_, .i32⟩
  | 72 => ⟨S16x32, .i32⟩
  | 73 => ⟨S16x32, .i32⟩
  | 74 => ⟨S16x32, .i32⟩
  | 75 => ⟨S_, .i32⟩
  | 76 => ⟨S16x32, .i32⟩
  | 77 => ⟨S16x32, .i1⟩
  | 78 => ⟨S_, .i32⟩
  | 79 => ⟨S16x32, .i32⟩
  | 80 => ⟨S16x32, .i32⟩
  | 81 => ⟨S16x32, .i32⟩
  | 82 => ⟨S16x32, .i32⟩
  | 83 => ⟨S16x32x1, .i32⟩
  | 84 => ⟨S16x32x1, .i32⟩
  | 85 => ⟨S16x32x1, .i32⟩
  | 86 => ⟨S16x32x3, .i32⟩
  | 87 => ⟨S16x32x64, .f32⟩
  | 88 => ⟨S_, .f32⟩
  | 89 => ⟨S16x32x80, .f32⟩
  | 90 => ⟨S16x32x80, .f32⟩
  | 91 => ⟨S16x32x80, .f32⟩
  | 92 => ⟨S16x32x80, .f32⟩
  | 93 => ⟨S16x32x80, .f32⟩
  | 94 => ⟨S16x32x80, .f32⟩
  | 95 => ⟨S16x32x80, .f32⟩
  | 96 => ⟨S16x32x80, .f32⟩
  | 97 => ⟨S16x32x80, .f32⟩
  | 98 => ⟨S_, .f32⟩
  | 99 => ⟨S16x32, .f32⟩
  | 100 => ⟨S_, .f32⟩
  | 101 => ⟨S16x32, .f32⟩
  | 102 => ⟨S16x32, .f32⟩
  | 103 => ⟨S_, .f32⟩
  | 104 => ⟨S_, .f32⟩
  | 105 => ⟨S_, .f32⟩
  | 106 => ⟨S_, .f32⟩
  | 107 => ⟨S16x32, .f32⟩
  | 108 => ⟨S_, .f32⟩
  | 109 => ⟨S16x32, .f32⟩
  | 110 => ⟨S16x32, .f32⟩
  | 111 => ⟨S16x32, .f32⟩
  | 112 => ⟨S_, .f32⟩
  | 113 => ⟨S16x32, .f32⟩
  | 114 => ⟨S16x32, .f32⟩
  | 115 => ⟨S_, .f32⟩
  | 116 => ⟨S_, .f32⟩
  | 117 => ⟨S_, .f32⟩
  | 118 => ⟨S_, .f32⟩
  | 119 => ⟨S16x32x2, .f32⟩
  | 120 => ⟨S16x32x2, .f32⟩
  | 121 => ⟨S16x32x1, .f32⟩
  | 122 => ⟨S16x32, .f32⟩
  | 123 => ⟨S_, .i32⟩
  | 124 => ⟨S_, .i32⟩
  | 125 => ⟨S_, .f32⟩
  | 126 => ⟨S16x32, .f32⟩
  | 127 => ⟨S16x32, .f32⟩
  | _ => ⟨S16x144x80x80, .f32⟩

abbrev hbmTy0_2 (i : Nat) : BufTy := match i % 128 with
  | 0 => ⟨S_, .f32⟩
  | 1 => ⟨S16x32, .f32⟩
  | 2 => ⟨S16x32, .f32⟩
  | 3 => ⟨S16x32, .i32⟩
  | 4 => ⟨S16x32x1, .f32⟩
  | 5 => ⟨S16x32, .f32⟩
  | 6 => ⟨S_, .i32⟩
  | 7 => ⟨S_, .i32⟩
  | 8 => ⟨S_, .f32⟩
  | 9 => ⟨S16x32, .f32⟩
  | 10 => ⟨S16x32, .f32⟩
  | 11 => ⟨S_, .f32⟩
  | 12 => ⟨S16x32, .f32⟩
  | 13 => ⟨S16x32, .f32⟩
  | 14 => ⟨S16x32, .i32⟩
  | 15 => ⟨S16x64x20x20, .f32⟩
  | 16 => ⟨S16x80x20x20, .f32⟩
  | 17 => ⟨S_, .i32⟩
  | 18 => ⟨S16x1, .i32⟩
  | 19 => ⟨S16x1, .i1⟩
  | 20 => ⟨S_, .i32⟩
  | 21 => ⟨S16x1, .i32⟩
  | 22 => ⟨S16x1, .i32⟩
  | 23 => ⟨S16x1, .i32⟩
  | 24 => ⟨S_, .i32⟩
  | 25 => ⟨S16x32, .i32⟩
  | 26 => ⟨S16x32, .i1⟩
  | 27 => ⟨S_, .i32⟩
  | 28 => ⟨S16x32, .i32⟩
  | 29 => ⟨S16x32, .i32⟩
  | 30 => ⟨S16x32, .i32⟩
  | 31 => ⟨S_, .i32⟩
  | 32 => ⟨S16x32, .i32⟩
  | 33 => ⟨S16x32, .i1⟩
  | 34 => ⟨S_, .i32⟩
  | 35 => ⟨S16x32, .i32⟩
  | 36 => ⟨S16x32, .i32⟩
  | 37 => ⟨S16x32, .i32⟩
  | 38 => ⟨S16x32, .i32⟩
  | 39 => ⟨S16x32x1, .i32⟩
  | 40 => ⟨S16x32x1, .i32⟩
  | 41 => ⟨S16x32x1, .i32⟩
  | 42 => ⟨S16x32x3, .i32⟩
  | 43 => ⟨S16x32x80, .f32⟩
  | 44 => ⟨S_, .i32⟩
  | 45 => ⟨S16x1, .i32⟩
  | 46 => ⟨S16x1, .i1⟩
  | 47 => ⟨S_, .i32⟩
  | 48 => ⟨S16x1, .i32⟩
  | 49 => ⟨S16x1, .i32⟩
  | 50 => ⟨S16x1, .i32⟩
  | 51 => ⟨S_, .i32⟩
  | 52 => ⟨S16x32, .i32⟩
  | 53 => ⟨S16x32, .i1⟩
  | 54 => ⟨S_, .i32⟩
  | 55 => ⟨S16x32, .i32⟩
  | 56 => ⟨S16x32, .i32⟩
  | 57 => ⟨S16x32, .i32⟩
  | 58 => ⟨S_, .i32⟩
  | 59 => ⟨S16x32, .i32⟩
  | 60 => ⟨S16x32, .i1⟩
  | 61 => ⟨S_, .i32⟩
  | 62 => ⟨S16x32, .i32⟩
  | 63 => ⟨S16x32, .i32⟩
  | 64 => ⟨S16x32, .i32⟩
  | 65 => ⟨S16x32, .i32⟩
  | 66 => ⟨S16x32x1, .i32⟩
  | 67 => ⟨S16x32x1, .i32⟩
  | 68 => ⟨S16x32x1, .i32⟩
  | 69 => ⟨S16x32x3, .i32⟩
  | 70 => ⟨S16x32x64, .f32⟩
  | 71 => ⟨S_, .f32⟩
  | 72 => ⟨S16x32x80, .f32⟩
  | 73 => ⟨S16x32x80, .f32⟩
  | 74 => ⟨S16x32x80, .f32⟩
  | 75 => ⟨S16x32x80, .f32⟩
  | 76 => ⟨S16x32x80, .f32⟩
  | 77 => ⟨S16x32x80, .f32⟩
  | 78 => ⟨S16x32x80, .f32⟩
  | 79 => ⟨S16x32x80, .f32⟩
  | 80 => ⟨S16x32x80, .f32⟩
  | 81 => ⟨S_, .f32⟩
  | 82 => ⟨S16x32, .f32⟩
  | 83 => ⟨S_, .f32⟩
  | 84 => ⟨S16x32, .f32⟩
  | 85 => ⟨S16x32, .f32⟩
  | 86 => ⟨S_, .f32⟩
  | 87 => ⟨S_, .f32⟩
  | 88 => ⟨S_, .f32⟩
  | 89 => ⟨S_, .f32⟩
  | 90 => ⟨S16x32, .f32⟩
  | 91 => ⟨S_, .f32⟩
  | 92 => ⟨S16x32, .f32⟩
  | 93 => ⟨S16x32, .f32⟩
  | 94 => ⟨S16x32, .f32⟩
  | 95 => ⟨S_, .f32⟩
  | 96 => ⟨S16x32, .f32⟩
  | 97 => ⟨S16x32, .f32⟩
  | 98 => ⟨S_, .f32⟩
  | 99 => ⟨S_, .f32⟩
  | 100 => ⟨S_, .f32⟩
  | 101 => ⟨S_, .f32⟩
  | 102 => ⟨S_, .f32⟩
  | 103 => ⟨S1, .f32⟩
  | 104 => ⟨S_, .f32⟩
  | 105 => ⟨S_, .f32⟩
  | 106 => ⟨S1, .f32⟩
  | 107 => ⟨S_, .f32⟩
  | 108 => ⟨S1, .f32⟩
  | 109 => ⟨S_, .f32⟩
  | 110 => ⟨S1, .f32⟩
  | 111 => ⟨S1, .f32⟩
  | 112 => ⟨S_, .f32⟩
  | 113 => ⟨S1, .f32⟩
  | 114 => ⟨S1, .f32⟩
  | 115 => ⟨S1, .f32⟩
  | 116 => ⟨S_, .f32⟩
  | 117 => ⟨S1, .f32⟩
  | 118 => ⟨S1, .f32⟩
  | 119 => ⟨S1, .f32⟩
  | _ => ⟨S16x144x80x80, .f32⟩

abbrev hbmTy (i : Nat) : BufTy := match i / 128 with
  | 0 => hbmTy0_0 i
  | 1 => hbmTy0_1 i
  | 2 => hbmTy0_2 i
  | _ => ⟨S16x144x80x80, .f32⟩

abbrev bufTy : (tb : Table) → Fin (tcTables nBuf tb) → BufTy
  | .hbm, ⟨i, _⟩ => hbmTy i
  | _, _ => ⟨S16x144x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_c_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_8 : Ref sig .tc := ⟨.hbm, 63, rfl⟩
abbrev main_v34 : Ref sig .tc := ⟨.hbm, 64, rfl⟩
abbrev main_v35 : Ref sig .tc := ⟨.hbm, 65, rfl⟩
abbrev main_c_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_12 : Ref sig .tc := ⟨.hbm, 83, rfl⟩
abbrev main_v50 : Ref sig .tc := ⟨.hbm, 84, rfl⟩
abbrev main_v51 : Ref sig .tc := ⟨.hbm, 85, rfl⟩
abbrev main_c_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_c_15 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_17 : Ref sig .tc := ⟨.hbm, 113, rfl⟩
abbrev main_v75 : Ref sig .tc := ⟨.hbm, 114, rfl⟩
abbrev main_cst_18 : Ref sig .tc := ⟨.hbm, 115, rfl⟩
abbrev main_v76 : Ref sig .tc := ⟨.hbm, 116, rfl⟩
abbrev main_v77 : Ref sig .tc := ⟨.hbm, 117, rfl⟩
abbrev main_cst_19 : Ref sig .tc := ⟨.hbm, 118, rfl⟩
abbrev main_v78 : Ref sig .tc := ⟨.hbm, 119, rfl⟩
abbrev main_cst_20 : Ref sig .tc := ⟨.hbm, 120, rfl⟩
abbrev main_v79 : Ref sig .tc := ⟨.hbm, 121, rfl⟩
abbrev main_cst_21 : Ref sig .tc := ⟨.hbm, 122, rfl⟩
abbrev main_v80 : Ref sig .tc := ⟨.hbm, 123, rfl⟩
abbrev main_cst_22 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_23 : Ref sig .tc := ⟨.hbm, 128, rfl⟩
abbrev main_v84 : Ref sig .tc := ⟨.hbm, 129, rfl⟩
abbrev main_v85 : Ref sig .tc := ⟨.hbm, 130, rfl⟩
abbrev main_cst_24 : Ref sig .tc := ⟨.hbm, 131, rfl⟩
abbrev main_v86 : Ref sig .tc := ⟨.hbm, 132, rfl⟩
abbrev main_cst_25 : Ref sig .tc := ⟨.hbm, 133, rfl⟩
abbrev main_v87 : Ref sig .tc := ⟨.hbm, 134, rfl⟩
abbrev main_cst_26 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_27 : Ref sig .tc := ⟨.hbm, 140, rfl⟩
abbrev main_c_28 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_c_29 : Ref sig .tc := ⟨.hbm, 151, rfl⟩
abbrev main_c_30 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_c_31 : Ref sig .tc := ⟨.hbm, 162, rfl⟩
abbrev main_v100 : Ref sig .tc := ⟨.hbm, 163, rfl⟩
abbrev main_v101 : Ref sig .tc := ⟨.hbm, 164, rfl⟩
abbrev main_c_32 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_33 : Ref sig .tc := ⟨.hbm, 169, rfl⟩
abbrev main_v105 : Ref sig .tc := ⟨.hbm, 170, rfl⟩
abbrev main_v106 : Ref sig .tc := ⟨.hbm, 171, rfl⟩
abbrev main_c_34 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_35 : Ref sig .tc := ⟨.hbm, 176, rfl⟩
abbrev main_v110 : Ref sig .tc := ⟨.hbm, 177, rfl⟩
abbrev main_v111 : Ref sig .tc := ⟨.hbm, 178, rfl⟩
abbrev main_c_36 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_c_37 : Ref sig .tc := ⟨.hbm, 189, rfl⟩
abbrev main_v121 : Ref sig .tc := ⟨.hbm, 190, rfl⟩
abbrev main_v122 : Ref sig .tc := ⟨.hbm, 191, rfl⟩
abbrev main_c_38 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_c_39 : Ref sig .tc := ⟨.hbm, 196, rfl⟩
abbrev main_v126 : Ref sig .tc := ⟨.hbm, 197, rfl⟩
abbrev main_v127 : Ref sig .tc := ⟨.hbm, 198, rfl⟩
abbrev main_c_40 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_41 : Ref sig .tc := ⟨.hbm, 203, rfl⟩
abbrev main_v131 : Ref sig .tc := ⟨.hbm, 204, rfl⟩
abbrev main_v132 : Ref sig .tc := ⟨.hbm, 205, rfl⟩
abbrev main_c_42 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_43 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_44 : Ref sig .tc := ⟨.hbm, 226, rfl⟩
abbrev main_v151 : Ref sig .tc := ⟨.hbm, 227, rfl⟩
abbrev main_cst_45 : Ref sig .tc := ⟨.hbm, 228, rfl⟩
abbrev main_v152 : Ref sig .tc := ⟨.hbm, 229, rfl⟩
abbrev main_v153 : Ref sig .tc := ⟨.hbm, 230, rfl⟩
abbrev main_cst_46 : Ref sig .tc := ⟨.hbm, 231, rfl⟩
abbrev main_v154 : Ref sig .tc := ⟨.hbm, 232, rfl⟩
abbrev main_v155 : Ref sig .tc := ⟨.hbm, 233, rfl⟩
abbrev main_cst_47 : Ref sig .tc := ⟨.hbm, 234, rfl⟩
abbrev main_v156 : Ref sig .tc := ⟨.hbm, 235, rfl⟩
abbrev main_cst_48 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_cst_49 : Ref sig .tc := ⟨.hbm, 240, rfl⟩
abbrev main_v160 : Ref sig .tc := ⟨.hbm, 241, rfl⟩
abbrev main_v161 : Ref sig .tc := ⟨.hbm, 242, rfl⟩
abbrev main_cst_50 : Ref sig .tc := ⟨.hbm, 243, rfl⟩
abbrev main_v162 : Ref sig .tc := ⟨.hbm, 244, rfl⟩
abbrev main_v163 : Ref sig .tc := ⟨.hbm, 245, rfl⟩
abbrev main_cst_51 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_c_52 : Ref sig .tc := ⟨.hbm, 251, rfl⟩
abbrev main_c_53 : Ref sig .tc := ⟨.hbm, 252, rfl⟩
abbrev main_call5_v0 : Ref sig .tc := ⟨.hbm, 253, rfl⟩
abbrev main_call5_v1 : Ref sig .tc := ⟨.hbm, 254, rfl⟩
abbrev main_call5_v2 : Ref sig .tc := ⟨.hbm, 255, rfl⟩
abbrev main_call5_v3 : Ref sig .tc := ⟨.hbm, 256, rfl⟩
abbrev main_call5_v4 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_c_54 : Ref sig .tc := ⟨.hbm, 262, rfl⟩
abbrev main_c_55 : Ref sig .tc := ⟨.hbm, 263, rfl⟩
abbrev main_call6_v0 : Ref sig .tc := ⟨.hbm, 264, rfl⟩
abbrev main_call6_v1 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_c_56 : Ref sig .tc := ⟨.hbm, 273, rfl⟩
abbrev main_v176 : Ref sig .tc := ⟨.hbm, 274, rfl⟩
abbrev main_v177 : Ref sig .tc := ⟨.hbm, 275, rfl⟩
abbrev main_c_57 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_c_58 : Ref sig .tc := ⟨.hbm, 280, rfl⟩
abbrev main_v181 : Ref sig .tc := ⟨.hbm, 281, rfl⟩
abbrev main_v182 : Ref sig .tc := ⟨.hbm, 282, rfl⟩
abbrev main_c_59 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_c_60 : Ref sig .tc := ⟨.hbm, 287, rfl⟩
abbrev main_v186 : Ref sig .tc := ⟨.hbm, 288, rfl⟩
abbrev main_v187 : Ref sig .tc := ⟨.hbm, 289, rfl⟩
abbrev main_c_61 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_c_62 : Ref sig .tc := ⟨.hbm, 300, rfl⟩
abbrev main_v197 : Ref sig .tc := ⟨.hbm, 301, rfl⟩
abbrev main_v198 : Ref sig .tc := ⟨.hbm, 302, rfl⟩
abbrev main_c_63 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_c_64 : Ref sig .tc := ⟨.hbm, 307, rfl⟩
abbrev main_v202 : Ref sig .tc := ⟨.hbm, 308, rfl⟩
abbrev main_v203 : Ref sig .tc := ⟨.hbm, 309, rfl⟩
abbrev main_c_65 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_c_66 : Ref sig .tc := ⟨.hbm, 314, rfl⟩
abbrev main_v207 : Ref sig .tc := ⟨.hbm, 315, rfl⟩
abbrev main_v208 : Ref sig .tc := ⟨.hbm, 316, rfl⟩
abbrev main_c_67 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_68 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_cst_69 : Ref sig .tc := ⟨.hbm, 337, rfl⟩
abbrev main_v227 : Ref sig .tc := ⟨.hbm, 338, rfl⟩
abbrev main_cst_70 : Ref sig .tc := ⟨.hbm, 339, rfl⟩
abbrev main_v228 : Ref sig .tc := ⟨.hbm, 340, rfl⟩
abbrev main_v229 : Ref sig .tc := ⟨.hbm, 341, rfl⟩
abbrev main_cst_71 : Ref sig .tc := ⟨.hbm, 342, rfl⟩
abbrev main_v230 : Ref sig .tc := ⟨.hbm, 343, rfl⟩
abbrev main_v231 : Ref sig .tc := ⟨.hbm, 344, rfl⟩
abbrev main_cst_72 : Ref sig .tc := ⟨.hbm, 345, rfl⟩
abbrev main_v232 : Ref sig .tc := ⟨.hbm, 346, rfl⟩
abbrev main_cst_73 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_cst_74 : Ref sig .tc := ⟨.hbm, 351, rfl⟩
abbrev main_v236 : Ref sig .tc := ⟨.hbm, 352, rfl⟩
abbrev main_v237 : Ref sig .tc := ⟨.hbm, 353, rfl⟩
abbrev main_cst_75 : Ref sig .tc := ⟨.hbm, 354, rfl⟩
abbrev main_v238 : Ref sig .tc := ⟨.hbm, 355, rfl⟩
abbrev main_v239 : Ref sig .tc := ⟨.hbm, 356, rfl⟩
abbrev main_cst_76 : Ref sig .tc := ⟨.hbm, 357, rfl⟩
abbrev main_v240 : Ref sig .tc := ⟨.hbm, 358, rfl⟩
abbrev main_v241 : Ref sig .tc := ⟨.hbm, 359, rfl⟩
abbrev main_cst_77 : Ref sig .tc := ⟨.hbm, 360, rfl⟩
abbrev main_v242 : Ref sig .tc := ⟨.hbm, 361, rfl⟩
abbrev main_v243 : Ref sig .tc := ⟨.hbm, 362, rfl⟩
abbrev main_cst_78 : Ref sig .tc := ⟨.hbm, 363, rfl⟩
abbrev main_v244 : Ref sig .tc := ⟨.hbm, 364, rfl⟩
abbrev main_cst_79 : Ref sig .tc := ⟨.hbm, 365, rfl⟩
abbrev main_v245 : Ref sig .tc := ⟨.hbm, 366, rfl⟩
abbrev main_v246 : Ref sig .tc := ⟨.hbm, 367, rfl⟩
abbrev main_cst_80 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_cst_81 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩

abbrev nD : Nat := 1
abbrev τ : Topo := Topo.v7x

variable {F : FTy → Type} [FloatOps F]

class Facts₀ : Prop where
  slices_S16x32x5_S16x32x4_0_0_0 : S16x32x5.Slices ![0, 0, 0] S16x32x4
  slices_S16x32x5_S16x32x1_0_0_4 : S16x32x5.Slices ![0, 0, 4] S16x32x1
  shapeCasts_S16x32x1_S16x32 : S16x32x1.ShapeCasts S16x32
  slices_S16x32x4_S16x32x2_0_0_0 : S16x32x4.Slices ![0, 0, 0] S16x32x2
  slices_S16x32x4_S16x32x2_0_0_2 : S16x32x4.Slices ![0, 0, 2] S16x32x2
  bcast_S_S16x32x2 : S_.BroadcastsInDim S16x32x2 (![] : Fin 0 → Fin S16x32x2.rank)
  bcast_S16x32_S16x32x1_0_1 : S16x32.BroadcastsInDim S16x32x1 (![0, 1] : Fin 2 → Fin S16x32x1.rank)
  bcast_S16x32x1_S16x32x80_0_1_2 : S16x32x1.BroadcastsInDim S16x32x80 (![0, 1, 2] : Fin 3 → Fin S16x32x80.rank)
  bcast_S1x1x80_S16x32x80_0_1_2 : S1x1x80.BroadcastsInDim S16x32x80 (![0, 1, 2] : Fin 3 → Fin S16x32x80.rank)
  bcast_S16_S16x1_0 : S16.BroadcastsInDim S16x1 (![0] : Fin 1 → Fin S16x1.rank)
  slices_S16x32x2_S16x32x1_0_0_1 : S16x32x2.Slices ![0, 0, 1] S16x32x1
  bcast_S_S16x32 : S_.BroadcastsInDim S16x32 (![] : Fin 0 → Fin S16x32.rank)
  slices_S16x32x2_S16x32x1_0_0_0 : S16x32x2.Slices ![0, 0, 0] S16x32x1
  slices_S16x144x80x80_S16x64x80x80_0_0_0_0 : S16x144x80x80.Slices ![0, 0, 0, 0] S16x64x80x80
  slices_S16x144x80x80_S16x80x80x80_0_64_0_0 : S16x144x80x80.Slices ![0, 64, 0, 0] S16x80x80x80
  bcast_S_S16x1 : S_.BroadcastsInDim S16x1 (![] : Fin 0 → Fin S16x1.rank)
  bcast_S16x1_S16x32_0_1 : S16x1.BroadcastsInDim S16x32 (![0, 1] : Fin 2 → Fin S16x32.rank)
  concatenates_S16x32x1_S16x32x1_S16x32x1_S16x32x3_d2 : Shape.Concatenates [S16x32x1, S16x32x1, S16x32x1] S16x32x3 2
  bcast_S_S16x32x80 : S_.BroadcastsInDim S16x32x80 (![] : Fin 0 → Fin S16x32x80.rank)
  reducesTo_S16x32x80_S16x32_d2 : S16x32x80.ReducesTo [2] S16x32
  h_S_ : 0 < S_.numel
  reducesTo_S16x32_S_d0_1 : S16x32.ReducesTo [0, 1] S_
  reducesTo_S16x32x64_S16x32_d2 : S16x32x64.ReducesTo [2] S16x32
  slices_S16x144x40x40_S16x64x40x40_0_0_0_0 : S16x144x40x40.Slices ![0, 0, 0, 0] S16x64x40x40
  slices_S16x144x40x40_S16x80x40x40_0_64_0_0 : S16x144x40x40.Slices ![0, 64, 0, 0] S16x80x40x40
  slices_S16x144x20x20_S16x64x20x20_0_0_0_0 : S16x144x20x20.Slices ![0, 0, 0, 0] S16x64x20x20
  slices_S16x144x20x20_S16x80x20x20_0_64_0_0 : S16x144x20x20.Slices ![0, 64, 0, 0] S16x80x20x20
  shapeCasts_S_S1 : S_.ShapeCasts S1
  bcast_S_S1 : S_.BroadcastsInDim S1 (![] : Fin 0 → Fin S1.rank)
  gather_S16x80x80x80_S16x32x3_S16x32x80_2_023_n_n_023_2_18011_wf : GatherDims.WF S16x80x80x80 S16x32x3 S16x32x80 [2] [0, 2, 3] [] [0, 2, 3] [] 2 ![1, 80, 1, 1]
  gather_S16x64x80x80_S16x32x3_S16x32x64_2_023_n_n_023_2_16411_wf : GatherDims.WF S16x64x80x80 S16x32x3 S16x32x64 [2] [0, 2, 3] [] [0, 2, 3] [] 2 ![1, 64, 1, 1]
  gather_S16x80x40x40_S16x32x3_S16x32x80_2_023_n_n_023_2_18011_wf : GatherDims.WF S16x80x40x40 S16x32x3 S16x32x80 [2] [0, 2, 3] [] [0, 2, 3] [] 2 ![1, 80, 1, 1]
  gather_S16x64x40x40_S16x32x3_S16x32x64_2_023_n_n_023_2_16411_wf : GatherDims.WF S16x64x40x40 S16x32x3 S16x32x64 [2] [0, 2, 3] [] [0, 2, 3] [] 2 ![1, 64, 1, 1]
  gather_S16x80x20x20_S16x32x3_S16x32x80_2_023_n_n_023_2_18011_wf : GatherDims.WF S16x80x20x20 S16x32x3 S16x32x80 [2] [0, 2, 3] [] [0, 2, 3] [] 2 ![1, 80, 1, 1]
  gather_S16x64x20x20_S16x32x3_S16x32x64_2_023_n_n_023_2_16411_wf : GatherDims.WF S16x64x20x20 S16x32x3 S16x32x64 [2] [0, 2, 3] [] [0, 2, 3] [] 2 ![1, 64, 1, 1]

variable [Facts₀]

def gather_S16x80x80x80_S16x32x3_S16x32x80_2_023_n_n_023_2_18011 : GatherDims S16x80x80x80 S16x32x3 S16x32x80 where
  offsetDims := [2]
  collapsedSliceDims := [0, 2, 3]
  operandBatchingDims := []
  startIndicesBatchingDims := []
  startIndexMap := [0, 2, 3]
  indexVectorDim := 2
  sliceSizes := ![1, 80, 1, 1]
  wf := gather_S16x80x80x80_S16x32x3_S16x32x80_2_023_n_n_023_2_18011_wf
def gather_S16x64x80x80_S16x32x3_S16x32x64_2_023_n_n_023_2_16411 : GatherDims S16x64x80x80 S16x32x3 S16x32x64 where
  offsetDims := [2]
  collapsedSliceDims := [0, 2, 3]
  operandBatchingDims := []
  startIndicesBatchingDims := []
  startIndexMap := [0, 2, 3]
  indexVectorDim := 2
  sliceSizes := ![1, 64, 1, 1]
  wf := gather_S16x64x80x80_S16x32x3_S16x32x64_2_023_n_n_023_2_16411_wf
def gather_S16x80x40x40_S16x32x3_S16x32x80_2_023_n_n_023_2_18011 : GatherDims S16x80x40x40 S16x32x3 S16x32x80 where
  offsetDims := [2]
  collapsedSliceDims := [0, 2, 3]
  operandBatchingDims := []
  startIndicesBatchingDims := []
  startIndexMap := [0, 2, 3]
  indexVectorDim := 2
  sliceSizes := ![1, 80, 1, 1]
  wf := gather_S16x80x40x40_S16x32x3_S16x32x80_2_023_n_n_023_2_18011_wf
def gather_S16x64x40x40_S16x32x3_S16x32x64_2_023_n_n_023_2_16411 : GatherDims S16x64x40x40 S16x32x3 S16x32x64 where
  offsetDims := [2]
  collapsedSliceDims := [0, 2, 3]
  operandBatchingDims := []
  startIndicesBatchingDims := []
  startIndexMap := [0, 2, 3]
  indexVectorDim := 2
  sliceSizes := ![1, 64, 1, 1]
  wf := gather_S16x64x40x40_S16x32x3_S16x32x64_2_023_n_n_023_2_16411_wf
def gather_S16x80x20x20_S16x32x3_S16x32x80_2_023_n_n_023_2_18011 : GatherDims S16x80x20x20 S16x32x3 S16x32x80 where
  offsetDims := [2]
  collapsedSliceDims := [0, 2, 3]
  operandBatchingDims := []
  startIndicesBatchingDims := []
  startIndexMap := [0, 2, 3]
  indexVectorDim := 2
  sliceSizes := ![1, 80, 1, 1]
  wf := gather_S16x80x20x20_S16x32x3_S16x32x80_2_023_n_n_023_2_18011_wf
def gather_S16x64x20x20_S16x32x3_S16x32x64_2_023_n_n_023_2_16411 : GatherDims S16x64x20x20 S16x32x3 S16x32x64 where
  offsetDims := [2]
  collapsedSliceDims := [0, 2, 3]
  operandBatchingDims := []
  startIndicesBatchingDims := []
  startIndexMap := [0, 2, 3]
  indexVectorDim := 2
  sliceSizes := ![1, 64, 1, 1]
  wf := gather_S16x64x20x20_S16x32x3_S16x32x64_2_023_n_n_023_2_16411_wf

class Facts : Prop extends Facts₀ where

variable [Facts]
-- ==== Proof.FrameKernel.lean ====
/-
  The frame of the program `Kernel`: @main is fifteen stretches of host operations, one gridded region of
  sixteen points, and one stretch of 117 host operations after it.  At every point the region's body reads the three
  index columns and the three prediction blocks, and stores into each of the three result blocks one product
  (one-hot rows) × (prediction block)ᵀ that covers the block whole; it keeps nothing between points.  So the body's
  triple is one symbolic run, each result block after the body is the canon of its one store over the input blocks,
  and the run around the region leaves every argument array as launched and every other unscoped buffer at what the
  later host operations compute from the arrays the region wrote.
-/
import proofs.«177253_j51616916963406_2_alg».proof.Proof.Gen.Kernel.Launch
import proofs.«177253_j51616916963406_2_alg».proof.Proof.Gen.Kernel.Skeleton
import proofs.«177253_j51616916963406_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the fifteen stretches of
    host operations that come before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 4000000 in
/-- Each writes its own result buffer, which is none of the nine arrays the region stages. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 0, and the region stages none of it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 1, and the region stages none of it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 2, and the region stages none of it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 3, and the region stages none of it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's accesses -/

abbrev rIdx : Rect S1x32x1 := Rect.unit (s := S1x32x1) ![0, 0, 0] S1x32x1.size inb_S1x32x1_S1x32x1_0_0_0
abbrev rP0 : Rect S1x144x6400 := Rect.unit (s := S1x144x6400) ![0, 0, 0] S1x144x6400.size inb_S1x144x6400_S1x144x6400_0_0_0
abbrev rP1 : Rect S1x144x1600 := Rect.unit (s := S1x144x1600) ![0, 0, 0] S1x144x1600.size inb_S1x144x1600_S1x144x1600_0_0_0
abbrev rP2 : Rect S1x144x400 := Rect.unit (s := S1x144x400) ![0, 0, 0] S1x144x400.size inb_S1x144x400_S1x144x400_0_0_0
abbrev rOut : Rect S1x32x144 := Rect.unit (s := S1x32x144) ![0, 0, 0] S1x32x144.size inb_S1x32x144_S1x32x144_0_0_0

/-! ## What the body leaves in each result window's buffer -/

/-- Result window 6 after the body: its one store, the one-hot rows of index column `i0` times the block `x0`. -/
def out0_6 (x0 : Vec F S1x144x6400 .f32) (i0 : Vec F S1x32x1 .i32) : Vec F S1x32x144 .f32 :=
  View.canon [⟨rOut, k0_pay2 (View.ld i0 rIdx) (View.ld x0 rP0)⟩]
/-- Result window 7 after the body. -/
def out0_7 (x1 : Vec F S1x144x1600 .f32) (i1 : Vec F S1x32x1 .i32) : Vec F S1x32x144 .f32 :=
  View.canon [⟨rOut, k0_pay3 (View.ld i1 rIdx) (View.ld x1 rP1)⟩]
/-- Result window 8 after the body. -/
def out0_8 (x2 : Vec F S1x144x400 .f32) (i2 : Vec F S1x32x1 .i32) : Vec F S1x32x144 .f32 :=
  View.canon [⟨rOut, k0_pay1 (k0_pay4 (View.ld i2 rIdx)) (View.ld x2 rP2)⟩]

/-- The one store goes through the whole-block rectangle, so it covers the block. -/
theorem hz3 : (![0, 0, 0] : Fin 3 → Nat) = fun _ => 0 := funext fun a => by fin_cases a <;> rfl

theorem coverOut (p0 : Vec F S1x32x144 .f32) (y : S1x32x144.Idx) :
    ∃ pc ∈ ([⟨rOut, p0⟩] : List (View.Piece (Elt F) S1x32x144 .f32)), y ∈ pc.1.set :=
  ⟨_, List.mem_singleton_self _, View.mem_set_unit_zero hz3 inb_S1x32x144_S1x32x144_0_0_0 y⟩

/-! ## The body's triple -/

set_option maxHeartbeats 4000000 in
/-- The body on whole staging memrefs, the six inputs' at read contents and the three results' at anything, runs to
    the continuation holding the inputs as they were and each result at its one store's payload. -/
theorem sound_kernel (c : Dev nD) (E : Set ℕ) (i : grid0.Coords)
    (arg1 : Memref sig .tc .vmem S1x144x6400 .f32) (harg1 : arg1.IsWhole) (arg2 : Memref sig .tc .vmem S1x144x1600 .f32) (harg2 : arg2.IsWhole)
    (arg3 : Memref sig .tc .vmem S1x144x400 .f32) (harg3 : arg3.IsWhole) (arg4 : Memref sig .tc .vmem S1x32x1 .i32) (harg4 : arg4.IsWhole)
    (arg5 : Memref sig .tc .vmem S1x32x1 .i32) (harg5 : arg5.IsWhole) (arg6 : Memref sig .tc .vmem S1x32x1 .i32) (harg6 : arg6.IsWhole)
    (arg7 : Memref sig .tc .vmem S1x32x144 .f32) (harg7 : arg7.IsWhole) (arg8 : Memref sig .tc .vmem S1x32x144 .f32) (harg8 : arg8.IsWhole)
    (arg9 : Memref sig .tc .vmem S1x32x144 .f32) (harg9 : arg9.IsWhole)
    (x0 : Vec F S1x144x6400 .f32) (x1 : Vec F S1x144x1600 .f32) (x2 : Vec F S1x144x400 .f32)
    (x3 : Vec F S1x32x1 .i32) (x4 : Vec F S1x32x1 .i32) (x5 : Vec F S1x32x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x3) ∗ owns (c : Thread nD τ) arg8 fullShare (out0_7 x1 x4)
            ∗ owns (c : Thread nD τ) arg9 fullShare (out0_8 x2 x5)) -∗ K ⟨⟩))
      ⊢ wp frame (wpE (defs₀ (F := F)) Variants.none c none) E
          (cc0__fused_gather_kernel i arg1 harg1 arg2 harg2 arg3 harg3 arg4 harg4 arg5 harg5 arg6 harg6 arg7 harg7 arg8 harg8 arg9 harg9) K := by
  simp only [cc0__fused_gather_kernel_eq_skeleton]; unfold cc0__fused_gather_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverOut _)
  isplitl [H7]
  · iexists _; isplitr
    swap; · iexact H7
    ipureintro
    try dsimp only
    exact View.read_writes_eq_canon _ _ _ (coverOut _)
  iexists _; isplitr
  swap; · iexact H8
  ipureintro
  try dsimp only
  exact View.read_writes_eq_canon _ _ _ (coverOut _)

/-! ## The pipeline's proof data -/

/-- The proof data on core `c`: the arrays as the region finds them; after the body at point `t` each input's buffer
    at its block and each result's at its store's payload of the input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 3 t)
    | ⟨7, _⟩ => out0_7 (iblk m c 1 t) (iblk m c 4 t)
    | ⟨8, _⟩ => out0_8 (iblk m c 2 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 3 t) := by dsimp only [dats]
theorem after0_7 (c : Dev nD) (t : Fin cfg0.N) : (dats m 0 c).after 7 t = out0_7 (iblk m c 1 t) (iblk m c 4 t) := by dsimp only [dats]
theorem after0_8 (c : Dev nD) (t : Fin cfg0.N) : (dats m 0 c).after 8 t = out0_8 (iblk m c 2 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the nine staged arrays at what
    the write-backs left and every other unscoped buffer at what the host operations after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Frame

end
-- ==== Proof.FrameKernelIdeal.lean ====
/-
  The frame of the program `KernelIdeal`: @main is fifteen stretches of host operations, one gridded region of
  sixteen points, and one stretch of 117 host operations after it.  At every point the region's body reads the three
  index columns and the three prediction blocks, and stores into each of the three result blocks one product
  (one-hot rows) × (prediction block)ᵀ that covers the block whole; it keeps nothing between points.  So the body's
  triple is one symbolic run, each result block after the body is the canon of its one store over the input blocks,
  and the run around the region leaves every argument array as launched and every other unscoped buffer at what the
  later host operations compute from the arrays the region wrote.
-/
import proofs.«177253_j51616916963406_2_alg».proof.Proof.Gen.KernelIdeal.Launch
import proofs.«177253_j51616916963406_2_alg».proof.Proof.Gen.KernelIdeal.Skeleton
import proofs.«177253_j51616916963406_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents of core `c` when the region is entered: the launch contents after the fifteen stretches of
    host operations that come before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The operations after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 4000000 in
/-- Each writes its own result buffer, which is none of the nine arrays the region stages. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 0, and the region stages none of it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 1, and the region stages none of it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 2, and the region stages none of it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host operation after the region writes argument 3, and the region stages none of it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body's accesses -/

abbrev rIdx : Rect S1x32x1 := Rect.unit (s := S1x32x1) ![0, 0, 0] S1x32x1.size inb_S1x32x1_S1x32x1_0_0_0
abbrev rP0 : Rect S1x144x6400 := Rect.unit (s := S1x144x6400) ![0, 0, 0] S1x144x6400.size inb_S1x144x6400_S1x144x6400_0_0_0
abbrev rP1 : Rect S1x144x1600 := Rect.unit (s := S1x144x1600) ![0, 0, 0] S1x144x1600.size inb_S1x144x1600_S1x144x1600_0_0_0
abbrev rP2 : Rect S1x144x400 := Rect.unit (s := S1x144x400) ![0, 0, 0] S1x144x400.size inb_S1x144x400_S1x144x400_0_0_0
abbrev rOut : Rect S1x32x144 := Rect.unit (s := S1x32x144) ![0, 0, 0] S1x32x144.size inb_S1x32x144_S1x32x144_0_0_0

/-! ## What the body leaves in each result window's buffer -/

/-- Result window 6 after the body: its one store, the one-hot rows of index column `i0` times the block `x0`. -/
def out0_6 (x0 : Vec F S1x144x6400 .f32) (i0 : Vec F S1x32x1 .i32) : Vec F S1x32x144 .f32 :=
  View.canon [⟨rOut, k0_pay2 (View.ld i0 rIdx) (View.ld x0 rP0)⟩]
/-- Result window 7 after the body. -/
def out0_7 (x1 : Vec F S1x144x1600 .f32) (i1 : Vec F S1x32x1 .i32) : Vec F S1x32x144 .f32 :=
  View.canon [⟨rOut, k0_pay3 (View.ld i1 rIdx) (View.ld x1 rP1)⟩]
/-- Result window 8 after the body. -/
def out0_8 (x2 : Vec F S1x144x400 .f32) (i2 : Vec F S1x32x1 .i32) : Vec F S1x32x144 .f32 :=
  View.canon [⟨rOut, k0_pay1 (k0_pay4 (View.ld i2 rIdx)) (View.ld x2 rP2)⟩]

/-- The one store goes through the whole-block rectangle, so it covers the block. -/
theorem hz3 : (![0, 0, 0] : Fin 3 → Nat) = fun _ => 0 := funext fun a => by fin_cases a <;> rfl

theorem coverOut (p0 : Vec F S1x32x144 .f32) (y : S1x32x144.Idx) :
    ∃ pc ∈ ([⟨rOut, p0⟩] : List (View.Piece (Elt F) S1x32x144 .f32)), y ∈ pc.1.set :=
  ⟨_, List.mem_singleton_self _, View.mem_set_unit_zero hz3 inb_S1x32x144_S1x32x144_0_0_0 y⟩

/-! ## The body's triple -/

set_option maxHeartbeats 4000000 in
/-- The body on whole staging memrefs, the six inputs' at read contents and the three results' at anything, runs to
    the continuation holding the inputs as they were and each result at its one store's payload. -/
theorem sound_kernel (c : Dev nD) (E : Set ℕ) (i : grid0.Coords)
    (arg1 : Memref sig .tc .vmem S1x144x6400 .f32) (harg1 : arg1.IsWhole) (arg2 : Memref sig .tc .vmem S1x144x1600 .f32) (harg2 : arg2.IsWhole)
    (arg3 : Memref sig .tc .vmem S1x144x400 .f32) (harg3 : arg3.IsWhole) (arg4 : Memref sig .tc .vmem S1x32x1 .i32) (harg4 : arg4.IsWhole)
    (arg5 : Memref sig .tc .vmem S1x32x1 .i32) (harg5 : arg5.IsWhole) (arg6 : Memref sig .tc .vmem S1x32x1 .i32) (harg6 : arg6.IsWhole)
    (arg7 : Memref sig .tc .vmem S1x32x144 .f32) (harg7 : arg7.IsWhole) (arg8 : Memref sig .tc .vmem S1x32x144 .f32) (harg8 : arg8.IsWhole)
    (arg9 : Memref sig .tc .vmem S1x32x144 .f32) (harg9 : arg9.IsWhole)
    (x0 : Vec F S1x144x6400 .f32) (x1 : Vec F S1x144x1600 .f32) (x2 : Vec F S1x144x400 .f32)
    (x3 : Vec F S1x32x1 .i32) (x4 : Vec F S1x32x1 .i32) (x5 : Vec F S1x32x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x3) ∗ owns (c : Thread nD τ) arg8 fullShare (out0_7 x1 x4)
            ∗ owns (c : Thread nD τ) arg9 fullShare (out0_8 x2 x5)) -∗ K ⟨⟩))
      ⊢ wp frame (wpE (defs₀ (F := F)) Variants.none c none) E
          (cc0__fused_gather_kernel i arg1 harg1 arg2 harg2 arg3 harg3 arg4 harg4 arg5 harg5 arg6 harg6 arg7 harg7 arg8 harg8 arg9 harg9) K := by
  simp only [cc0__fused_gather_kernel_eq_skeleton]; unfold cc0__fused_gather_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverOut _)
  isplitl [H7]
  · iexists _; isplitr
    swap; · iexact H7
    ipureintro
    try dsimp only
    exact View.read_writes_eq_canon _ _ _ (coverOut _)
  iexists _; isplitr
  swap; · iexact H8
  ipureintro
  try dsimp only
  exact View.read_writes_eq_canon _ _ _ (coverOut _)

/-! ## The pipeline's proof data -/

/-- The proof data on core `c`: the arrays as the region finds them; after the body at point `t` each input's buffer
    at its block and each result's at its store's payload of the input blocks; nothing kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 3 t)
    | ⟨7, _⟩ => out0_7 (iblk m c 1 t) (iblk m c 4 t)
    | ⟨8, _⟩ => out0_8 (iblk m c 2 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 3 t) := by dsimp only [dats]
theorem after0_7 (c : Dev nD) (t : Fin cfg0.N) : (dats m 0 c).after 7 t = out0_7 (iblk m c 1 t) (iblk m c 4 t) := by dsimp only [dats]
theorem after0_8 (c : Dev nD) (t : Fin cfg0.N) : (dats m 0 c).after 8 t = out0_8 (iblk m c 2 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in
/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each of the nine staged arrays at what
    the write-backs left and every other unscoped buffer at what the host operations after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Frame

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.LibOneHotRow.lean ====
/-
  A one-hot row against a matrix row, over the extended reals.

  A row of 0/1 entries that is 1 exactly at position `k₀` selects entry `k₀` of any row it is multiplied with
  and summed against: Σₖ [k = k₀] · r k = r k₀.  On the extended reals this needs no finiteness of `r`, because
  0 · x = 0 for every extended real x, the infinities included.  The 0/1 entry is how a comparison bit, widened to
  32 bits and converted as a signed integer, reads at the exact instance; the positions are 32-bit words of the
  natural numbers below 2³², which are pairwise distinct.
-/
import Idealize.ShloMosaic.Lib.ValueIdx

noncomputable section

open scoped BigOperators

namespace Idealize.ShloMosaic.OneHotRow

open Idealize.ShloMosaic

/-- The comparison bit of two 32-bit words, widened to 32 bits and converted as a signed integer, is 1 when the
    words are equal and 0 when they are not. -/
theorem bit_sitofp (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    have : (IntOp.cmpi .eq a a).setWidth 32 = 1#32 := by
      unfold IntOp.cmpi; simp
    rw [this, if_pos rfl]; norm_num
  · have : (IntOp.cmpi .eq a b).setWidth 32 = 0#32 := by
      unfold IntOp.cmpi
      have hb : (a == b) = false := by simpa using h
      simp [hb]
    rw [this, if_neg h]; norm_num

/-- The 32-bit words of two naturals below 2³² are equal only if the naturals are. -/
theorem ofNat_inj {K : Nat} (hK : K ≤ 2 ^ 32) (k k' : Fin K) :
    BitVec.ofNat 32 k.val = BitVec.ofNat 32 k'.val ↔ k = k' := by
  constructor
  · intro h
    have h1 := congrArg BitVec.toNat h
    simp only [BitVec.toNat_ofNat] at h1
    have := k.isLt; have := k'.isLt
    rw [Nat.mod_eq_of_lt (by omega), Nat.mod_eq_of_lt (by omega)] at h1
    exact Fin.ext h1
  · rintro rfl; rfl

/-- A one-hot row picks one entry: Σₖ [word k = w] · r k = r k₀ when `w` is the word of `k₀`. -/
theorem sum_onehot {K : Nat} (hK : K ≤ 2 ^ 32) (w : BitVec 32) (k₀ : Fin K) (hw : w = BitVec.ofNat 32 k₀.val)
    (r : Fin K → EReal) :
    (∑ k : Fin K, (if BitVec.ofNat 32 k.val = w then (1 : EReal) else 0) * r k) = r k₀ := by
  subst hw
  rw [Finset.sum_eq_single k₀]
  · rw [if_pos rfl, one_mul]
  · intro k _ hk
    rw [if_neg (fun h => hk ((ofNat_inj hK k k₀).mp h)), zero_mul]
  · intro h; exact absurd (Finset.mem_univ _) h

end Idealize.ShloMosaic.OneHotRow

end
-- ==== Proof.Payload.lean ====
/-
  The three stores of the region's body, read at an index, over the extended reals.

  At each pyramid level the body builds, from the level's index column i (one 32-bit word per target n), the 32 × HW
  matrix whose entry (n, k) is 1 when the word of k equals i n and 0 otherwise, multiplies it with the transposed
  prediction block x (144 × HW) into a zero accumulator, and stores the 32 × 144 product.  Entry (n, ch) of the product
  is Σₖ [k = i n] · x (ch, k): the one-hot row picks x (ch, i n), with no finiteness of x needed.
-/
import proofs.«177253_j51616916963406_2_alg».proof.Proof.Gen.KernelIdeal.Skeleton
import proofs.«177253_j51616916963406_2_alg».proof.Proof.LibTransDot
import proofs.«177253_j51616916963406_2_alg».proof.Proof.LibOneHotRow
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-- Entry (n, k) of the level's one-hot matrix (HW = 6400): 1 when the word of k is target n's index word. -/
theorem onehot_entry_6400 (i0 : Vec Ideal S1x32x1 .i32) (n : Fin 32) (k : Fin 6400) :
    (sitofp .f32 (extui 32 (cmpi .eq (iota .tc S32x6400 32 [1] iota_S32x6400_d1_w32)
        (broadcastTo S32x6400 (shapeCast S32x1 i0 shapeCasts_S1x32x1_S32x1) broadcasts_S32x1_S32x6400)) natLt_1_32) : FVec Ideal S32x6400 .f32) (ix2 n k)
      = if BitVec.ofNat 32 k.val = i0 (ix3 (0 : Fin 1) n (0 : Fin 1)) then (1 : EReal) else 0 := by
  rw [sitofp_apply, extui_apply]
  show FloatOps.sitofp (F := Ideal) .f32 ((IntOp.cmpi .eq (iota .tc S32x6400 32 [1] iota_S32x6400_d1_w32 (ix2 n k))
      (broadcastTo S32x6400 (shapeCast S32x1 i0 shapeCasts_S1x32x1_S32x1) broadcasts_S32x1_S32x6400 (ix2 n k))).setWidth 32) = _
  rw [iota_single_apply, broadcastTo_apply _ _ (ix2 n k) (ix2 n (0 : Fin 1)) (by
      intro a; match a with
      | ⟨0, _⟩ => rfl
      | ⟨1, _⟩ => rfl),
    shapeCast_1ab_ab_apply, OneHotRow.bit_sitofp]

/-- Entry (n, k) of the level's one-hot matrix (HW = 1600): 1 when the word of k is target n's index word. -/
theorem onehot_entry_1600 (i0 : Vec Ideal S1x32x1 .i32) (n : Fin 32) (k : Fin 1600) :
    (sitofp .f32 (extui 32 (cmpi .eq (iota .tc S32x1600 32 [1] iota_S32x1600_d1_w32)
        (broadcastTo S32x1600 (shapeCast S32x1 i0 shapeCasts_S1x32x1_S32x1) broadcasts_S32x1_S32x1600)) natLt_1_32) : FVec Ideal S32x1600 .f32) (ix2 n k)
      = if BitVec.ofNat 32 k.val = i0 (ix3 (0 : Fin 1) n (0 : Fin 1)) then (1 : EReal) else 0 := by
  rw [sitofp_apply, extui_apply]
  show FloatOps.sitofp (F := Ideal) .f32 ((IntOp.cmpi .eq (iota .tc S32x1600 32 [1] iota_S32x1600_d1_w32 (ix2 n k))
      (broadcastTo S32x1600 (shapeCast S32x1 i0 shapeCasts_S1x32x1_S32x1) broadcasts_S32x1_S32x1600 (ix2 n k))).setWidth 32) = _
  rw [iota_single_apply, broadcastTo_apply _ _ (ix2 n k) (ix2 n (0 : Fin 1)) (by
      intro a; match a with
      | ⟨0, _⟩ => rfl
      | ⟨1, _⟩ => rfl),
    shapeCast_1ab_ab_apply, OneHotRow.bit_sitofp]

/-- Entry (n, k) of the level's one-hot matrix (HW = 400): 1 when the word of k is target n's index word. -/
theorem onehot_entry_400 (i0 : Vec Ideal S1x32x1 .i32) (n : Fin 32) (k : Fin 400) :
    (sitofp .f32 (extui 32 (cmpi .eq (iota .tc S32x400 32 [1] iota_S32x400_d1_w32)
        (broadcastTo S32x400 (shapeCast S32x1 i0 shapeCasts_S1x32x1_S32x1) broadcasts_S32x1_S32x400)) natLt_1_32) : FVec Ideal S32x400 .f32) (ix2 n k)
      = if BitVec.ofNat 32 k.val = i0 (ix3 (0 : Fin 1) n (0 : Fin 1)) then (1 : EReal) else 0 := by
  rw [sitofp_apply, extui_apply]
  show FloatOps.sitofp (F := Ideal) .f32 ((IntOp.cmpi .eq (iota .tc S32x400 32 [1] iota_S32x400_d1_w32 (ix2 n k))
      (broadcastTo S32x400 (shapeCast S32x1 i0 shapeCasts_S1x32x1_S32x1) broadcasts_S32x1_S32x400 (ix2 n k))).setWidth 32) = _
  rw [iota_single_apply, broadcastTo_apply _ _ (ix2 n k) (ix2 n (0 : Fin 1)) (by
      intro a; match a with
      | ⟨0, _⟩ => rfl
      | ⟨1, _⟩ => rfl),
    shapeCast_1ab_ab_apply, OneHotRow.bit_sitofp]

/-- Level 0's store at (0, n, ch): the prediction block's entry (0, ch, k) at the target's index k. -/
theorem pay2_apply (i0 : Vec Ideal S1x32x1 .i32) (x0 : Vec Ideal S1x144x6400 .f32) (n : Fin 32) (ch : Fin 144) (k : Fin 6400)
    (hk : i0 (ix3 (0 : Fin 1) n (0 : Fin 1)) = BitVec.ofNat 32 k.val) :
    k0_pay2 (F := Ideal) i0 x0 (ix3 (0 : Fin 1) n ch) = x0 (ix3 (0 : Fin 1) ch k) := by
  unfold k0_pay2
  refine (shapeCast_ab_1ab_apply _ _ (0 : Fin 1) n ch).trans ?_
  refine (TransDot.matmul_zero_apply (M := 32) (K := 6400) (N := 144) _ _ _ n ch).trans ?_
  refine (Finset.sum_congr rfl fun k' _ => congrArg₂ (· * ·) (onehot_entry_6400 i0 n k') (shapeCast_1ab_ab_apply _ _ ch k')).trans ?_
  exact OneHotRow.sum_onehot (by norm_num) _ k hk fun k' => x0 (ix3 (0 : Fin 1) ch k')

/-- Level 1's store at (0, n, ch). -/
theorem pay3_apply (i1 : Vec Ideal S1x32x1 .i32) (x1 : Vec Ideal S1x144x1600 .f32) (n : Fin 32) (ch : Fin 144) (k : Fin 1600)
    (hk : i1 (ix3 (0 : Fin 1) n (0 : Fin 1)) = BitVec.ofNat 32 k.val) :
    k0_pay3 (F := Ideal) i1 x1 (ix3 (0 : Fin 1) n ch) = x1 (ix3 (0 : Fin 1) ch k) := by
  unfold k0_pay3
  refine (shapeCast_ab_1ab_apply _ _ (0 : Fin 1) n ch).trans ?_
  refine (TransDot.matmul_zero_apply (M := 32) (K := 1600) (N := 144) _ _ _ n ch).trans ?_
  refine (Finset.sum_congr rfl fun k' _ => congrArg₂ (· * ·) (onehot_entry_1600 i1 n k') (shapeCast_1ab_ab_apply _ _ ch k')).trans ?_
  exact OneHotRow.sum_onehot (by norm_num) _ k hk fun k' => x1 (ix3 (0 : Fin 1) ch k')

/-- Level 2's store at (0, n, ch). -/
theorem pay1_apply (i2 : Vec Ideal S1x32x1 .i32) (x2 : Vec Ideal S1x144x400 .f32) (n : Fin 32) (ch : Fin 144) (k : Fin 400)
    (hk : i2 (ix3 (0 : Fin 1) n (0 : Fin 1)) = BitVec.ofNat 32 k.val) :
    k0_pay1 (F := Ideal) (k0_pay4 (F := Ideal) i2) x2 (ix3 (0 : Fin 1) n ch) = x2 (ix3 (0 : Fin 1) ch k) := by
  unfold k0_pay1 k0_pay4
  refine (shapeCast_ab_1ab_apply _ _ (0 : Fin 1) n ch).trans ?_
  refine (TransDot.matmul_zero_apply (M := 32) (K := 400) (N := 144) _ _ _ n ch).trans ?_
  refine (Finset.sum_congr rfl fun k' _ => congrArg₂ (· * ·) (onehot_entry_400 i2 n k') (shapeCast_1ab_ab_apply _ _ ch k')).trans ?_
  exact OneHotRow.sum_onehot (by norm_num) _ k hk fun k' => x2 (ix3 (0 : Fin 1) ch k')

end Cert.KernelIdeal.Payload

end
-- ==== Proof.KValue.lean ====
/-
  The three arrays the region writes, as whole-array functions of what the region finds.

  Point t of the grid stages image t of each prediction array (one [144, HW] block) and of each index column (one
  [32, 1] block) and writes back the [32, 144] block of image t.  Entry (n, ch) of that block is the prediction
  block's entry (ch, k) at k the target's index word (read as a natural number, which is below HW).  The sixteen
  blocks tile each result array, so after the run entry (b, n, ch) of a result array is the prediction array's entry
  (b, ch, k) with k the index word of target (b, n).
-/
import proofs.«177253_j51616916963406_2_alg».proof.Proof.FrameKernelIdeal
import proofs.«177253_j51616916963406_2_alg».proof.Proof.Payload

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ)

/-- The image a grid point works on. -/
def tb (t : Fin cfg0.N) : Fin 16 := ⟨t.val, by have h := t.isLt; have hN : cfg0.N = 16 := N_0; omega⟩

/-- Every window's block index at point t is (t, 0, 0). -/
theorem idx_facts : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 3) = t.val
    ∧ win0_3.index t (1 : Fin 3) = 0
    ∧ win0_3.index t (2 : Fin 3) = 0
    ∧ win0_4.index t (0 : Fin 3) = t.val
    ∧ win0_4.index t (1 : Fin 3) = 0
    ∧ win0_4.index t (2 : Fin 3) = 0
    ∧ win0_5.index t (0 : Fin 3) = t.val
    ∧ win0_5.index t (1 : Fin 3) = 0
    ∧ win0_5.index t (2 : Fin 3) = 0
    ∧ win0_6.index t (0 : Fin 3) = t.val
    ∧ win0_6.index t (1 : Fin 3) = 0
    ∧ win0_6.index t (2 : Fin 3) = 0
    ∧ win0_7.index t (0 : Fin 3) = t.val
    ∧ win0_7.index t (1 : Fin 3) = 0
    ∧ win0_7.index t (2 : Fin 3) = 0
    ∧ win0_8.index t (0 : Fin 3) = t.val
    ∧ win0_8.index t (1 : Fin 3) = 0
    ∧ win0_8.index t (2 : Fin 3) = 0 :=
  (by decide +kernel : ∀ t : Fin grid0.N, _)

/-- A word read as a natural and written back is the word. -/
theorem ofNat_toNat32 (x : BitVec 32) : BitVec.ofNat 32 x.toNat = x := by
  apply BitVec.eq_of_toNat_eq; simp

/-! ## Result window 6 (HW = 6400) -/

/-- Entry (b, n, ch) is the prediction array's entry (b, ch, k), k the index word of target (b, n). -/
def sel6400 (A : S16x144x6400.Idx → EReal) (I : S16x32x1.Idx → BitVec 32) : S16x32x144.Idx → EReal :=
  fun i => A (ix3 (i 0) (i 2) ⟨min (I (ix3 (i 0) (i 1) (0 : Fin 1))).toNat 6399, by omega⟩)

/-- The selection at (b, n, ch), when the index word is below 6400. -/
theorem sel6400_block (A : S16x144x6400.Idx → EReal) (I : S16x32x1.Idx → BitVec 32) (b : Fin 16) (n : Fin 32) (ch : Fin 144)
    (hlt : (I (ix3 b n (0 : Fin 1))).toNat < 6400) :
    A (ix3 b ch ⟨(I (ix3 b n (0 : Fin 1))).toNat, hlt⟩) = sel6400 A I (ix3 b n ch) := by
  show A _ = A (ix3 b ch ⟨min (I (ix3 b n (0 : Fin 1))).toNat 6399, _⟩)
  refine congrArg A (congrArg (ix3 b ch) (Fin.ext ?_))
  show (I (ix3 b n (0 : Fin 1))).toNat = min (I (ix3 b n (0 : Fin 1))).toNat 6399
  omega

theorem emb3 (t : Fin cfg0.N) (n : Fin 32) :
    ((cfg0.win 3).blk t).view.emb (ix3 (0 : Fin 1) n (0 : Fin 1)) = ix3 (tb t) n (0 : Fin 1) := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_3.index t (0 : Fin 3) * 1 + 1 * ((0 : Fin 1) : ℕ) = t.val; have : ((0 : Fin 1) : ℕ) = 0 := rfl; omega
  | ⟨1, _⟩ => show win0_3.index t (1 : Fin 3) * 32 + 1 * n.val = n.val; omega
  | ⟨2, _⟩ => show win0_3.index t (2 : Fin 3) * 1 + 1 * ((0 : Fin 1) : ℕ) = ((0 : Fin 1) : ℕ); have : ((0 : Fin 1) : ℕ) = 0 := rfl; omega

theorem emb0 (t : Fin cfg0.N) (ch : Fin 144) (k : Fin 6400) :
    ((cfg0.win 0).blk t).view.emb (ix3 (0 : Fin 1) ch k) = ix3 (tb t) ch k := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_0.index t (0 : Fin 3) * 1 + 1 * ((0 : Fin 1) : ℕ) = t.val; have : ((0 : Fin 1) : ℕ) = 0 := rfl; omega
  | ⟨1, _⟩ => show win0_0.index t (1 : Fin 3) * 144 + 1 * ch.val = ch.val; omega
  | ⟨2, _⟩ => show win0_0.index t (2 : Fin 3) * 6400 + 1 * k.val = k.val; omega

theorem emb6 (t : Fin cfg0.N) (n : Fin 32) (ch : Fin 144) :
    ((cfg0.win 6).blk t).view.emb (ix3 (0 : Fin 1) n ch) = ix3 (tb t) n ch := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_6.index t (0 : Fin 3) * 1 + 1 * ((0 : Fin 1) : ℕ) = t.val; have : ((0 : Fin 1) : ℕ) = 0 := rfl; omega
  | ⟨1, _⟩ => show win0_6.index t (1 : Fin 3) * 32 + 1 * n.val = n.val; omega
  | ⟨2, _⟩ => show win0_6.index t (2 : Fin 3) * 144 + 1 * ch.val = ch.val; omega

/-- What point t writes back is block t of the selection. -/
theorem flushed6_eq (c : Dev nD) (hI : ∀ (b : Fin 16) (n : Fin 32), (V m c main_v24 (ix3 b n (0 : Fin 1))).toNat < 6400) (t : Fin cfg0.N) :
    (dats m 0 c).flushed 6 t = ((cfg0.win 6).blk t).view.read (Elt Ideal) (sel6400 (V m c main_v23) (V m c main_v24)) := by
  show (cfg0.win 6).cut (grid0.coords t) ((dats m 0 c).after 6 t) = _
  rw [after0_6]
  unfold out0_6
  rw [View.canon_unit_zero hz3]
  simp only [View.ld_unit_zero (S := S1x32x1) hz3, View.ld_unit_zero (S := S1x144x6400) hz3]
  funext j
  obtain ⟨u, n, ch, rfl⟩ : ∃ (u : Fin 1) (n : Fin 32) (ch : Fin 144), j = ix3 u n ch := ⟨j 0, j 1, j 2, eq_ix3 j⟩
  obtain rfl : u = 0 := Subsingleton.elim _ _
  have hlt := hI (tb t) n
  refine (Payload.pay2_apply (iblk m c 3 t) (iblk m c 0 t) n ch ⟨(V m c main_v24 (ix3 (tb t) n (0 : Fin 1))).toNat, hlt⟩ ?_).trans ?_
  · show V m c main_v24 (((cfg0.win 3).blk t).view.emb (ix3 (0 : Fin 1) n (0 : Fin 1))) = BitVec.ofNat 32 (V m c main_v24 (ix3 (tb t) n (0 : Fin 1))).toNat
    rw [emb3, ofNat_toNat32]
  · show V m c main_v23 (((cfg0.win 0).blk t).view.emb (ix3 (0 : Fin 1) ch ⟨(V m c main_v24 (ix3 (tb t) n (0 : Fin 1))).toNat, hlt⟩))
      = sel6400 (V m c main_v23) (V m c main_v24) (((cfg0.win 6).blk t).view.emb (ix3 (0 : Fin 1) n ch))
    rw [emb0, emb6]
    exact sel6400_block (V m c main_v23) (V m c main_v24) (tb t) n ch hlt

theorem mem_blk6 (t : Fin cfg0.N) (i : S16x32x144.Idx) :
    i ∈ ((cfg0.win 6).blk t).view.set ↔ ∀ a : Fin 3, win0_6.index t a * S1x32x144.size a ≤ (i a).val ∧ (i a).val < win0_6.index t a * S1x32x144.size a + S1x32x144.size a := by
  show i ∈ ((View.whole main_v55_0).slice (win0_6.rect t)).set ↔ _
  rw [View.set_slice_whole, Rect.mem_set_unit]
  exact Iff.rfl

/-- The sixteen blocks tile the array. -/
theorem cover6 (i : S16x32x144.Idx) : ∃ t : Fin cfg0.N, (cfg0.win 6).flush t = true ∧ i ∈ ((cfg0.win 6).blk t).view.set := by
  have h0 : (i 0).val < 16 := (i 0).isLt
  have h1 : (i 1).val < 32 := (i 1).isLt
  have h2 : (i 2).val < 144 := (i 2).isLt
  have hN : cfg0.N = 16 := N_0
  obtain ⟨t, ht⟩ : ∃ t : Fin cfg0.N, t.val = (i 0).val := ⟨⟨(i 0).val, by omega⟩, rfl⟩
  refine ⟨t, flush0_6 _, ?_⟩
  rw [mem_blk6]
  obtain ⟨e00, e01, e02, e10, e11, e12, e20, e21, e22, e30, e31, e32, e40, e41, e42, e50, e51, e52, e60, e61, e62, e70, e71, e72, e80, e81, e82⟩ := idx_facts t
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 32 ≤ (i 1).val ∧ (i 1).val < win0_6.index _ (1 : Fin 3) * 32 + 32; omega
  | ⟨2, _⟩ => show win0_6.index _ (2 : Fin 3) * 144 ≤ (i 2).val ∧ (i 2).val < win0_6.index _ (2 : Fin 3) * 144 + 144; omega

/-- The array after the run. -/
theorem final6 (c : Dev nD) (hI : ∀ (b : Fin 16) (n : Fin 32), (V m c main_v24 (ix3 b n (0 : Fin 1))).toNat < 6400) :
    (dats m 0 c).arrAt 6 cfg0.N = sel6400 (V m c main_v23) (V m c main_v24) :=
  (dats m 0 c).arrAt_eq_of_cover 6 _ (fun t _ => flushed6_eq m c hI t) cover6

/-! ## Result window 7 (HW = 1600) -/

/-- Entry (b, n, ch) is the prediction array's entry (b, ch, k), k the index word of target (b, n). -/
def sel1600 (A : S16x144x1600.Idx → EReal) (I : S16x32x1.Idx → BitVec 32) : S16x32x144.Idx → EReal :=
  fun i => A (ix3 (i 0) (i 2) ⟨min (I (ix3 (i 0) (i 1) (0 : Fin 1))).toNat 1599, by omega⟩)

/-- The selection at (b, n, ch), when the index word is below 1600. -/
theorem sel1600_block (A : S16x144x1600.Idx → EReal) (I : S16x32x1.Idx → BitVec 32) (b : Fin 16) (n : Fin 32) (ch : Fin 144)
    (hlt : (I (ix3 b n (0 : Fin 1))).toNat < 1600) :
    A (ix3 b ch ⟨(I (ix3 b n (0 : Fin 1))).toNat, hlt⟩) = sel1600 A I (ix3 b n ch) := by
  show A _ = A (ix3 b ch ⟨min (I (ix3 b n (0 : Fin 1))).toNat 1599, _⟩)
  refine congrArg A (congrArg (ix3 b ch) (Fin.ext ?_))
  show (I (ix3 b n (0 : Fin 1))).toNat = min (I (ix3 b n (0 : Fin 1))).toNat 1599
  omega

theorem emb4 (t : Fin cfg0.N) (n : Fin 32) :
    ((cfg0.win 4).blk t).view.emb (ix3 (0 : Fin 1) n (0 : Fin 1)) = ix3 (tb t) n (0 : Fin 1) := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_4.index t (0 : Fin 3) * 1 + 1 * ((0 : Fin 1) : ℕ) = t.val; have : ((0 : Fin 1) : ℕ) = 0 := rfl; omega
  | ⟨1, _⟩ => show win0_4.index t (1 : Fin 3) * 32 + 1 * n.val = n.val; omega
  | ⟨2, _⟩ => show win0_4.index t (2 : Fin 3) * 1 + 1 * ((0 : Fin 1) : ℕ) = ((0 : Fin 1) : ℕ); have : ((0 : Fin 1) : ℕ) = 0 := rfl; omega

theorem emb1 (t : Fin cfg0.N) (ch : Fin 144) (k : Fin 1600) :
    ((cfg0.win 1).blk t).view.emb (ix3 (0 : Fin 1) ch k) = ix3 (tb t) ch k := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_1.index t (0 : Fin 3) * 1 + 1 * ((0 : Fin 1) : ℕ) = t.val; have : ((0 : Fin 1) : ℕ) = 0 := rfl; omega
  | ⟨1, _⟩ => show win0_1.index t (1 : Fin 3) * 144 + 1 * ch.val = ch.val; omega
  | ⟨2, _⟩ => show win0_1.index t (2 : Fin 3) * 1600 + 1 * k.val = k.val; omega

theorem emb7 (t : Fin cfg0.N) (n : Fin 32) (ch : Fin 144) :
    ((cfg0.win 7).blk t).view.emb (ix3 (0 : Fin 1) n ch) = ix3 (tb t) n ch := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_7.index t (0 : Fin 3) * 1 + 1 * ((0 : Fin 1) : ℕ) = t.val; have : ((0 : Fin 1) : ℕ) = 0 := rfl; omega
  | ⟨1, _⟩ => show win0_7.index t (1 : Fin 3) * 32 + 1 * n.val = n.val; omega
  | ⟨2, _⟩ => show win0_7.index t (2 : Fin 3) * 144 + 1 * ch.val = ch.val; omega

/-- What point t writes back is block t of the selection. -/
theorem flushed7_eq (c : Dev nD) (hI : ∀ (b : Fin 16) (n : Fin 32), (V m c main_v39 (ix3 b n (0 : Fin 1))).toNat < 1600) (t : Fin cfg0.N) :
    (dats m 0 c).flushed 7 t = ((cfg0.win 7).blk t).view.read (Elt Ideal) (sel1600 (V m c main_v38) (V m c main_v39)) := by
  show (cfg0.win 7).cut (grid0.coords t) ((dats m 0 c).after 7 t) = _
  rw [after0_7]
  unfold out0_7
  rw [View.canon_unit_zero hz3]
  simp only [View.ld_unit_zero (S := S1x32x1) hz3, View.ld_unit_zero (S := S1x144x1600) hz3]
  funext j
  obtain ⟨u, n, ch, rfl⟩ : ∃ (u : Fin 1) (n : Fin 32) (ch : Fin 144), j = ix3 u n ch := ⟨j 0, j 1, j 2, eq_ix3 j⟩
  obtain rfl : u = 0 := Subsingleton.elim _ _
  have hlt := hI (tb t) n
  refine (Payload.pay3_apply (iblk m c 4 t) (iblk m c 1 t) n ch ⟨(V m c main_v39 (ix3 (tb t) n (0 : Fin 1))).toNat, hlt⟩ ?_).trans ?_
  · show V m c main_v39 (((cfg0.win 4).blk t).view.emb (ix3 (0 : Fin 1) n (0 : Fin 1))) = BitVec.ofNat 32 (V m c main_v39 (ix3 (tb t) n (0 : Fin 1))).toNat
    rw [emb4, ofNat_toNat32]
  · show V m c main_v38 (((cfg0.win 1).blk t).view.emb (ix3 (0 : Fin 1) ch ⟨(V m c main_v39 (ix3 (tb t) n (0 : Fin 1))).toNat, hlt⟩))
      = sel1600 (V m c main_v38) (V m c main_v39) (((cfg0.win 7).blk t).view.emb (ix3 (0 : Fin 1) n ch))
    rw [emb1, emb7]
    exact sel1600_block (V m c main_v38) (V m c main_v39) (tb t) n ch hlt

theorem mem_blk7 (t : Fin cfg0.N) (i : S16x32x144.Idx) :
    i ∈ ((cfg0.win 7).blk t).view.set ↔ ∀ a : Fin 3, win0_7.index t a * S1x32x144.size a ≤ (i a).val ∧ (i a).val < win0_7.index t a * S1x32x144.size a + S1x32x144.size a := by
  show i ∈ ((View.whole main_v55_1).slice (win0_7.rect t)).set ↔ _
  rw [View.set_slice_whole, Rect.mem_set_unit]
  exact Iff.rfl

/-- The sixteen blocks tile the array. -/
theorem cover7 (i : S16x32x144.Idx) : ∃ t : Fin cfg0.N, (cfg0.win 7).flush t = true ∧ i ∈ ((cfg0.win 7).blk t).view.set := by
  have h0 : (i 0).val < 16 := (i 0).isLt
  have h1 : (i 1).val < 32 := (i 1).isLt
  have h2 : (i 2).val < 144 := (i 2).isLt
  have hN : cfg0.N = 16 := N_0
  obtain ⟨t, ht⟩ : ∃ t : Fin cfg0.N, t.val = (i 0).val := ⟨⟨(i 0).val, by omega⟩, rfl⟩
  refine ⟨t, flush0_7 _, ?_⟩
  rw [mem_blk7]
  obtain ⟨e00, e01, e02, e10, e11, e12, e20, e21, e22, e30, e31, e32, e40, e41, e42, e50, e51, e52, e60, e61, e62, e70, e71, e72, e80, e81, e82⟩ := idx_facts t
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 32 ≤ (i 1).val ∧ (i 1).val < win0_7.index _ (1 : Fin 3) * 32 + 32; omega
  | ⟨2, _⟩ => show win0_7.index _ (2 : Fin 3) * 144 ≤ (i 2).val ∧ (i 2).val < win0_7.index _ (2 : Fin 3) * 144 + 144; omega

/-- The array after the run. -/
theorem final7 (c : Dev nD) (hI : ∀ (b : Fin 16) (n : Fin 32), (V m c main_v39 (ix3 b n (0 : Fin 1))).toNat < 1600) :
    (dats m 0 c).arrAt 7 cfg0.N = sel1600 (V m c main_v38) (V m c main_v39) :=
  (dats m 0 c).arrAt_eq_of_cover 7 _ (fun t _ => flushed7_eq m c hI t) cover7

/-! ## Result window 8 (HW = 400) -/

/-- Entry (b, n, ch) is the prediction array's entry (b, ch, k), k the index word of target (b, n). -/
def sel400 (A : S16x144x400.Idx → EReal) (I : S16x32x1.Idx → BitVec 32) : S16x32x144.Idx → EReal :=
  fun i => A (ix3 (i 0) (i 2) ⟨min (I (ix3 (i 0) (i 1) (0 : Fin 1))).toNat 399, by omega⟩)

/-- The selection at (b, n, ch), when the index word is below 400. -/
theorem sel400_block (A : S16x144x400.Idx → EReal) (I : S16x32x1.Idx → BitVec 32) (b : Fin 16) (n : Fin 32) (ch : Fin 144)
    (hlt : (I (ix3 b n (0 : Fin 1))).toNat < 400) :
    A (ix3 b ch ⟨(I (ix3 b n (0 : Fin 1))).toNat, hlt⟩) = sel400 A I (ix3 b n ch) := by
  show A _ = A (ix3 b ch ⟨min (I (ix3 b n (0 : Fin 1))).toNat 399, _⟩)
  refine congrArg A (congrArg (ix3 b ch) (Fin.ext ?_))
  show (I (ix3 b n (0 : Fin 1))).toNat = min (I (ix3 b n (0 : Fin 1))).toNat 399
  omega

theorem emb5 (t : Fin cfg0.N) (n : Fin 32) :
    ((cfg0.win 5).blk t).view.emb (ix3 (0 : Fin 1) n (0 : Fin 1)) = ix3 (tb t) n (0 : Fin 1) := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_5.index t (0 : Fin 3) * 1 + 1 * ((0 : Fin 1) : ℕ) = t.val; have : ((0 : Fin 1) : ℕ) = 0 := rfl; omega
  | ⟨1, _⟩ => show win0_5.index t (1 : Fin 3) * 32 + 1 * n.val = n.val; omega
  | ⟨2, _⟩ => show win0_5.index t (2 : Fin 3) * 1 + 1 * ((0 : Fin 1) : ℕ) = ((0 : Fin 1) : ℕ); have : ((0 : Fin 1) : ℕ) = 0 := rfl; omega

theorem emb2 (t : Fin cfg0.N) (ch : Fin 144) (k : Fin 400) :
    ((cfg0.win 2).blk t).view.emb (ix3 (0 : Fin 1) ch k) = ix3 (tb t) ch k := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_2.index t (0 : Fin 3) * 1 + 1 * ((0 : Fin 1) : ℕ) = t.val; have : ((0 : Fin 1) : ℕ) = 0 := rfl; omega
  | ⟨1, _⟩ => show win0_2.index t (1 : Fin 3) * 144 + 1 * ch.val = ch.val; omega
  | ⟨2, _⟩ => show win0_2.index t (2 : Fin 3) * 400 + 1 * k.val = k.val; omega

theorem emb8 (t : Fin cfg0.N) (n : Fin 32) (ch : Fin 144) :
    ((cfg0.win 8).blk t).view.emb (ix3 (0 : Fin 1) n ch) = ix3 (tb t) n ch := by
  obtain ⟨e00, e01, e02, e10, e11, e12, e20, e21, e22, e30, e31, e32, e40, e41, e42, e50, e51, e52, e60, e61, e62, e70, e71, e72, e80, e81, e82⟩ := idx_facts t
  funext a; apply Fin.ext
  match a with
  | ⟨0, _⟩ => show win0_8.index t (0 : Fin 3) * 1 + 1 * ((0 : Fin 1) : ℕ) = t.val; have : ((0 : Fin 1) : ℕ) = 0 := rfl; omega
  | ⟨1, _⟩ => show win0_8.index t (1 : Fin 3) * 32 + 1 * n.val = n.val; omega
  | ⟨2, _⟩ => show win0_8.index t (2 : Fin 3) * 144 + 1 * ch.val = ch.val; omega

/-- What point t writes back is block t of the selection. -/
theorem flushed8_eq (c : Dev nD) (hI : ∀ (b : Fin 16) (n : Fin 32), (V m c main_v54 (ix3 b n (0 : Fin 1))).toNat < 400) (t : Fin cfg0.N) :
    (dats m 0 c).flushed 8 t = ((cfg0.win 8).blk t).view.read (Elt Ideal) (sel400 (V m c main_v53) (V m c main_v54)) := by
  show (cfg0.win 8).cut (grid0.coords t) ((dats m 0 c).after 8 t) = _
  rw [after0_8]
  unfold out0_8
  rw [View.canon_unit_zero hz3]
  simp only [View.ld_unit_zero (S := S1x32x1) hz3, View.ld_unit_zero (S := S1x144x400) hz3]
  funext j
  obtain ⟨u, n, ch, rfl⟩ : ∃ (u : Fin 1) (n : Fin 32) (ch : Fin 144), j = ix3 u n ch := ⟨j 0, j 1, j 2, eq_ix3 j⟩
  obtain rfl : u = 0 := Subsingleton.elim _ _
  have hlt := hI (tb t) n
  refine (Payload.pay1_apply (iblk m c 5 t) (iblk m c 2 t) n ch ⟨(V m c main_v54 (ix3 (tb t) n (0 : Fin 1))).toNat, hlt⟩ ?_).trans ?_
  · show V m c main_v54 (((cfg0.win 5).blk t).view.emb (ix3 (0 : Fin 1) n (0 : Fin 1))) = BitVec.ofNat 32 (V m c main_v54 (ix3 (tb t) n (0 : Fin 1))).toNat
    rw [emb5, ofNat_toNat32]
  · show V m c main_v53 (((cfg0.win 2).blk t).view.emb (ix3 (0 : Fin 1) ch ⟨(V m c main_v54 (ix3 (tb t) n (0 : Fin 1))).toNat, hlt⟩))
      = sel400 (V m c main_v53) (V m c main_v54) (((cfg0.win 8).blk t).view.emb (ix3 (0 : Fin 1) n ch))
    rw [emb2, emb8]
    exact sel400_block (V m c main_v53) (V m c main_v54) (tb t) n ch hlt

theorem mem_blk8 (t : Fin cfg0.N) (i : S16x32x144.Idx) :
    i ∈ ((cfg0.win 8).blk t).view.set ↔ ∀ a : Fin 3, win0_8.index t a * S1x32x144.size a ≤ (i a).val ∧ (i a).val < win0_8.index t a * S1x32x144.size a + S1x32x144.size a := by
  show i ∈ ((View.whole main_v55_2).slice (win0_8.rect t)).set ↔ _
  rw [View.set_slice_whole, Rect.mem_set_unit]
  exact Iff.rfl

/-- The sixteen blocks tile the array. -/
theorem cover8 (i : S16x32x144.Idx) : ∃ t : Fin cfg0.N, (cfg0.win 8).flush t = true ∧ i ∈ ((cfg0.win 8).blk t).view.set := by
  have h0 : (i 0).val < 16 := (i 0).isLt
  have h1 : (i 1).val < 32 := (i 1).isLt
  have h2 : (i 2).val < 144 := (i 2).isLt
  have hN : cfg0.N = 16 := N_0
  obtain ⟨t, ht⟩ : ∃ t : Fin cfg0.N, t.val = (i 0).val := ⟨⟨(i 0).val, by omega⟩, rfl⟩
  refine ⟨t, flush0_8 _, ?_⟩
  rw [mem_blk8]
  obtain ⟨e00, e01, e02, e10, e11, e12, e20, e21, e22, e30, e31, e32, e40, e41, e42, e50, e51, e52, e60, e61, e62, e70, e71, e72, e80, e81, e82⟩ := idx_facts t
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 32 ≤ (i 1).val ∧ (i 1).val < win0_8.index _ (1 : Fin 3) * 32 + 32; omega
  | ⟨2, _⟩ => show win0_8.index _ (2 : Fin 3) * 144 ≤ (i 2).val ∧ (i 2).val < win0_8.index _ (2 : Fin 3) * 144 + 144; omega

/-- The array after the run. -/
theorem final8 (c : Dev nD) (hI : ∀ (b : Fin 16) (n : Fin 32), (V m c main_v54 (ix3 b n (0 : Fin 1))).toNat < 400) :
    (dats m 0 c).arrAt 8 cfg0.N = sel400 (V m c main_v53) (V m c main_v54) :=
  (dats m 0 c).arrAt_eq_of_cover 8 _ (fun t _ => flushed8_eq m c hI t) cover8

end Cert.KernelIdeal.KValue

end
-- ==== Proof.Tail.lean ====
/-
  The reference's three results as small named functions of six gathered arrays.

  At each pyramid level (grid 80×80, 40×40, 20×20) the reference gathers, for every target (b, n), the 80 class logits
  and the 64 box features of the target's grid cell: the cell's row and column are the target's box centre divided by
  the level's stride, clamped into the grid and truncated to an integer.  The class loss is the sum over the levels of
  the mean binary cross-entropy with logits against the one-hot class row, the box loss the sum over the levels of
  −0.1 × the mean box feature, both divided by the 512 targets; the total is 7.5 · box + 0.5 · class + 1.5 · 0.
  The definitions below are the composed terms of the reference's run cut at the gathers.
-/
import proofs.«177253_j51616916963406_2_alg».proof.Proof.Gen.ReferenceIdeal

set_option maxRecDepth 8192

noncomputable section

namespace Cert.ReferenceIdeal.Tail

open Cert.ReferenceIdeal Cert.ReferenceIdeal.Gen Idealize.ShloMosaic Idealize.ShloMosaic.TcCoe Idealize.SL.Sem

variable {F : FTy → Type} [FloatOps F]

/-- The batch coordinate of every target, as a column: target (b, n) reads image b. -/
def bcol : IVec S16x32x1 32 :=
  broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0))))

/-- The box centre's y over the 80×80 level's stride, per target. -/
def cy80 (x3 : FVec F S16x32x5 .f32) : FVec F S16x32 .f32 :=
  shapeCast _ (extractStridedSlice S16x32x1 ![0, 0, 1] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32
/-- The grid row: the centre's y over the stride, clamped into [0, 79] and truncated. -/
def gi80 (x3 : FVec F S16x32x5 .f32) : IVec S16x32 32 :=
  fptosi 32 (minimumf (broadcastInDim S16x32 ![] bcast_S_S16x32 (sitofp .f32 (constantI S_ 32 79#32))) (maximumf (broadcastInDim S16x32 ![] bcast_S_S16x32 (sitofp .f32 (constantI S_ 32 0#32))) (cy80 x3)))
/-- The box centre's x over the 80×80 level's stride, per target. -/
def cx80 (x3 : FVec F S16x32x5 .f32) : FVec F S16x32 .f32 :=
  shapeCast _ (extractStridedSlice S16x32x1 ![0, 0, 0] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32
/-- The grid column: the centre's x over the stride, clamped and truncated. -/
def gj80 (x3 : FVec F S16x32x5 .f32) : IVec S16x32 32 :=
  fptosi 32 (minimumf (broadcastInDim S16x32 ![] bcast_S_S16x32 (sitofp .f32 (constantI S_ 32 79#32))) (maximumf (broadcastInDim S16x32 ![] bcast_S_S16x32 (sitofp .f32 (constantI S_ 32 0#32))) (cx80 x3)))

/-- The box centre's y over the 40×40 level's stride, per target. -/
def cy40 (x3 : FVec F S16x32x5 .f32) : FVec F S16x32 .f32 :=
  shapeCast _ (extractStridedSlice S16x32x1 ![0, 0, 1] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32
/-- The grid row: the centre's y over the stride, clamped into [0, 39] and truncated. -/
def gi40 (x3 : FVec F S16x32x5 .f32) : IVec S16x32 32 :=
  fptosi 32 (minimumf (broadcastInDim S16x32 ![] bcast_S_S16x32 (sitofp .f32 (constantI S_ 32 39#32))) (maximumf (broadcastInDim S16x32 ![] bcast_S_S16x32 (sitofp .f32 (constantI S_ 32 0#32))) (cy40 x3)))
/-- The box centre's x over the 40×40 level's stride, per target. -/
def cx40 (x3 : FVec F S16x32x5 .f32) : FVec F S16x32 .f32 :=
  shapeCast _ (extractStridedSlice S16x32x1 ![0, 0, 0] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32
/-- The grid column: the centre's x over the stride, clamped and truncated. -/
def gj40 (x3 : FVec F S16x32x5 .f32) : IVec S16x32 32 :=
  fptosi 32 (minimumf (broadcastInDim S16x32 ![] bcast_S_S16x32 (sitofp .f32 (constantI S_ 32 39#32))) (maximumf (broadcastInDim S16x32 ![] bcast_S_S16x32 (sitofp .f32 (constantI S_ 32 0#32))) (cx40 x3)))

/-- The box centre's y over the 20×20 level's stride, per target. -/
def cy20 (x3 : FVec F S16x32x5 .f32) : FVec F S16x32 .f32 :=
  shapeCast _ (extractStridedSlice S16x32x1 ![0, 0, 1] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32
/-- The grid row: the centre's y over the stride, clamped into [0, 19] and truncated. -/
def gi20 (x3 : FVec F S16x32x5 .f32) : IVec S16x32 32 :=
  fptosi 32 (minimumf (broadcastInDim S16x32 ![] bcast_S_S16x32 (sitofp .f32 (constantI S_ 32 19#32))) (maximumf (broadcastInDim S16x32 ![] bcast_S_S16x32 (sitofp .f32 (constantI S_ 32 0#32))) (cy20 x3)))
/-- The box centre's x over the 20×20 level's stride, per target. -/
def cx20 (x3 : FVec F S16x32x5 .f32) : FVec F S16x32 .f32 :=
  shapeCast _ (extractStridedSlice S16x32x1 ![0, 0, 0] (Host.divf (mulf (addf (extractStridedSlice S16x32x2 ![0, 0, 0] (extractStridedSlice S16x32x4 ![0, 0, 0] x3 slices_S16x32x5_S16x32x4_0_0_0) slices_S16x32x4_S16x32x2_0_0_0) (extractStridedSlice S16x32x2 ![0, 0, 2] (extractStridedSlice S16x32x4 ![0, 0, 0] x3 slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32
/-- The grid column: the centre's x over the stride, clamped and truncated. -/
def gj20 (x3 : FVec F S16x32x5 .f32) : IVec S16x32 32 :=
  fptosi 32 (minimumf (broadcastInDim S16x32 ![] bcast_S_S16x32 (sitofp .f32 (constantI S_ 32 19#32))) (maximumf (broadcastInDim S16x32 ![] bcast_S_S16x32 (sitofp .f32 (constantI S_ 32 0#32))) (cx20 x3)))

/-- A coordinate below zero is counted from the far end (never the case for a clamped coordinate). -/
def wrapped (g : IVec S16x32 32) (e : BitVec 32) : IVec S16x32 32 :=
  select (cmpi .slt g (broadcastInDim S16x32 ![] bcast_S_S16x32 (constantI S_ 32 0#32))) (addi g (broadcastInDim S16x32 ![] bcast_S_S16x32 (constantI S_ 32 e))) g

/-- The start indices of the gather: per target the triple (image, row, column). -/
def cell (gi gj : IVec S16x32 32) (e : BitVec 32) : IVec S16x32x3 32 :=
  concatenate S16x32x3 2 [⟨S16x32x1, bcol⟩, ⟨S16x32x1, broadcastInDim S16x32x1 ![0, 1] bcast_S16x32_S16x32x1_0_1 (wrapped gi e)⟩, ⟨S16x32x1, broadcastInDim S16x32x1 ![0, 1] bcast_S16x32_S16x32x1_0_1 (wrapped gj e)⟩] concatenates_S16x32x1_S16x32x1_S16x32x1_S16x32x3_d2

/-- The gathered class logits at the 80×80 level. -/
def gat80c (x0 : FVec F S16x144x80x80 .f32) (x3 : FVec F S16x32x5 .f32) : FVec F S16x32x80 .f32 :=
  Host.gather gather_S16x80x80x80_S16x32x3_S16x32x80_2_023_n_n_023_2_18011 (extractStridedSlice S16x80x80x80 ![0, 64, 0, 0] x0 slices_S16x144x80x80_S16x80x80x80_0_64_0_0) (cell (gi80 x3) (gj80 x3) 80#32)

/-- The gathered box features at the 80×80 level. -/
def gat80b (x0 : FVec F S16x144x80x80 .f32) (x3 : FVec F S16x32x5 .f32) : FVec F S16x32x64 .f32 :=
  Host.gather gather_S16x64x80x80_S16x32x3_S16x32x64_2_023_n_n_023_2_16411 (extractStridedSlice S16x64x80x80 ![0, 0, 0, 0] x0 slices_S16x144x80x80_S16x64x80x80_0_0_0_0) (cell (gi80 x3) (gj80 x3) 80#32)

/-- The gathered class logits at the 40×40 level. -/
def gat40c (x1 : FVec F S16x144x40x40 .f32) (x3 : FVec F S16x32x5 .f32) : FVec F S16x32x80 .f32 :=
  Host.gather gather_S16x80x40x40_S16x32x3_S16x32x80_2_023_n_n_023_2_18011 (extractStridedSlice S16x80x40x40 ![0, 64, 0, 0] x1 slices_S16x144x40x40_S16x80x40x40_0_64_0_0) (cell (gi40 x3) (gj40 x3) 40#32)

/-- The gathered box features at the 40×40 level. -/
def gat40b (x1 : FVec F S16x144x40x40 .f32) (x3 : FVec F S16x32x5 .f32) : FVec F S16x32x64 .f32 :=
  Host.gather gather_S16x64x40x40_S16x32x3_S16x32x64_2_023_n_n_023_2_16411 (extractStridedSlice S16x64x40x40 ![0, 0, 0, 0] x1 slices_S16x144x40x40_S16x64x40x40_0_0_0_0) (cell (gi40 x3) (gj40 x3) 40#32)

/-- The gathered class logits at the 20×20 level. -/
def gat20c (x2 : FVec F S16x144x20x20 .f32) (x3 : FVec F S16x32x5 .f32) : FVec F S16x32x80 .f32 :=
  Host.gather gather_S16x80x20x20_S16x32x3_S16x32x80_2_023_n_n_023_2_18011 (extractStridedSlice S16x80x20x20 ![0, 64, 0, 0] x2 slices_S16x144x20x20_S16x80x20x20_0_64_0_0) (cell (gi20 x3) (gj20 x3) 20#32)

/-- The gathered box features at the 20×20 level. -/
def gat20b (x2 : FVec F S16x144x20x20 .f32) (x3 : FVec F S16x32x5 .f32) : FVec F S16x32x64 .f32 :=
  Host.gather gather_S16x64x20x20_S16x32x3_S16x32x64_2_023_n_n_023_2_16411 (extractStridedSlice S16x64x20x20 ![0, 0, 0, 0] x2 slices_S16x144x20x20_S16x64x20x20_0_0_0_0) (cell (gi20 x3) (gj20 x3) 20#32)

/-- The one-hot class row of every target. -/
def oneHot (x3 : FVec F S16x32x5 .f32) : FVec F S16x32x80 .f32 :=
  uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] x3 slices_S16x32x5_S16x32x1_0_0_4) shapeCasts_S16x32x1_S16x32)))) (broadcastInDim S16x32x80 ![0, 1, 2] bcast_S1x1x80_S16x32x80_0_1_2 (iotaInDim S1x1x80 32 2)))

/-- One level's class term: the sum over the targets of the mean over the 80 classes of max(z, 0) − z·y + log1p(exp(−|z|)). -/
def lvlCls (g oh : FVec F S16x32x80 .f32) : FVec F S_ .f32 :=
  Host.reduceAdd (Host.divf (Host.reduceAdd (addf (subf (maximumf g (broadcastInDim S16x32x80 ![] bcast_S_S16x32x80 (constant S_ .f32 0x00000000#32))) (mulf g oh)) (Host.log1p (Host.exp (Host.negf (Host.absf g))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_

/-- One level's box term: the sum over the targets of −(mean of the 64 box features) · 0.1. -/
def lvlBox (g : FVec F S16x32x64 .f32) : FVec F S_ .f32 :=
  Host.reduceAdd (mulf (Host.negf (Host.divf (Host.reduceAdd g (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_

/-- The class loss. -/
def clsLoss (g80 g40 g20 oh : FVec F S16x32x80 .f32) : FVec F S1 .f32 :=
  shapeCast _ (Host.divf (addf (addf (addf (constant S_ .f32 0x00000000#32) (lvlCls g80 oh)) (lvlCls g40 oh)) (lvlCls g20 oh)) (constant S_ .f32 0x44000000#32)) shapeCasts_S_S1

/-- The box loss. -/
def boxLoss (g80 g40 g20 : FVec F S16x32x64 .f32) : FVec F S1 .f32 :=
  shapeCast _ (Host.divf (addf (addf (addf (constant S_ .f32 0x00000000#32) (lvlBox g80)) (lvlBox g40)) (lvlBox g20)) (constant S_ .f32 0x44000000#32)) shapeCasts_S_S1

/-- The total: 7.5 · box + 0.5 · class + 1.5 · 0. -/
def total (b c : FVec F S1 .f32) : FVec F S1 .f32 :=
  addf (addf (mulf (broadcastInDim S1 ![] bcast_S_S1 (constant S_ .f32 0x40F00000#32)) b) (mulf (broadcastInDim S1 ![] bcast_S_S1 (constant S_ .f32 0x3F000000#32)) c)) (mulf (broadcastInDim S1 ![] bcast_S_S1 (constant S_ .f32 0x3FC00000#32)) (broadcastInDim S1 ![] bcast_S_S1 (constant S_ .f32 0x00000000#32)))

end Cert.ReferenceIdeal.Tail

end
-- ==== Proof.KTail.lean ====
/-
  The idealized kernel's host operations, read as functions of the argument arrays and of the three arrays the region
  writes.

  Before the region @main prepares, from the targets, the one-hot class rows and, per pyramid level, the flat cell
  index row · w + column of every target (row and column the box centre over the stride, clamped into the grid and
  truncated), and views each prediction array [16, 144, h, w] as [16, 144, h·w].  After the region it splits each
  gathered array [16, 32, 144] into the 64 box features and the 80 class logits and computes the box loss, the class
  loss and their weighted total exactly as the reference does from its own gathers.
-/
import proofs.«177253_j51616916963406_2_alg».proof.Proof.FrameKernelIdeal
import proofs.«177253_j51616916963406_2_alg».proof.Proof.Tail
import Idealize.ShloMosaic.Lib.StableHlo.Run
import Idealize.ShloMosaic.PureOps.Ideal

set_option maxRecDepth 16384

noncomputable section

namespace Cert.KernelIdeal.KTail

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ) (c : Dev nD)

/-- The 64 box features of a gathered array. -/
abbrev boxPart (A : S16x32x144.Idx → EReal) : S16x32x64.Idx → EReal :=
  extractStridedSlice S16x32x64 ![0, 0, 0] A slices_S16x32x144_S16x32x64_0_0_0
/-- The 80 class logits of a gathered array. -/
abbrev clsPart (A : S16x32x144.Idx → EReal) : S16x32x80.Idx → EReal :=
  extractStridedSlice S16x32x80 ![0, 0, 64] A slices_S16x32x144_S16x32x80_0_0_64

/-! ## What the region finds -/

set_option maxHeartbeats 4000000 in
/-- The one-hot class rows. -/
theorem V_v9 : V m c main_v9 = Cert.ReferenceIdeal.Tail.oneHot (F := Ideal) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The prediction array with its two grid axes flattened. -/
theorem V_v23 : V m c main_v23 = shapeCast S16x144x6400 (m ((c : Thread nD τ).loc main_arg0)) shapeCasts_S16x144x80x80_S16x144x6400 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The prediction array with its two grid axes flattened. -/
theorem V_v38 : V m c main_v38 = shapeCast S16x144x1600 (m ((c : Thread nD τ).loc main_arg1)) shapeCasts_S16x144x40x40_S16x144x1600 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The prediction array with its two grid axes flattened. -/
theorem V_v53 : V m c main_v53 = shapeCast S16x144x400 (m ((c : Thread nD τ).loc main_arg2)) shapeCasts_S16x144x20x20_S16x144x400 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The flat cell index row · 80 + column of every target at the 80×80 level, as a column. -/
theorem V_v24 : V m c main_v24 = broadcastInDim S16x32x1 ![0, 1] bcast_S16x32_S16x32x1_0_1
    (addi (muli (Cert.ReferenceIdeal.Tail.gi80 (F := Ideal) (m ((c : Thread nD τ).loc main_arg3))) (broadcastInDim S16x32 ![] bcast_S_S16x32 (constantI S_ 32 80#32)))
      (Cert.ReferenceIdeal.Tail.gj80 (F := Ideal) (m ((c : Thread nD τ).loc main_arg3)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The flat cell index row · 40 + column of every target at the 40×40 level, as a column. -/
theorem V_v39 : V m c main_v39 = broadcastInDim S16x32x1 ![0, 1] bcast_S16x32_S16x32x1_0_1
    (addi (muli (Cert.ReferenceIdeal.Tail.gi40 (F := Ideal) (m ((c : Thread nD τ).loc main_arg3))) (broadcastInDim S16x32 ![] bcast_S_S16x32 (constantI S_ 32 40#32)))
      (Cert.ReferenceIdeal.Tail.gj40 (F := Ideal) (m ((c : Thread nD τ).loc main_arg3)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

set_option maxHeartbeats 4000000 in
/-- The flat cell index row · 20 + column of every target at the 20×20 level, as a column. -/
theorem V_v54 : V m c main_v54 = broadcastInDim S16x32x1 ![0, 1] bcast_S16x32_S16x32x1_0_1
    (addi (muli (Cert.ReferenceIdeal.Tail.gi20 (F := Ideal) (m ((c : Thread nD τ).loc main_arg3))) (broadcastInDim S16x32 ![] bcast_S_S16x32 (constantI S_ 32 20#32)))
      (Cert.ReferenceIdeal.Tail.gj20 (F := Ideal) (m ((c : Thread nD τ).loc main_arg3)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp <;> rfl

/-! ## What the host operations after the region compute -/

theorem arr6 : Pipeline.withArrays (cfgs 0).spec c (V0 m c) (fun w => (dats m 0 c).arrAt w (cfgs 0).N) (Proc.devRef .tc main_v55_0) = (dats m 0 c).arrAt 6 cfg0.N :=
  Pipeline.withArrays_arr (cfgs 0).spec launch0.win.arr_inj c _ _ 6
theorem arr7 : Pipeline.withArrays (cfgs 0).spec c (V0 m c) (fun w => (dats m 0 c).arrAt w (cfgs 0).N) (Proc.devRef .tc main_v55_1) = (dats m 0 c).arrAt 7 cfg0.N :=
  Pipeline.withArrays_arr (cfgs 0).spec launch0.win.arr_inj c _ _ 7
theorem arr8 : Pipeline.withArrays (cfgs 0).spec c (V0 m c) (fun w => (dats m 0 c).arrAt w (cfgs 0).N) (Proc.devRef .tc main_v55_2) = (dats m 0 c).arrAt 8 cfg0.N :=
  Pipeline.withArrays_arr (cfgs 0).spec launch0.win.arr_inj c _ _ 8
theorem arr9 : Pipeline.withArrays (cfgs 0).spec c (V0 m c) (fun w => (dats m 0 c).arrAt w (cfgs 0).N) (Proc.devRef .tc main_v9) = V m c main_v9 :=
  Pipeline.withArrays_of_ne (cfgs 0).spec c (V0 m c) _ main_v9 (by exact (by decide : ∀ w, Pipeline.arrRef spec0 w ≠ main_v9))

set_option maxHeartbeats 8000000 in
/-- The box loss. -/
theorem tail_box : Pipeline.afterTail₀ cfgs (dats m) 0 (V0 m) [hostOps1] c main_v129
    = Cert.ReferenceIdeal.Tail.boxLoss (F := Ideal) (boxPart ((dats m 0 c).arrAt 6 cfg0.N)) (boxPart ((dats m 0 c).arrAt 7 cfg0.N)) (boxPart ((dats m 0 c).arrAt 8 cfg0.N)) := by
  unfold Pipeline.afterTail₀
  show StableHlo.after hostOps1 _ (Proc.devRef .tc main_v129) = _
  after_results_simp
  rw [arr6, arr7, arr8]
  rfl

set_option maxHeartbeats 8000000 in
/-- The class loss. -/
theorem tail_cls : Pipeline.afterTail₀ cfgs (dats m) 0 (V0 m) [hostOps1] c main_v131
    = Cert.ReferenceIdeal.Tail.clsLoss (F := Ideal) (clsPart ((dats m 0 c).arrAt 6 cfg0.N)) (clsPart ((dats m 0 c).arrAt 7 cfg0.N)) (clsPart ((dats m 0 c).arrAt 8 cfg0.N)) (V m c main_v9) := by
  unfold Pipeline.afterTail₀
  show StableHlo.after hostOps1 _ (Proc.devRef .tc main_v131) = _
  after_results_simp
  rw [arr6, arr7, arr8, arr9]
  rfl

set_option maxHeartbeats 8000000 in
/-- The total. -/
theorem tail_total : Pipeline.afterTail₀ cfgs (dats m) 0 (V0 m) [hostOps1] c main_v140
    = Cert.ReferenceIdeal.Tail.total (F := Ideal)
        (Cert.ReferenceIdeal.Tail.boxLoss (F := Ideal) (boxPart ((dats m 0 c).arrAt 6 cfg0.N)) (boxPart ((dats m 0 c).arrAt 7 cfg0.N)) (boxPart ((dats m 0 c).arrAt 8 cfg0.N)))
        (Cert.ReferenceIdeal.Tail.clsLoss (F := Ideal) (clsPart ((dats m 0 c).arrAt 6 cfg0.N)) (clsPart ((dats m 0 c).arrAt 7 cfg0.N)) (clsPart ((dats m 0 c).arrAt 8 cfg0.N)) (V m c main_v9)) := by
  unfold Pipeline.afterTail₀
  show StableHlo.after hostOps1 _ (Proc.devRef .tc main_v140) = _
  after_results_simp
  rw [arr6, arr7, arr8, arr9]
  rfl

set_option maxHeartbeats 8000000 in
/-- The fourth result is zero. -/
theorem tail_zero : Pipeline.afterTail₀ cfgs (dats m) 0 (V0 m) [hostOps1] c main_v132
    = broadcastInDim S1 ![] bcast_S_S1 (constant (F := Ideal) S_ .f32 0x00000000#32) := by
  unfold Pipeline.afterTail₀
  show StableHlo.after hostOps1 _ (Proc.devRef .tc main_v132) = _
  after_results_simp <;> rfl

end Cert.KernelIdeal.KTail

end
-- ==== Proof.LibGatherCell.lean ====
/-
  A GENERAL LEMMA — `stablehlo.gather` of a rank-4 operand at a rank-3 array of three-component start indices, read
  at an index.

  The operand is `x : [A, C, H, W]`, the start indices are `idx : [R, N, 3]` (the index vector on the last axis), the
  result is `[R, N, C]`. The dimension numbers are offset_dims `[2]`, collapsed_slice_dims `[0, 2, 3]`, no batching
  axes, start_index_map `[0, 2, 3]`, index_vector_dim `2` and slice_sizes `[1, C, 1, 1]`: every start index names one
  cell `(a, h, v)` of the axes 0, 2 and 3 and the slice is the whole of axis 1 over that cell. So the result element
  `(r, n, j)` is

      x[clamp idx[r, n, 0], j, clamp idx[r, n, 1], clamp idx[r, n, 2]]

  where each start component is read as a SIGNED integer and clamped into `[0, extent − 1]` of its axis (a negative
  component reads as 0: `Int.toNat`), as StableHLO's gather clamps every start index so that the slice fits
  (PureOps/ShapeOps.lean `Host.gather`, PureOps/Dims.lean `GatherDims.operandIdx`). Per operand axis the operand index
  is start + batching coordinate + offset coordinate: the batching coordinate is 0 everywhere (no batching axes), the
  offset coordinate is 0 on the collapsed axes 0, 2, 3 and the result's coordinate `j` on axis 1, and the start is 0 on
  axis 1 (the start index map does not name it) and the clamped component on the others, the slice sizes there being 1.

  `gather_cell_apply` is that statement; `gather_cell_apply_of_eq` is its corollary for start components already known
  to be the naturals `k0 < A`, `k1 < H`, `k2 < W`: the clamps disappear and the result is `x[k0, j, k1, k2]`.
  The rank-1 analogue (a flat operand, one-component start indices) is Lib/ValueIdx.lean's `gather_take_apply`.
-/
import Idealize.ShloMosaic.Lib.ValueIdx

namespace Cert.Lib.GatherCell

open Idealize.ShloMosaic
open Idealize.ShloMosaic.ValueIdx

section Cell
variable {α : Type}

/-- Those dimension numbers for an operand `[A, C, H, W]`, start indices `[R, N, 3]` and result `[R, N, C]`; their
    conditions `wf` are decided on a program's literal shapes. -/
abbrev cellDims (A C H W R N : Nat)
    (wf : GatherDims.WF ⟨4, ![A, C, H, W]⟩ ⟨3, ![R, N, 3]⟩ ⟨3, ![R, N, C]⟩ [2] [0, 2, 3] [] [0, 2, 3] [] 2 ![1, C, 1, 1]) :
    GatherDims ⟨4, ![A, C, H, W]⟩ ⟨3, ![R, N, 3]⟩ ⟨3, ![R, N, C]⟩ where
  offsetDims := [2]
  collapsedSliceDims := [0, 2, 3]
  operandBatchingDims := []
  startIndicesBatchingDims := []
  startIndexMap := [0, 2, 3]
  indexVectorDim := 2
  sliceSizes := ![1, C, 1, 1]
  wf := wf

/-- Membership of the operand's axes in the list `[0, 2, 3]` (the collapsed axes, and the start index map), decided. -/
theorem mem_axes : (0 : Fin 4) ∈ ([0, 2, 3] : List (Fin 4)) ∧ (2 : Fin 4) ∈ ([0, 2, 3] : List (Fin 4)) ∧
    (3 : Fin 4) ∈ ([0, 2, 3] : List (Fin 4)) ∧ (1 : Fin 4) ∉ ([0, 2, 3] : List (Fin 4)) := by decide

/-- The start-indices index `[r, n, k]`: component `k` of the start index of the result's batch position `(r, n)`. -/
abbrev cellIdx {R N : Nat} (r : Fin R) (n : Fin N) (k : Fin 3) : (⟨3, ![R, N, 3]⟩ : Shape).Idx :=
  fun a => match a with | ⟨0, _⟩ => r | ⟨1, _⟩ => n | ⟨2, _⟩ => k

/-- THE GATHER READ AT `(r, n, j)`: the operand at the cell the start index `idx[r, n, ·]` names on the axes 0, 2, 3 —
    each component read signed and clamped into its axis — and at `j` on axis 1. -/
theorem gather_cell_apply {A C H W R N w : Nat} (hA : 0 < A) (hH : 0 < H) (hW : 0 < W)
    (wf : GatherDims.WF ⟨4, ![A, C, H, W]⟩ ⟨3, ![R, N, 3]⟩ ⟨3, ![R, N, C]⟩ [2] [0, 2, 3] [] [0, 2, 3] [] 2 ![1, C, 1, 1])
    (x : (⟨4, ![A, C, H, W]⟩ : Shape).Idx → α) (idx : IVec ⟨3, ![R, N, 3]⟩ w)
    (r : Fin R) (n : Fin N) (j : Fin C) :
    Host.gather (cellDims A C H W R N wf) x idx (ix3 r n j) =
      x (ix4 (⟨min (idx (cellIdx r n 0)).toInt.toNat (A - 1), by omega⟩ : Fin A) j
             (⟨min (idx (cellIdx r n 1)).toInt.toNat (H - 1), by omega⟩ : Fin H)
             (⟨min (idx (cellIdx r n 2)).toInt.toNat (W - 1), by omega⟩ : Fin W)) := by
  unfold Host.gather
  congr 1
  funext a
  refine Fin.ext ?_
  -- a collapsed axis `a` that the start index map names in position `k`: no batching and no offset coordinate, and the
  -- start is component `k` of the start index, clamped into the axis (the slice size there is 1)
  have collapsed : ∀ (a : Fin 4) (k : Fin 3) (hc : a ∈ (cellDims A C H W R N wf).collapsedSliceDims)
      (hm : a ∈ (cellDims A C H W R N wf).startIndexMap),
      List.idxOf a (cellDims A C H W R N wf).startIndexMap = k.val →
      (cellDims A C H W R N wf).start (ix3 r n j) idx a + (cellDims A C H W R N wf).batchCoord (ix3 r n j) a
        + (cellDims A C H W R N wf).offCoord (ix3 r n j) a
        = min (idx (cellIdx r n k)).toInt.toNat
            ((⟨4, ![A, C, H, W]⟩ : Shape).size a - (cellDims A C H W R N wf).sliceSizes a) := by
    intro a k hc hm hk
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : (cellDims A C H W R N wf).siIdx (ix3 r n j)
        ⟨List.idxOf a (cellDims A C H W R N wf).startIndexMap, List.idxOf_lt_length_iff.2 hm⟩ = cellIdx r n k := by
      funext b; refine Fin.ext ?_
      match b with
      | ⟨0, _⟩ => rfl
      | ⟨1, _⟩ => rfl
      | ⟨2, _⟩ => exact hk
    rw [hsi]
  match a with
  | ⟨0, _⟩ => exact collapsed 0 0 mem_axes.1 mem_axes.1 rfl
  | ⟨2, _⟩ => exact collapsed 2 1 mem_axes.2.1 mem_axes.2.1 rfl
  | ⟨3, _⟩ => exact collapsed 3 2 mem_axes.2.2.1 mem_axes.2.2.1 rfl
  | ⟨1, _⟩ =>
    -- axis 1 is kept whole: the start index map does not name it (start 0), and it is the one axis neither collapsed
    -- nor batching, so its offset coordinate is the result's coordinate on the one offset axis, `j`
    show (cellDims A C H W R N wf).start (ix3 r n j) idx 1 + (cellDims A C H W R N wf).batchCoord (ix3 r n j) 1
      + (cellDims A C H W R N wf).offCoord (ix3 r n j) 1 = j.val
    rw [GatherDims.batchCoord_eq_zero _ _ _ List.not_mem_nil]
    unfold GatherDims.start
    rw [dif_neg (show (1 : Fin 4) ∉ (cellDims A C H W R N wf).startIndexMap from mem_axes.2.2.2)]
    unfold GatherDims.offCoord
    rw [dif_pos ((GatherDims.mem_sKept _ _).mpr ⟨mem_axes.2.2.2, List.not_mem_nil⟩)]
    simp only [Nat.add_zero, Nat.zero_add]
    rfl

/-- The gather read at `(r, n, j)` when the three start components are known naturals in range, `k0 < A`, `k1 < H`,
    `k2 < W`: nothing is clamped, and the element is `x[k0, j, k1, k2]`. -/
theorem gather_cell_apply_of_eq {A C H W R N w : Nat}
    (wf : GatherDims.WF ⟨4, ![A, C, H, W]⟩ ⟨3, ![R, N, 3]⟩ ⟨3, ![R, N, C]⟩ [2] [0, 2, 3] [] [0, 2, 3] [] 2 ![1, C, 1, 1])
    (x : (⟨4, ![A, C, H, W]⟩ : Shape).Idx → α) (idx : IVec ⟨3, ![R, N, 3]⟩ w)
    (r : Fin R) (n : Fin N) (j : Fin C) (k0 k1 k2 : Nat) (hk0 : k0 < A) (hk1 : k1 < H) (hk2 : k2 < W)
    (h0 : (idx (cellIdx r n 0)).toInt = (k0 : Int)) (h1 : (idx (cellIdx r n 1)).toInt = (k1 : Int))
    (h2 : (idx (cellIdx r n 2)).toInt = (k2 : Int)) :
    Host.gather (cellDims A C H W R N wf) x idx (ix3 r n j) =
      x (ix4 (⟨k0, hk0⟩ : Fin A) j (⟨k1, hk1⟩ : Fin H) (⟨k2, hk2⟩ : Fin W)) := by
  rw [gather_cell_apply (by omega) (by omega) (by omega) wf x idx r n j]
  have e0 : min (idx (cellIdx r n 0)).toInt.toNat (A - 1) = k0 := by rw [h0]; omega
  have e1 : min (idx (cellIdx r n 1)).toInt.toNat (H - 1) = k1 := by rw [h1]; omega
  have e2 : min (idx (cellIdx r n 2)).toInt.toNat (W - 1) = k2 := by rw [h2]; omega
  congr 1
  funext a
  match a with
  | ⟨0, _⟩ => exact Fin.ext e0
  | ⟨1, _⟩ => rfl
  | ⟨2, _⟩ => exact Fin.ext e1
  | ⟨3, _⟩ => exact Fin.ext e2

end Cell

end Cert.Lib.GatherCell
-- ==== Proof.LibClampIndex.lean ====
/-
  A GENERAL LEMMA FILE — a grid coordinate computed by clamping an extended real into `[0, N]` and truncating it to a
  32-bit signed word, and the word arithmetic on such coordinates.

  * `fptosi_clamp`: for `N < 2³¹`, the float-to-signed-integer conversion of `min N (max 0 y)` is the word of a natural
    number `k ≤ N`, whatever the extended real `y` is. The clamped value `z` satisfies `0 ≤ z ≤ N`, so it is neither
    infinity: it is a real `r` with `0 ≤ r ≤ N`. The conversion rounds toward zero — the floor `⌊r⌋`, as `0 ≤ r` — and
    clamps into `[−2³¹, 2³¹ − 1]`; from `0 ≤ ⌊r⌋ ≤ N < 2³¹` neither clamp is active, and the word of the non-negative
    integer `⌊r⌋` is the word of the natural number `⌊r⌋.toNat`. (`ofInt_clamp_small` is the integer half of this.)
  * `sitofp_const`: at the ideal instance the signed-integer-to-float conversion of the word of `n < 2³¹` is the real
    `n` (the word's signed value is `n`, and the conversion is exact); with the literal cases 79, 39, 19 and 0.
  * `toNat_ofNat_small`, `toInt_ofNat_small`: the word of `k` reads back as `k` — unsigned when `k < 2³²` (no
    reduction mod `2³²`), signed when `k < 2³¹` (the sign bit is clear).
  * `wrap_small`: the "add the extent when negative" wrap of an index leaves the word of `k < 2³¹` alone: its signed
    value `k` is not below zero, so the signed comparison with zero is false and the select takes its second operand.
  * `flat_index`: `a · s + b` computed on 32-bit words is the word of the natural number `a · s + b` (taking the word of
    a natural number commutes with sums and products, both being arithmetic mod `2³²`); with the literal strides 80,
    40 and 20.
-/
import Idealize.ShloMosaic.PureOps.Ideal

namespace Cert.Lib.ClampIndex

open Idealize.ShloMosaic

/-! ## Words of small natural numbers -/

/-- The word of `k < 2³²` reads back, unsigned, as `k`: nothing is reduced mod `2³²`. -/
theorem toNat_ofNat_small (k : ℕ) (hk : k < 2 ^ 32) : (BitVec.ofNat 32 k).toNat = k := by
  rw [BitVec.toNat_ofNat]
  exact Nat.mod_eq_of_lt hk

/-- The word of `k < 2³¹` reads back, signed, as `k`: the sign bit is clear. -/
theorem toInt_ofNat_small (k : ℕ) (hk : k < 2 ^ 31) : (BitVec.ofNat 32 k).toInt = (k : ℤ) := by
  have h : (BitVec.ofNat 32 k).toNat = k := toNat_ofNat_small k (by omega)
  rw [BitVec.toInt_eq_toNat_cond, h]
  split <;> omega

/-! ## The conversions -/

/-- At the ideal instance, the signed-integer-to-float conversion of the word of `n < 2³¹` is the real `n`. -/
theorem sitofp_const (n : ℕ) (hn : n < 2 ^ 31) :
    FloatOps.sitofp (F := Ideal) .f32 (BitVec.ofNat 32 n) = ((n : ℝ) : EReal) := by
  show (((BitVec.ofNat 32 n).toInt : ℝ) : EReal) = ((n : ℝ) : EReal)
  rw [toInt_ofNat_small n hn, Int.cast_natCast]

/-- The conversion of the word 79 is the real 79. -/
theorem sitofp_79 : FloatOps.sitofp (F := Ideal) .f32 (79#32) = ((79 : ℝ) : EReal) := by
  rw [sitofp_const 79 (by norm_num)]; norm_num
/-- The conversion of the word 39 is the real 39. -/
theorem sitofp_39 : FloatOps.sitofp (F := Ideal) .f32 (39#32) = ((39 : ℝ) : EReal) := by
  rw [sitofp_const 39 (by norm_num)]; norm_num
/-- The conversion of the word 19 is the real 19. -/
theorem sitofp_19 : FloatOps.sitofp (F := Ideal) .f32 (19#32) = ((19 : ℝ) : EReal) := by
  rw [sitofp_const 19 (by norm_num)]; norm_num
/-- The conversion of the word 0 is the real 0. -/
theorem sitofp_0 : FloatOps.sitofp (F := Ideal) .f32 (0#32) = ((0 : ℝ) : EReal) := by
  rw [sitofp_const 0 (by norm_num)]; norm_num

/-- The 32-bit signed clamp `[−2³¹, 2³¹ − 1]` does nothing to an integer `0 ≤ f < 2³¹`, and the word of `f` is the word
    of the natural number `f.toNat`. -/
theorem ofInt_clamp_small (f : ℤ) (h0 : 0 ≤ f) (h1 : f < 2 ^ 31) :
    BitVec.ofInt 32 (max (-((2 ^ (32 - 1) : ℕ) : ℤ)) (min (((2 ^ (32 - 1) : ℕ) : ℤ) - 1) f)) = BitVec.ofNat 32 f.toNat := by
  have e : ((2 ^ (32 - 1) : ℕ) : ℤ) = 2147483648 := by norm_num
  rw [e]
  have hc : max (-2147483648) (min (2147483648 - 1) f) = ((f.toNat : ℕ) : ℤ) := by omega
  rw [hc, BitVec.ofInt_natCast]

/-- THE CLAMPED COORDINATE: for `N < 2³¹`, the float-to-signed-integer conversion of an extended real clamped into
    `[0, N]` is the word of a natural number `k ≤ N`. -/
theorem fptosi_clamp {N : ℕ} (hN : N < 2 ^ 31) (lo hi y : EReal) (hlo : lo = ((0 : ℝ) : EReal))
    (hhi : hi = ((N : ℝ) : EReal)) :
    ∃ k : ℕ, k ≤ N ∧ Ideal.fptosi 32 (min hi (max lo y)) = BitVec.ofNat 32 k := by
  subst hlo hhi
  -- the clamped value lies in `[0, N]` …
  have hz0 : ((0 : ℝ) : EReal) ≤ min ((N : ℝ) : EReal) (max ((0 : ℝ) : EReal) y) :=
    le_min (by exact_mod_cast Nat.cast_nonneg N) (le_max_left _ _)
  have hzN : min ((N : ℝ) : EReal) (max ((0 : ℝ) : EReal) y) ≤ ((N : ℝ) : EReal) := min_le_left _ _
  -- … so it is a real `r`
  have hne_top : min ((N : ℝ) : EReal) (max ((0 : ℝ) : EReal) y) ≠ ⊤ := (lt_of_le_of_lt hzN (EReal.coe_lt_top _)).ne
  have hne_bot : min ((N : ℝ) : EReal) (max ((0 : ℝ) : EReal) y) ≠ ⊥ := (lt_of_lt_of_le (EReal.bot_lt_coe _) hz0).ne'
  obtain ⟨r, hr⟩ : ∃ r : ℝ, min ((N : ℝ) : EReal) (max ((0 : ℝ) : EReal) y) = (r : EReal) :=
    ⟨_, (EReal.coe_toReal hne_top hne_bot).symm⟩
  rw [hr] at hz0 hzN ⊢
  have h0 : (0 : ℝ) ≤ r := by exact_mod_cast hz0
  have hrN : r ≤ (N : ℝ) := by exact_mod_cast hzN
  -- its floor lies in `[0, N]` too
  have hf0 : 0 ≤ ⌊r⌋ := Int.floor_nonneg.mpr h0
  have hfN : ⌊r⌋ ≤ (N : ℤ) := by
    have : ((⌊r⌋ : ℤ) : ℝ) ≤ (N : ℝ) := le_trans (Int.floor_le r) hrN
    exact_mod_cast this
  refine ⟨⌊r⌋.toNat, by omega, ?_⟩
  unfold Ideal.fptosi
  rw [Ideal.toIntClamped_coe, if_pos h0]
  exact ofInt_clamp_small ⌊r⌋ hf0 (by omega)

/-! ## Word arithmetic on coordinates -/

/-- The wrap of a possibly negative index — add `e` when the word is below zero, signed — leaves the word of
    `k < 2³¹` alone. -/
theorem wrap_small (k : ℕ) (hk : k < 2 ^ 31) (e : BitVec 32) :
    Scalar.select (IntOp.cmpi .slt (BitVec.ofNat 32 k) 0#32) (IntOp.addi (BitVec.ofNat 32 k) e) (BitVec.ofNat 32 k)
      = BitVec.ofNat 32 k := by
  have hslt : (BitVec.ofNat 32 k).slt 0#32 = false := by
    rw [BitVec.slt_eq_decide, toInt_ofNat_small k hk, BitVec.toInt_zero]
    exact decide_eq_false (by omega)
  show (if BitVec.ofBool ((BitVec.ofNat 32 k).slt 0#32) = 1 then IntOp.addi (BitVec.ofNat 32 k) e else BitVec.ofNat 32 k)
    = BitVec.ofNat 32 k
  rw [hslt]
  exact if_neg (by decide)

/-- The flat index `a · s + b`, computed on 32-bit words, is the word of the natural number `a · s + b`. -/
theorem flat_index (a b s : ℕ) :
    IntOp.addi (IntOp.muli (BitVec.ofNat 32 a) (BitVec.ofNat 32 s)) (BitVec.ofNat 32 b) = BitVec.ofNat 32 (a * s + b) := by
  show BitVec.ofNat 32 a * BitVec.ofNat 32 s + BitVec.ofNat 32 b = BitVec.ofNat 32 (a * s + b)
  rw [BitVec.ofNat_add, BitVec.ofNat_mul]

/-- The flat index at the literal stride 80. -/
theorem flat_index_80 (a b : ℕ) :
    IntOp.addi (IntOp.muli (BitVec.ofNat 32 a) 80#32) (BitVec.ofNat 32 b) = BitVec.ofNat 32 (a * 80 + b) :=
  flat_index a b 80
/-- The flat index at the literal stride 40. -/
theorem flat_index_40 (a b : ℕ) :
    IntOp.addi (IntOp.muli (BitVec.ofNat 32 a) 40#32) (BitVec.ofNat 32 b) = BitVec.ofNat 32 (a * 40 + b) :=
  flat_index a b 40
/-- The flat index at the literal stride 20. -/
theorem flat_index_20 (a b : ℕ) :
    IntOp.addi (IntOp.muli (BitVec.ofNat 32 a) 20#32) (BitVec.ofNat 32 b) = BitVec.ofNat 32 (a * 20 + b) :=
  flat_index a b 20

end Cert.Lib.ClampIndex
-- ==== Proof.LibCatThree.lean ====
/-
  Three arrays of shape A × B × 1 joined along the last axis, read at an index.

  The joined array has shape A × B × 3, and its entry (p, q, k) is the entry (p, q, 0) of the k-th piece: the
  pieces before piece k cover the positions 0 … k - 1 of the last axis, each with extent one.
-/
import Idealize.ShloMosaic.Lib.ValueIdx
import Idealize.ShloMosaic.Lib.Pipeline.Value

noncomputable section

namespace Idealize.ShloMosaic.CatThree

open Idealize.ShloMosaic Idealize.ShloMosaic.ValueIdx

variable {α : Type} {A B : Nat}

/-- Off the joined axis the index (p, q, 0) of a piece and the index (p, q, k) of the result have the same
    coordinates. -/
theorem off_axis (p : Fin A) (q : Fin B) (k : Fin 3) (b : Fin (⟨3, ![A, B, 1]⟩ : Shape).rank)
    (hb : b.cast rfl ≠ (2 : Fin 3)) :
    ((ix3 p q (0 : Fin 1) : (⟨3, ![A, B, 1]⟩ : Shape).Idx) b).val
      = ((ix3 p q k : (⟨3, ![A, B, 3]⟩ : Shape).Idx) (b.cast rfl)).val := by
  fin_cases b
  · rfl
  · rfl
  · exact absurd rfl hb

/-- Entry (p, q, 0) of the joined array is entry (p, q, 0) of piece 0. -/
theorem cat3_apply0 (y0 y1 y2 : (⟨3, ![A, B, 1]⟩ : Shape).Idx → α)
    (h : Shape.Concatenates [(⟨3, ![A, B, 1]⟩ : Shape), ⟨3, ![A, B, 1]⟩, ⟨3, ![A, B, 1]⟩] (⟨3, ![A, B, 3]⟩ : Shape) 2)
    (p : Fin A) (q : Fin B) :
    concatenate (⟨3, ![A, B, 3]⟩ : Shape) 2
        [⟨(⟨3, ![A, B, 1]⟩ : Shape), y0⟩, ⟨(⟨3, ![A, B, 1]⟩ : Shape), y1⟩, ⟨(⟨3, ![A, B, 1]⟩ : Shape), y2⟩] h (ix3 p q (0 : Fin 3))
      = y0 (ix3 p q (0 : Fin 1)) :=
  concatenate_apply_piece (t := (⟨3, ![A, B, 3]⟩ : Shape)) 2
    [⟨(⟨3, ![A, B, 1]⟩ : Shape), y0⟩, ⟨(⟨3, ![A, B, 1]⟩ : Shape), y1⟩, ⟨(⟨3, ![A, B, 1]⟩ : Shape), y2⟩] h (ix3 p q (0 : Fin 3)) 0 (by simp) (⟨3, ![A, B, 1]⟩ : Shape) y0 rfl rfl 0 rfl
    (ix3 p q (0 : Fin 1)) (off_axis p q (0 : Fin 3)) rfl

/-- Entry (p, q, 1) of the joined array is entry (p, q, 0) of piece 1. -/
theorem cat3_apply1 (y0 y1 y2 : (⟨3, ![A, B, 1]⟩ : Shape).Idx → α)
    (h : Shape.Concatenates [(⟨3, ![A, B, 1]⟩ : Shape), ⟨3, ![A, B, 1]⟩, ⟨3, ![A, B, 1]⟩] (⟨3, ![A, B, 3]⟩ : Shape) 2)
    (p : Fin A) (q : Fin B) :
    concatenate (⟨3, ![A, B, 3]⟩ : Shape) 2
        [⟨(⟨3, ![A, B, 1]⟩ : Shape), y0⟩, ⟨(⟨3, ![A, B, 1]⟩ : Shape), y1⟩, ⟨(⟨3, ![A, B, 1]⟩ : Shape), y2⟩] h (ix3 p q (1 : Fin 3))
      = y1 (ix3 p q (0 : Fin 1)) :=
  concatenate_apply_piece (t := (⟨3, ![A, B, 3]⟩ : Shape)) 2
    [⟨(⟨3, ![A, B, 1]⟩ : Shape), y0⟩, ⟨(⟨3, ![A, B, 1]⟩ : Shape), y1⟩, ⟨(⟨3, ![A, B, 1]⟩ : Shape), y2⟩] h (ix3 p q (1 : Fin 3)) 1 (by simp) (⟨3, ![A, B, 1]⟩ : Shape) y1 rfl rfl 1 rfl
    (ix3 p q (0 : Fin 1)) (off_axis p q (1 : Fin 3)) rfl

/-- Entry (p, q, 2) of the joined array is entry (p, q, 0) of piece 2. -/
theorem cat3_apply2 (y0 y1 y2 : (⟨3, ![A, B, 1]⟩ : Shape).Idx → α)
    (h : Shape.Concatenates [(⟨3, ![A, B, 1]⟩ : Shape), ⟨3, ![A, B, 1]⟩, ⟨3, ![A, B, 1]⟩] (⟨3, ![A, B, 3]⟩ : Shape) 2)
    (p : Fin A) (q : Fin B) :
    concatenate (⟨3, ![A, B, 3]⟩ : Shape) 2
        [⟨(⟨3, ![A, B, 1]⟩ : Shape), y0⟩, ⟨(⟨3, ![A, B, 1]⟩ : Shape), y1⟩, ⟨(⟨3, ![A, B, 1]⟩ : Shape), y2⟩] h (ix3 p q (2 : Fin 3))
      = y2 (ix3 p q (0 : Fin 1)) :=
  concatenate_apply_piece (t := (⟨3, ![A, B, 3]⟩ : Shape)) 2
    [⟨(⟨3, ![A, B, 1]⟩ : Shape), y0⟩, ⟨(⟨3, ![A, B, 1]⟩ : Shape), y1⟩, ⟨(⟨3, ![A, B, 1]⟩ : Shape), y2⟩] h (ix3 p q (2 : Fin 3)) 2 (by simp) (⟨3, ![A, B, 1]⟩ : Shape) y2 rfl rfl 2 rfl
    (ix3 p q (0 : Fin 1)) (off_axis p q (2 : Fin 3)) rfl

end Idealize.ShloMosaic.CatThree

end
-- ==== Proof.RefGather.lean ====
/-
  The reference's six gathers read at an index.

  The start indices of each gather are, per target (b, n), the triple (b, row, column): the image's number and the
  target's grid cell at the level.  Row and column are words of natural numbers inside the grid, so the wrap-around
  of negative coordinates does nothing, the gather's clamp does nothing, and the gathered entry (b, n, j) is the
  prediction array's entry (b, o + j, row, column), o = 64 for the class logits and o = 0 for the box features.
-/
import proofs.«177253_j51616916963406_2_alg».proof.Proof.Tail
import proofs.«177253_j51616916963406_2_alg».proof.Proof.LibGatherCell
import proofs.«177253_j51616916963406_2_alg».proof.Proof.LibClampIndex
import proofs.«177253_j51616916963406_2_alg».proof.Proof.LibCatThree
import Idealize.ShloMosaic.Lib.Pipeline.Value
import Idealize.ShloMosaic.PureOps.Ideal

set_option maxRecDepth 8192

noncomputable section

namespace Cert.ReferenceIdeal.RefGather

open Cert.ReferenceIdeal Cert.ReferenceIdeal.Gen Idealize.ShloMosaic Idealize.ShloMosaic.ValueIdx
open Cert.ReferenceIdeal.Tail Cert.Lib.GatherCell Cert.Lib.ClampIndex

variable {F : FTy → Type} [FloatOps F]

/-- The wrapped coordinate at a target, from the coordinate's word. -/
theorem wrapped_apply (g : IVec S16x32 32) (e : BitVec 32) (b : Fin 16) (n : Fin 32) (k : ℕ) (hk : k < 2 ^ 31)
    (h : g (ix2 b n) = BitVec.ofNat 32 k) : wrapped g e (ix2 b n) = BitVec.ofNat 32 k := by
  show Scalar.select (IntOp.cmpi .slt (g (ix2 b n)) 0#32) (IntOp.addi (g (ix2 b n)) e) (g (ix2 b n)) = _
  rw [h]; exact wrap_small k hk e

/-- A start-index position written with either index builder. -/
theorem cellIdx_eq (b : Fin 16) (n : Fin 32) (k : Fin 3) : (cellIdx b n k : (⟨3, ![16, 32, 3]⟩ : Shape).Idx) = ix3 b n k := by
  funext a
  match a with
  | ⟨0, _⟩ => rfl
  | ⟨1, _⟩ => rfl
  | ⟨2, _⟩ => rfl

/-- Entry (b, n, 0) of three joined columns is entry (b, n, 0) of column 0. -/
theorem cat_at0 (y0 y1 y2 : S16x32x1.Idx → BitVec 32) (b : Fin 16) (n : Fin 32) :
    concatenate S16x32x3 2 [⟨S16x32x1, y0⟩, ⟨S16x32x1, y1⟩, ⟨S16x32x1, y2⟩] concatenates_S16x32x1_S16x32x1_S16x32x1_S16x32x3_d2 (ix3 b n (0 : Fin 3))
      = y0 (ix3 b n (0 : Fin 1)) :=
  Idealize.ShloMosaic.CatThree.cat3_apply0 (α := BitVec 32) (A := 16) (B := 32) y0 y1 y2 concatenates_S16x32x1_S16x32x1_S16x32x1_S16x32x3_d2 b n

/-- Entry (b, n, 1) of three joined columns is entry (b, n, 0) of column 1. -/
theorem cat_at1 (y0 y1 y2 : S16x32x1.Idx → BitVec 32) (b : Fin 16) (n : Fin 32) :
    concatenate S16x32x3 2 [⟨S16x32x1, y0⟩, ⟨S16x32x1, y1⟩, ⟨S16x32x1, y2⟩] concatenates_S16x32x1_S16x32x1_S16x32x1_S16x32x3_d2 (ix3 b n (1 : Fin 3))
      = y1 (ix3 b n (0 : Fin 1)) :=
  Idealize.ShloMosaic.CatThree.cat3_apply1 (α := BitVec 32) (A := 16) (B := 32) y0 y1 y2 concatenates_S16x32x1_S16x32x1_S16x32x1_S16x32x3_d2 b n

/-- Entry (b, n, 2) of three joined columns is entry (b, n, 0) of column 2. -/
theorem cat_at2 (y0 y1 y2 : S16x32x1.Idx → BitVec 32) (b : Fin 16) (n : Fin 32) :
    concatenate S16x32x3 2 [⟨S16x32x1, y0⟩, ⟨S16x32x1, y1⟩, ⟨S16x32x1, y2⟩] concatenates_S16x32x1_S16x32x1_S16x32x1_S16x32x3_d2 (ix3 b n (2 : Fin 3))
      = y2 (ix3 b n (0 : Fin 1)) :=
  Idealize.ShloMosaic.CatThree.cat3_apply2 (α := BitVec 32) (A := 16) (B := 32) y0 y1 y2 concatenates_S16x32x1_S16x32x1_S16x32x1_S16x32x3_d2 b n

/-- The image component of target (b, n)'s start index is the word of b. -/
theorem cell_at0 (gi gj : IVec S16x32 32) (e : BitVec 32) (b : Fin 16) (n : Fin 32) :
    cell gi gj e (cellIdx b n 0) = BitVec.ofNat 32 b.val := by
  unfold cell
  rw [cellIdx_eq]
  refine (cat_at0 _ _ _ b n).trans ?_
  unfold bcol
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  refine (broadcastInDim_apply _ bcast_S16x1_S16x32_0_1 _ (ix2 b n) (ix2 b (0 : Fin 1)) (fun a => match a with
    | ⟨0, _⟩ => by show b.val = if (16 : Nat) = 1 then 0 else b.val; rw [if_neg (by decide)]
    | ⟨1, _⟩ => by show 0 = if (1 : Nat) = 1 then 0 else n.val; rw [if_pos rfl])).trans ?_
  show Scalar.select (IntOp.cmpi .slt (BitVec.ofNat 32 b.val) 0#32) (IntOp.addi (BitVec.ofNat 32 b.val) 16#32) (BitVec.ofNat 32 b.val) = _
  exact wrap_small b.val (Nat.lt_of_lt_of_le b.isLt (by norm_num)) _

/-- The row component, from the row's word. -/
theorem cell_at1 (gi gj : IVec S16x32 32) (e : BitVec 32) (b : Fin 16) (n : Fin 32) (k : ℕ) (hk : k < 2 ^ 31)
    (h : gi (ix2 b n) = BitVec.ofNat 32 k) : cell gi gj e (cellIdx b n 1) = BitVec.ofNat 32 k := by
  unfold cell
  rw [cellIdx_eq]
  refine (cat_at1 _ _ _ b n).trans ?_
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact wrapped_apply gi e b n k hk h

/-- The column component, from the column's word. -/
theorem cell_at2 (gi gj : IVec S16x32 32) (e : BitVec 32) (b : Fin 16) (n : Fin 32) (k : ℕ) (hk : k < 2 ^ 31)
    (h : gj (ix2 b n) = BitVec.ofNat 32 k) : cell gi gj e (cellIdx b n 2) = BitVec.ofNat 32 k := by
  unfold cell
  rw [cellIdx_eq]
  refine (cat_at2 _ _ _ b n).trans ?_
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  exact wrapped_apply gj e b n k hk h

/-- The gathered class logit (b, n, j) at the 80×80 level. -/
theorem gat80c_apply (x0 : FVec F S16x144x80x80 .f32) (x3 : FVec F S16x32x5 .f32) (b : Fin 16) (n : Fin 32) (j : Fin 80)
    (ki kj : ℕ) (hki : ki < 80) (hkj : kj < 80)
    (hi : gi80 x3 (ix2 b n) = BitVec.ofNat 32 ki) (hj : gj80 x3 (ix2 b n) = BitVec.ofNat 32 kj) :
    gat80c x0 x3 (ix3 b n j) = x0 (ix4 b (⟨64 + j.val, by have := j.isLt; omega⟩ : Fin 144) (⟨ki, hki⟩ : Fin 80) (⟨kj, hkj⟩ : Fin 80)) := by
  unfold gat80c
  show Host.gather (cellDims 16 80 80 80 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x0 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The gathered box feature (b, n, j) at the 80×80 level. -/
theorem gat80b_apply (x0 : FVec F S16x144x80x80 .f32) (x3 : FVec F S16x32x5 .f32) (b : Fin 16) (n : Fin 32) (j : Fin 64)
    (ki kj : ℕ) (hki : ki < 80) (hkj : kj < 80)
    (hi : gi80 x3 (ix2 b n) = BitVec.ofNat 32 ki) (hj : gj80 x3 (ix2 b n) = BitVec.ofNat 32 kj) :
    gat80b x0 x3 (ix3 b n j) = x0 (ix4 b (⟨0 + j.val, by have := j.isLt; omega⟩ : Fin 144) (⟨ki, hki⟩ : Fin 80) (⟨kj, hkj⟩ : Fin 80)) := by
  unfold gat80b
  show Host.gather (cellDims 16 64 80 80 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x0 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The gathered class logit (b, n, j) at the 40×40 level. -/
theorem gat40c_apply (x1 : FVec F S16x144x40x40 .f32) (x3 : FVec F S16x32x5 .f32) (b : Fin 16) (n : Fin 32) (j : Fin 80)
    (ki kj : ℕ) (hki : ki < 40) (hkj : kj < 40)
    (hi : gi40 x3 (ix2 b n) = BitVec.ofNat 32 ki) (hj : gj40 x3 (ix2 b n) = BitVec.ofNat 32 kj) :
    gat40c x1 x3 (ix3 b n j) = x1 (ix4 b (⟨64 + j.val, by have := j.isLt; omega⟩ : Fin 144) (⟨ki, hki⟩ : Fin 40) (⟨kj, hkj⟩ : Fin 40)) := by
  unfold gat40c
  show Host.gather (cellDims 16 80 40 40 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x1 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The gathered box feature (b, n, j) at the 40×40 level. -/
theorem gat40b_apply (x1 : FVec F S16x144x40x40 .f32) (x3 : FVec F S16x32x5 .f32) (b : Fin 16) (n : Fin 32) (j : Fin 64)
    (ki kj : ℕ) (hki : ki < 40) (hkj : kj < 40)
    (hi : gi40 x3 (ix2 b n) = BitVec.ofNat 32 ki) (hj : gj40 x3 (ix2 b n) = BitVec.ofNat 32 kj) :
    gat40b x1 x3 (ix3 b n j) = x1 (ix4 b (⟨0 + j.val, by have := j.isLt; omega⟩ : Fin 144) (⟨ki, hki⟩ : Fin 40) (⟨kj, hkj⟩ : Fin 40)) := by
  unfold gat40b
  show Host.gather (cellDims 16 64 40 40 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x1 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The gathered class logit (b, n, j) at the 20×20 level. -/
theorem gat20c_apply (x2 : FVec F S16x144x20x20 .f32) (x3 : FVec F S16x32x5 .f32) (b : Fin 16) (n : Fin 32) (j : Fin 80)
    (ki kj : ℕ) (hki : ki < 20) (hkj : kj < 20)
    (hi : gi20 x3 (ix2 b n) = BitVec.ofNat 32 ki) (hj : gj20 x3 (ix2 b n) = BitVec.ofNat 32 kj) :
    gat20c x2 x3 (ix3 b n j) = x2 (ix4 b (⟨64 + j.val, by have := j.isLt; omega⟩ : Fin 144) (⟨ki, hki⟩ : Fin 20) (⟨kj, hkj⟩ : Fin 20)) := by
  unfold gat20c
  show Host.gather (cellDims 16 80 20 20 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x2 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The gathered box feature (b, n, j) at the 20×20 level. -/
theorem gat20b_apply (x2 : FVec F S16x144x20x20 .f32) (x3 : FVec F S16x32x5 .f32) (b : Fin 16) (n : Fin 32) (j : Fin 64)
    (ki kj : ℕ) (hki : ki < 20) (hkj : kj < 20)
    (hi : gi20 x3 (ix2 b n) = BitVec.ofNat 32 ki) (hj : gj20 x3 (ix2 b n) = BitVec.ofNat 32 kj) :
    gat20b x2 x3 (ix3 b n j) = x2 (ix4 b (⟨0 + j.val, by have := j.isLt; omega⟩ : Fin 144) (⟨ki, hki⟩ : Fin 20) (⟨kj, hkj⟩ : Fin 20)) := by
  unfold gat20b
  show Host.gather (cellDims 16 64 20 20 16 32 (by decide)) _ _ (ix3 b n j) = _
  have hb31 : b.val < 2 ^ 31 := Nat.lt_of_lt_of_le b.isLt (by norm_num)
  have hi31 : ki < 2 ^ 31 := Nat.lt_of_lt_of_le hki (by norm_num)
  have hj31 : kj < 2 ^ 31 := Nat.lt_of_lt_of_le hkj (by norm_num)
  refine (gather_cell_apply_of_eq (by decide) _ _ b n j b.val ki kj b.isLt hki hkj ?_ ?_ ?_).trans ?_
  · rw [cell_at0, toInt_ofNat_small _ hb31]
  · rw [cell_at1 _ _ _ b n ki hi31 hi, toInt_ofNat_small _ hi31]
  · rw [cell_at2 _ _ _ b n kj hj31 hj, toInt_ofNat_small _ hj31]
  unfold extractStridedSlice
  refine congrArg x2 (funext fun a => Fin.ext ?_)
  match a with
  | ⟨0, _⟩ => show 0 + b.val = b.val; omega
  | ⟨1, _⟩ => rfl
  | ⟨2, _⟩ => show 0 + ki = ki; omega
  | ⟨3, _⟩ => show 0 + kj = kj; omega

/-- The row of every target's cell at the 80×80 level is the word of a natural below 80. -/
theorem gi80_range (x3 : FVec Ideal S16x32x5 .f32) (b : Fin 16) (n : Fin 32) :
    ∃ k : ℕ, k < 80 ∧ gi80 (F := Ideal) x3 (ix2 b n) = BitVec.ofNat 32 k := by
  obtain ⟨k, hk, h⟩ := fptosi_clamp (N := 79) (by norm_num) (FloatOps.sitofp (F := Ideal) .f32 (0#32)) (FloatOps.sitofp (F := Ideal) .f32 (79#32))
    (cy80 (F := Ideal) x3 (ix2 b n)) sitofp_0 (by rw [sitofp_79]; norm_num)
  exact ⟨k, by omega, h⟩

/-- The column of every target's cell at the 80×80 level is the word of a natural below 80. -/
theorem gj80_range (x3 : FVec Ideal S16x32x5 .f32) (b : Fin 16) (n : Fin 32) :
    ∃ k : ℕ, k < 80 ∧ gj80 (F := Ideal) x3 (ix2 b n) = BitVec.ofNat 32 k := by
  obtain ⟨k, hk, h⟩ := fptosi_clamp (N := 79) (by norm_num) (FloatOps.sitofp (F := Ideal) .f32 (0#32)) (FloatOps.sitofp (F := Ideal) .f32 (79#32))
    (cx80 (F := Ideal) x3 (ix2 b n)) sitofp_0 (by rw [sitofp_79]; norm_num)
  exact ⟨k, by omega, h⟩

/-- The row of every target's cell at the 40×40 level is the word of a natural below 40. -/
theorem gi40_range (x3 : FVec Ideal S16x32x5 .f32) (b : Fin 16) (n : Fin 32) :
    ∃ k : ℕ, k < 40 ∧ gi40 (F := Ideal) x3 (ix2 b n) = BitVec.ofNat 32 k := by
  obtain ⟨k, hk, h⟩ := fptosi_clamp (N := 39) (by norm_num) (FloatOps.sitofp (F := Ideal) .f32 (0#32)) (FloatOps.sitofp (F := Ideal) .f32 (39#32))
    (cy40 (F := Ideal) x3 (ix2 b n)) sitofp_0 (by rw [sitofp_39]; norm_num)
  exact ⟨k, by omega, h⟩

/-- The column of every target's cell at the 40×40 level is the word of a natural below 40. -/
theorem gj40_range (x3 : FVec Ideal S16x32x5 .f32) (b : Fin 16) (n : Fin 32) :
    ∃ k : ℕ, k < 40 ∧ gj40 (F := Ideal) x3 (ix2 b n) = BitVec.ofNat 32 k := by
  obtain ⟨k, hk, h⟩ := fptosi_clamp (N := 39) (by norm_num) (FloatOps.sitofp (F := Ideal) .f32 (0#32)) (FloatOps.sitofp (F := Ideal) .f32 (39#32))
    (cx40 (F := Ideal) x3 (ix2 b n)) sitofp_0 (by rw [sitofp_39]; norm_num)
  exact ⟨k, by omega, h⟩

/-- The row of every target's cell at the 20×20 level is the word of a natural below 20. -/
theorem gi20_range (x3 : FVec Ideal S16x32x5 .f32) (b : Fin 16) (n : Fin 32) :
    ∃ k : ℕ, k < 20 ∧ gi20 (F := Ideal) x3 (ix2 b n) = BitVec.ofNat 32 k := by
  obtain ⟨k, hk, h⟩ := fptosi_clamp (N := 19) (by norm_num) (FloatOps.sitofp (F := Ideal) .f32 (0#32)) (FloatOps.sitofp (F := Ideal) .f32 (19#32))
    (cy20 (F := Ideal) x3 (ix2 b n)) sitofp_0 (by rw [sitofp_19]; norm_num)
  exact ⟨k, by omega, h⟩

/-- The column of every target's cell at the 20×20 level is the word of a natural below 20. -/
theorem gj20_range (x3 : FVec Ideal S16x32x5 .f32) (b : Fin 16) (n : Fin 32) :
    ∃ k : ℕ, k < 20 ∧ gj20 (F := Ideal) x3 (ix2 b n) = BitVec.ofNat 32 k := by
  obtain ⟨k, hk, h⟩ := fptosi_clamp (N := 19) (by norm_num) (FloatOps.sitofp (F := Ideal) .f32 (0#32)) (FloatOps.sitofp (F := Ideal) .f32 (19#32))
    (cx20 (F := Ideal) x3 (ix2 b n)) sitofp_0 (by rw [sitofp_19]; norm_num)
  exact ⟨k, by omega, h⟩

end Cert.ReferenceIdeal.RefGather

end
-- ==== Proof.KBridge.lean ====
/-
  The arrays the region writes are the reference's gathers.

  At each level the target's flat cell index row · w + column is below h · w, the region's one-hot product picks the
  flattened prediction array's entry (b, ch, row · w + column), and flattening the two grid axes puts entry
  (b, ch, row, column) there: the entry the reference's gather reads.  Splitting the 144 channels into the first 64
  and the last 80 gives the reference's box features and class logits, entry by entry.
-/
import proofs.«177253_j51616916963406_2_alg».proof.Proof.KValue
import proofs.«177253_j51616916963406_2_alg».proof.Proof.KTail
import proofs.«177253_j51616916963406_2_alg».proof.Proof.RefGather

set_option maxRecDepth 16384

noncomputable section

namespace Cert.KernelIdeal.KBridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.KTail Cert.KernelIdeal.KValue
open Cert.Lib.ClampIndex

variable (m : (ℓ : Loc nD τ sig) → Buf (Elt Ideal) ℓ) (c : Dev nD)

/-- The class logits of a gathered array at (b, n, j): channel 64 + j. -/
theorem clsPart_apply (A : S16x32x144.Idx → EReal) (b : Fin 16) (n : Fin 32) (j : Fin 80) :
    clsPart A (ix3 b n j) = A (ix3 b n (⟨64 + j.val, by have := j.isLt; omega⟩ : Fin 144)) := by
  unfold clsPart extractStridedSlice
  refine congrArg A (funext fun a => Fin.ext ?_)
  match a with
  | ⟨0, _⟩ => show 0 + b.val = b.val; omega
  | ⟨1, _⟩ => show 0 + n.val = n.val; omega
  | ⟨2, _⟩ => rfl

/-- The box features of a gathered array at (b, n, j): channel j. -/
theorem boxPart_apply (A : S16x32x144.Idx → EReal) (b : Fin 16) (n : Fin 32) (j : Fin 64) :
    boxPart A (ix3 b n j) = A (ix3 b n (⟨0 + j.val, by have := j.isLt; omega⟩ : Fin 144)) := by
  unfold boxPart extractStridedSlice
  refine congrArg A (funext fun a => Fin.ext ?_)
  match a with
  | ⟨0, _⟩ => show 0 + b.val = b.val; omega
  | ⟨1, _⟩ => show 0 + n.val = n.val; omega
  | ⟨2, _⟩ => rfl

/-! ## The 80×80 level -/

/-- Row and column of target (b, n)'s cell are words of naturals inside the grid, and the flat index is row · 80 + column. -/
theorem idx80 (b : Fin 16) (n : Fin 32) : ∃ ki kj : ℕ, ki < 80 ∧ kj < 80
    ∧ Cert.ReferenceIdeal.Tail.gi80 (F := Ideal) (m ((c : Thread nD τ).loc main_arg3)) (ix2 b n) = BitVec.ofNat 32 ki
    ∧ Cert.ReferenceIdeal.Tail.gj80 (F := Ideal) (m ((c : Thread nD τ).loc main_arg3)) (ix2 b n) = BitVec.ofNat 32 kj
    ∧ V m c main_v24 (ix3 b n (0 : Fin 1)) = BitVec.ofNat 32 (ki * 80 + kj) := by
  obtain ⟨ki, hki, hi⟩ := Cert.ReferenceIdeal.RefGather.gi80_range (m ((c : Thread nD τ).loc main_arg3)) b n
  obtain ⟨kj, hkj, hj⟩ := Cert.ReferenceIdeal.RefGather.gj80_range (m ((c : Thread nD τ).loc main_arg3)) b n
  refine ⟨ki, kj, hki, hkj, hi, hj, ?_⟩
  rw [V_v24]
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  show IntOp.addi (IntOp.muli (Cert.ReferenceIdeal.Tail.gi80 (F := Ideal) (m ((c : Thread nD τ).loc main_arg3)) (ix2 b n)) 80#32)
      (Cert.ReferenceIdeal.Tail.gj80 (F := Ideal) (m ((c : Thread nD τ).loc main_arg3)) (ix2 b n)) = _
  rw [hi, hj, flat_index_80]

/-- The flat index is below 6400. -/
theorem hI6 (b : Fin 16) (n : Fin 32) : (V m c main_v24 (ix3 b n (0 : Fin 1))).toNat < 6400 := by
  obtain ⟨ki, kj, hki, hkj, -, -, hw⟩ := idx80 m c b n
  have h32 : ki * 80 + kj < 2 ^ 32 := Nat.lt_of_lt_of_le (show ki * 80 + kj < 6400 by omega) (by norm_num)
  rw [hw, toNat_ofNat_small _ h32]
  omega

/-- The region's array at (b, n, ch) is the prediction array's entry (b, ch, row, column). -/
theorem arr6_apply (b : Fin 16) (n : Fin 32) (ch : Fin 144) (ki kj : ℕ) (hki : ki < 80) (hkj : kj < 80)
    (hw : V m c main_v24 (ix3 b n (0 : Fin 1)) = BitVec.ofNat 32 (ki * 80 + kj)) :
    (dats m 0 c).arrAt 6 cfg0.N (ix3 b n ch) = m ((c : Thread nD τ).loc main_arg0) (ix4 b ch (⟨ki, hki⟩ : Fin 80) (⟨kj, hkj⟩ : Fin 80)) := by
  rw [KValue.final6 m c (hI6 m c)]
  have hlt : (V m c main_v24 (ix3 b n (0 : Fin 1))).toNat < 6400 := hI6 m c b n
  refine (sel6400_block (V m c main_v23) (V m c main_v24) b n ch hlt).symm.trans ?_
  have hk : (V m c main_v24 (ix3 b n (0 : Fin 1))).toNat = ki * 80 + kj := by
    rw [hw, toNat_ofNat_small _ (Nat.lt_of_lt_of_le (show ki * 80 + kj < 6400 by omega) (by norm_num))]
  rw [V_v23]
  refine shapeCast_apply _ _ _ (ix4 b ch (⟨ki, hki⟩ : Fin 80) (⟨kj, hkj⟩ : Fin 80)) ?_
  rw [Shape.rowMajor_val_four, Shape.rowMajor_val_three]
  show ((b.val * 144 + ch.val) * 80 + ki) * 80 + kj = (b.val * 144 + ch.val) * 6400 + (V m c main_v24 (ix3 b n (0 : Fin 1))).toNat
  rw [hk]
  have e : ((b.val * 144 + ch.val) * 80 + ki) * 80 = (b.val * 144 + ch.val) * 6400 + ki * 80 := by ring
  omega

/-- The class logits the region gathered are the reference's. -/
theorem cls80 : clsPart ((dats m 0 c).arrAt 6 cfg0.N)
    = Cert.ReferenceIdeal.Tail.gat80c (F := Ideal) (m ((c : Thread nD τ).loc main_arg0)) (m ((c : Thread nD τ).loc main_arg3)) := by
  funext i
  obtain ⟨b, n, j, rfl⟩ : ∃ (b : Fin 16) (n : Fin 32) (j : Fin 80), i = ix3 b n j := ⟨i 0, i 1, i 2, eq_ix3 i⟩
  obtain ⟨ki, kj, hki, hkj, hi, hj, hw⟩ := idx80 m c b n
  rw [Cert.ReferenceIdeal.RefGather.gat80c_apply _ _ b n j ki kj hki hkj hi hj, clsPart_apply]
  exact arr6_apply m c b n _ ki kj hki hkj hw

/-- The box features the region gathered are the reference's. -/
theorem box80 : boxPart ((dats m 0 c).arrAt 6 cfg0.N)
    = Cert.ReferenceIdeal.Tail.gat80b (F := Ideal) (m ((c : Thread nD τ).loc main_arg0)) (m ((c : Thread nD τ).loc main_arg3)) := by
  funext i
  obtain ⟨b, n, j, rfl⟩ : ∃ (b : Fin 16) (n : Fin 32) (j : Fin 64), i = ix3 b n j := ⟨i 0, i 1, i 2, eq_ix3 i⟩
  obtain ⟨ki, kj, hki, hkj, hi, hj, hw⟩ := idx80 m c b n
  rw [Cert.ReferenceIdeal.RefGather.gat80b_apply _ _ b n j ki kj hki hkj hi hj, boxPart_apply]
  exact arr6_apply m c b n _ ki kj hki hkj hw

/-! ## The 40×40 level -/

/-- Row and column of target (b, n)'s cell are words of naturals inside the grid, and the flat index is row · 40 + column. -/
theorem idx40 (b : Fin 16) (n : Fin 32) : ∃ ki kj : ℕ, ki < 40 ∧ kj < 40
    ∧ Cert.ReferenceIdeal.Tail.gi40 (F := Ideal) (m ((c : Thread nD τ).loc main_arg3)) (ix2 b n) = BitVec.ofNat 32 ki
    ∧ Cert.ReferenceIdeal.Tail.gj40 (F := Ideal) (m ((c : Thread nD τ).loc main_arg3)) (ix2 b n) = BitVec.ofNat 32 kj
    ∧ V m c main_v39 (ix3 b n (0 : Fin 1)) = BitVec.ofNat 32 (ki * 40 + kj) := by
  obtain ⟨ki, hki, hi⟩ := Cert.ReferenceIdeal.RefGather.gi40_range (m ((c : Thread nD τ).loc main_arg3)) b n
  obtain ⟨kj, hkj, hj⟩ := Cert.ReferenceIdeal.RefGather.gj40_range (m ((c : Thread nD τ).loc main_arg3)) b n
  refine ⟨ki, kj, hki, hkj, hi, hj, ?_⟩
  rw [V_v39]
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  show IntOp.addi (IntOp.muli (Cert.ReferenceIdeal.Tail.gi40 (F := Ideal) (m ((c : Thread nD τ).loc main_arg3)) (ix2 b n)) 40#32)
      (Cert.ReferenceIdeal.Tail.gj40 (F := Ideal) (m ((c : Thread nD τ).loc main_arg3)) (ix2 b n)) = _
  rw [hi, hj, flat_index_40]

/-- The flat index is below 1600. -/
theorem hI7 (b : Fin 16) (n : Fin 32) : (V m c main_v39 (ix3 b n (0 : Fin 1))).toNat < 1600 := by
  obtain ⟨ki, kj, hki, hkj, -, -, hw⟩ := idx40 m c b n
  have h32 : ki * 40 + kj < 2 ^ 32 := Nat.lt_of_lt_of_le (show ki * 40 + kj < 1600 by omega) (by norm_num)
  rw [hw, toNat_ofNat_small _ h32]
  omega

/-- The region's array at (b, n, ch) is the prediction array's entry (b, ch, row, column). -/
theorem arr7_apply (b : Fin 16) (n : Fin 32) (ch : Fin 144) (ki kj : ℕ) (hki : ki < 40) (hkj : kj < 40)
    (hw : V m c main_v39 (ix3 b n (0 : Fin 1)) = BitVec.ofNat 32 (ki * 40 + kj)) :
    (dats m 0 c).arrAt 7 cfg0.N (ix3 b n ch) = m ((c : Thread nD τ).loc main_arg1) (ix4 b ch (⟨ki, hki⟩ : Fin 40) (⟨kj, hkj⟩ : Fin 40)) := by
  rw [KValue.final7 m c (hI7 m c)]
  have hlt : (V m c main_v39 (ix3 b n (0 : Fin 1))).toNat < 1600 := hI7 m c b n
  refine (sel1600_block (V m c main_v38) (V m c main_v39) b n ch hlt).symm.trans ?_
  have hk : (V m c main_v39 (ix3 b n (0 : Fin 1))).toNat = ki * 40 + kj := by
    rw [hw, toNat_ofNat_small _ (Nat.lt_of_lt_of_le (show ki * 40 + kj < 1600 by omega) (by norm_num))]
  rw [V_v38]
  refine shapeCast_apply _ _ _ (ix4 b ch (⟨ki, hki⟩ : Fin 40) (⟨kj, hkj⟩ : Fin 40)) ?_
  rw [Shape.rowMajor_val_four, Shape.rowMajor_val_three]
  show ((b.val * 144 + ch.val) * 40 + ki) * 40 + kj = (b.val * 144 + ch.val) * 1600 + (V m c main_v39 (ix3 b n (0 : Fin 1))).toNat
  rw [hk]
  have e : ((b.val * 144 + ch.val) * 40 + ki) * 40 = (b.val * 144 + ch.val) * 1600 + ki * 40 := by ring
  omega

/-- The class logits the region gathered are the reference's. -/
theorem cls40 : clsPart ((dats m 0 c).arrAt 7 cfg0.N)
    = Cert.ReferenceIdeal.Tail.gat40c (F := Ideal) (m ((c : Thread nD τ).loc main_arg1)) (m ((c : Thread nD τ).loc main_arg3)) := by
  funext i
  obtain ⟨b, n, j, rfl⟩ : ∃ (b : Fin 16) (n : Fin 32) (j : Fin 80), i = ix3 b n j := ⟨i 0, i 1, i 2, eq_ix3 i⟩
  obtain ⟨ki, kj, hki, hkj, hi, hj, hw⟩ := idx40 m c b n
  rw [Cert.ReferenceIdeal.RefGather.gat40c_apply _ _ b n j ki kj hki hkj hi hj, clsPart_apply]
  exact arr7_apply m c b n _ ki kj hki hkj hw

/-- The box features the region gathered are the reference's. -/
theorem box40 : boxPart ((dats m 0 c).arrAt 7 cfg0.N)
    = Cert.ReferenceIdeal.Tail.gat40b (F := Ideal) (m ((c : Thread nD τ).loc main_arg1)) (m ((c : Thread nD τ).loc main_arg3)) := by
  funext i
  obtain ⟨b, n, j, rfl⟩ : ∃ (b : Fin 16) (n : Fin 32) (j : Fin 64), i = ix3 b n j := ⟨i 0, i 1, i 2, eq_ix3 i⟩
  obtain ⟨ki, kj, hki, hkj, hi, hj, hw⟩ := idx40 m c b n
  rw [Cert.ReferenceIdeal.RefGather.gat40b_apply _ _ b n j ki kj hki hkj hi hj, boxPart_apply]
  exact arr7_apply m c b n _ ki kj hki hkj hw

/-! ## The 20×20 level -/

/-- Row and column of target (b, n)'s cell are words of naturals inside the grid, and the flat index is row · 20 + column. -/
theorem idx20 (b : Fin 16) (n : Fin 32) : ∃ ki kj : ℕ, ki < 20 ∧ kj < 20
    ∧ Cert.ReferenceIdeal.Tail.gi20 (F := Ideal) (m ((c : Thread nD τ).loc main_arg3)) (ix2 b n) = BitVec.ofNat 32 ki
    ∧ Cert.ReferenceIdeal.Tail.gj20 (F := Ideal) (m ((c : Thread nD τ).loc main_arg3)) (ix2 b n) = BitVec.ofNat 32 kj
    ∧ V m c main_v54 (ix3 b n (0 : Fin 1)) = BitVec.ofNat 32 (ki * 20 + kj) := by
  obtain ⟨ki, hki, hi⟩ := Cert.ReferenceIdeal.RefGather.gi20_range (m ((c : Thread nD τ).loc main_arg3)) b n
  obtain ⟨kj, hkj, hj⟩ := Cert.ReferenceIdeal.RefGather.gj20_range (m ((c : Thread nD τ).loc main_arg3)) b n
  refine ⟨ki, kj, hki, hkj, hi, hj, ?_⟩
  rw [V_v54]
  refine (broadcastInDim_apply _ bcast_S16x32_S16x32x1_0_1 _ (ix3 b n (0 : Fin 1)) (ix2 b n) (fun a => match a with
    | ⟨0, _⟩ => by show b.val = if (16 : Nat) = 1 then 0 else b.val; rw [if_neg (by decide)]
    | ⟨1, _⟩ => by show n.val = if (32 : Nat) = 1 then 0 else n.val; rw [if_neg (by decide)])).trans ?_
  show IntOp.addi (IntOp.muli (Cert.ReferenceIdeal.Tail.gi20 (F := Ideal) (m ((c : Thread nD τ).loc main_arg3)) (ix2 b n)) 20#32)
      (Cert.ReferenceIdeal.Tail.gj20 (F := Ideal) (m ((c : Thread nD τ).loc main_arg3)) (ix2 b n)) = _
  rw [hi, hj, flat_index_20]

/-- The flat index is below 400. -/
theorem hI8 (b : Fin 16) (n : Fin 32) : (V m c main_v54 (ix3 b n (0 : Fin 1))).toNat < 400 := by
  obtain ⟨ki, kj, hki, hkj, -, -, hw⟩ := idx20 m c b n
  have h32 : ki * 20 + kj < 2 ^ 32 := Nat.lt_of_lt_of_le (show ki * 20 + kj < 400 by omega) (by norm_num)
  rw [hw, toNat_ofNat_small _ h32]
  omega

/-- The region's array at (b, n, ch) is the prediction array's entry (b, ch, row, column). -/
theorem arr8_apply (b : Fin 16) (n : Fin 32) (ch : Fin 144) (ki kj : ℕ) (hki : ki < 20) (hkj : kj < 20)
    (hw : V m c main_v54 (ix3 b n (0 : Fin 1)) = BitVec.ofNat 32 (ki * 20 + kj)) :
    (dats m 0 c).arrAt 8 cfg0.N (ix3 b n ch) = m ((c : Thread nD τ).loc main_arg2) (ix4 b ch (⟨ki, hki⟩ : Fin 20) (⟨kj, hkj⟩ : Fin 20)) := by
  rw [KValue.final8 m c (hI8 m c)]
  have hlt : (V m c main_v54 (ix3 b n (0 : Fin 1))).toNat < 400 := hI8 m c b n
  refine (sel400_block (V m c main_v53) (V m c main_v54) b n ch hlt).symm.trans ?_
  have hk : (V m c main_v54 (ix3 b n (0 : Fin 1))).toNat = ki * 20 + kj := by
    rw [hw, toNat_ofNat_small _ (Nat.lt_of_lt_of_le (show ki * 20 + kj < 400 by omega) (by norm_num))]
  rw [V_v53]
  refine shapeCast_apply _ _ _ (ix4 b ch (⟨ki, hki⟩ : Fin 20) (⟨kj, hkj⟩ : Fin 20)) ?_
  rw [Shape.rowMajor_val_four, Shape.rowMajor_val_three]
  show ((b.val * 144 + ch.val) * 20 + ki) * 20 + kj = (b.val * 144 + ch.val) * 400 + (V m c main_v54 (ix3 b n (0 : Fin 1))).toNat
  rw [hk]
  have e : ((b.val * 144 + ch.val) * 20 + ki) * 20 = (b.val * 144 + ch.val) * 400 + ki * 20 := by ring
  omega

/-- The class logits the region gathered are the reference's. -/
theorem cls20 : clsPart ((dats m 0 c).arrAt 8 cfg0.N)
    = Cert.ReferenceIdeal.Tail.gat20c (F := Ideal) (m ((c : Thread nD τ).loc main_arg2)) (m ((c : Thread nD τ).loc main_arg3)) := by
  funext i
  obtain ⟨b, n, j, rfl⟩ : ∃ (b : Fin 16) (n : Fin 32) (j : Fin 80), i = ix3 b n j := ⟨i 0, i 1, i 2, eq_ix3 i⟩
  obtain ⟨ki, kj, hki, hkj, hi, hj, hw⟩ := idx20 m c b n
  rw [Cert.ReferenceIdeal.RefGather.gat20c_apply _ _ b n j ki kj hki hkj hi hj, clsPart_apply]
  exact arr8_apply m c b n _ ki kj hki hkj hw

/-- The box features the region gathered are the reference's. -/
theorem box20 : boxPart ((dats m 0 c).arrAt 8 cfg0.N)
    = Cert.ReferenceIdeal.Tail.gat20b (F := Ideal) (m ((c : Thread nD τ).loc main_arg2)) (m ((c : Thread nD τ).loc main_arg3)) := by
  funext i
  obtain ⟨b, n, j, rfl⟩ : ∃ (b : Fin 16) (n : Fin 32) (j : Fin 64), i = ix3 b n j := ⟨i 0, i 1, i 2, eq_ix3 i⟩
  obtain ⟨ki, kj, hki, hkj, hi, hj, hw⟩ := idx20 m c b n
  rw [Cert.ReferenceIdeal.RefGather.gat20b_apply _ _ b n j ki kj hki hkj hi hj, boxPart_apply]
  exact arr8_apply m c b n _ ki kj hki hkj hw

end Cert.KernelIdeal.KBridge

end
-- ==== Proof.KRun.lean ====
/-
  The idealized kernel's run with its results named.

  Every weakly fair execution of the idealized kernel ends with the box loss, the class loss, their weighted total and
  the zero fourth result equal to the reference's functions of the argument arrays: the frame run leaves every
  unscoped buffer at what the host operations after the region compute from the arrays the region wrote, and those
  arrays are the reference's gathers.
-/
import proofs.«177253_j51616916963406_2_alg».proof.Proof.KBridge

set_option maxRecDepth 16384

noncomputable section

namespace Cert.KernelIdeal.KRun

open Idealize.ShloMosaic Idealize.ShloMosaic.TcCoe
open Idealize.SL Idealize.SL.Sem
open Idealize.ShloMosaic.Pipeline (Dat Cfg Window)
open Cert.KernelIdeal Cert.KernelIdeal.Gen Cert.KernelIdeal.Frame Cert.KernelIdeal.KTail Cert.KernelIdeal.KBridge

variable (m : (ℓ : Loc nD τ sig) → Buf (Elt Ideal) ℓ) (ρ : Dev nD → PrngReg)

/-- The box loss as the reference's function of the argument arrays. -/
def outBox (c : Dev nD) : Buf (Elt Ideal) ((c.tc : Thread nD τ).loc main_v129) := (Cert.ReferenceIdeal.Tail.boxLoss (F := Ideal) (Cert.ReferenceIdeal.Tail.gat80b (m ((c.tc : Thread nD τ).loc main_arg0)) (m ((c.tc : Thread nD τ).loc main_arg3))) (Cert.ReferenceIdeal.Tail.gat40b (m ((c.tc : Thread nD τ).loc main_arg1)) (m ((c.tc : Thread nD τ).loc main_arg3))) (Cert.ReferenceIdeal.Tail.gat20b (m ((c.tc : Thread nD τ).loc main_arg2)) (m ((c.tc : Thread nD τ).loc main_arg3))))
/-- The class loss. -/
def outCls (c : Dev nD) : Buf (Elt Ideal) ((c.tc : Thread nD τ).loc main_v131) := (Cert.ReferenceIdeal.Tail.clsLoss (F := Ideal) (Cert.ReferenceIdeal.Tail.gat80c (m ((c.tc : Thread nD τ).loc main_arg0)) (m ((c.tc : Thread nD τ).loc main_arg3))) (Cert.ReferenceIdeal.Tail.gat40c (m ((c.tc : Thread nD τ).loc main_arg1)) (m ((c.tc : Thread nD τ).loc main_arg3))) (Cert.ReferenceIdeal.Tail.gat20c (m ((c.tc : Thread nD τ).loc main_arg2)) (m ((c.tc : Thread nD τ).loc main_arg3))) (Cert.ReferenceIdeal.Tail.oneHot (m ((c.tc : Thread nD τ).loc main_arg3))))
/-- The total. -/
def outTotal (c : Dev nD) : Buf (Elt Ideal) ((c.tc : Thread nD τ).loc main_v140) :=
  Cert.ReferenceIdeal.Tail.total (F := Ideal) (Cert.ReferenceIdeal.Tail.boxLoss (F := Ideal) (Cert.ReferenceIdeal.Tail.gat80b (m ((c.tc : Thread nD τ).loc main_arg0)) (m ((c.tc : Thread nD τ).loc main_arg3))) (Cert.ReferenceIdeal.Tail.gat40b (m ((c.tc : Thread nD τ).loc main_arg1)) (m ((c.tc : Thread nD τ).loc main_arg3))) (Cert.ReferenceIdeal.Tail.gat20b (m ((c.tc : Thread nD τ).loc main_arg2)) (m ((c.tc : Thread nD τ).loc main_arg3)))) (Cert.ReferenceIdeal.Tail.clsLoss (F := Ideal) (Cert.ReferenceIdeal.Tail.gat80c (m ((c.tc : Thread nD τ).loc main_arg0)) (m ((c.tc : Thread nD τ).loc main_arg3))) (Cert.ReferenceIdeal.Tail.gat40c (m ((c.tc : Thread nD τ).loc main_arg1)) (m ((c.tc : Thread nD τ).loc main_arg3))) (Cert.ReferenceIdeal.Tail.gat20c (m ((c.tc : Thread nD τ).loc main_arg2)) (m ((c.tc : Thread nD τ).loc main_arg3))) (Cert.ReferenceIdeal.Tail.oneHot (m ((c.tc : Thread nD τ).loc main_arg3))))
/-- The fourth result: zero. -/
def outZero (c : Dev nD) : Buf (Elt Ideal) ((c.tc : Thread nD τ).loc main_v132) :=
  broadcastInDim S1 ![] bcast_S_S1 (constant (F := Ideal) S_ .f32 0x00000000#32)

theorem run : θ_run (defs (F := Ideal)) (onTc (τ := τ) (main (F := Ideal))) ⟨m, fun _ => 0, ρ⟩ (fun r => ∀ c : Dev nD,
      r.2.mem ((c.tc : Thread nD τ).loc main_v140) = outTotal m c
      ∧ r.2.mem ((c.tc : Thread nD τ).loc main_v129) = outBox m c
      ∧ r.2.mem ((c.tc : Thread nD τ).loc main_v131) = outCls m c
      ∧ r.2.mem ((c.tc : Thread nD τ).loc main_v132) = outZero c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v140 (Pipeline.mem_restRefs_of main_v140 (by decide) (by decide))).trans (by
        rw [tail_total, box80, box40, box20, cls80, cls40, cls20, V_v9]; rfl),
      ((h c).2 main_v129 (Pipeline.mem_restRefs_of main_v129 (by decide) (by decide))).trans (by
        rw [tail_box, box80, box40, box20]; rfl),
      ((h c).2 main_v131 (Pipeline.mem_restRefs_of main_v131 (by decide) (by decide))).trans (by
        rw [tail_cls, cls80, cls40, cls20, V_v9]; rfl),
      ((h c).2 main_v132 (Pipeline.mem_restRefs_of main_v132 (by decide) (by decide))).trans (tail_zero m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefRun.lean ====
/-
  The reference program's run.  Its @main is a straight line of 372 host operations (the outlined clip and one-hot
  helpers inlined where they are called): listed in order, the program is their sequence, every buffer they touch is a
  TensorCore buffer, and so every weakly fair execution terminates with each result buffer at the operations' composed
  term of the argument arrays and the arguments unchanged.  Each of the three long result terms is given a name.
-/
import proofs.«177253_j51616916963406_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 372 operations of @main, in order; the operations of the outlined clip and one-hot helpers stand where they are called. -/
abbrev ops : List (HloOp τ sig (Elt F)) :=
  [ unary main_arg3 main_v0 ((extractStridedSlice S16x32x4 ![0, 0, 0] · slices_S16x32x5_S16x32x4_0_0_0) : (⟨S16x32x5, .f32⟩ : BufTy).Contents (Elt F) → (⟨S16x32x4, .f32⟩ : BufTy).Contents (Elt F)),
    unary main_arg3 main_v1 ((extractStridedSlice S16x32x1 ![0, 0, 4] · slices_S16x32x5_S16x32x1_0_0_4) : (⟨S16x32x5, .f32⟩ : BufTy).Contents (Elt F) → (⟨S16x32x1, .f32⟩ : BufTy).Contents (Elt F)),
    reshape main_v1 main_v2 rfl shapeCasts_S16x32x1_S16x32,
    unary main_v2 main_v3 (fptosi 32 : (⟨S16x32, .f32⟩ : BufTy).Contents (Elt F) → (⟨S16x32, .i32⟩ : BufTy).Contents (Elt F)),
    unary main_v0 main_v4 ((extractStridedSlice S16x32x2 ![0, 0, 0] · slices_S16x32x4_S16x32x2_0_0_0) : (⟨S16x32x4, .f32⟩ : BufTy).Contents (Elt F) → (⟨S16x32x2, .f32⟩ : BufTy).Contents (Elt F)),
    unary main_v0 main_v5 ((extractStridedSlice S16x32x2 ![0, 0, 2] · slices_S16x32x4_S16x32x2_0_0_2) : (⟨S16x32x4, .f32⟩ : BufTy).Contents (Elt F) → (⟨S16x32x2, .f32⟩ : BufTy).Contents (Elt F)),
    binary main_v4 main_v5 main_v6 (addf : (⟨S16x32x2, .f32⟩ : BufTy).Contents (Elt F) → (⟨S16x32x2, .f32⟩ : BufTy).Contents (Elt F) → (⟨S16x32x2, .f32⟩ : BufTy).Contents (Elt F)),
    nullary main_cst (constant S_ .f32 0x3F000000#32),
    unary main_cst main_v7 (broadcastInDim S16x32x2 ![] bcast_S_S16x32x2 : (⟨S_, .f32⟩ : BufTy).Contents (Elt F) → (⟨S16x32x2, .f32⟩ : BufTy).Contents (Elt F)),
    binary main_v6 main_v7 main_v8 (mulf : (⟨S16x32x2, .f32⟩ : BufTy).Contents (Elt F) → (⟨S16x32x2, .f32⟩ : BufTy).Contents (Elt F) → (⟨S16x32x2, .f32⟩ : BufTy).Contents (Elt F)),
    TRef.unary (TRef.of (T := ⟨S16x32, .i32⟩) main_v3) (TRef.of (T := ⟨S16x32x1, .i32⟩) main_call0_v0) (broadcastInDim S16x32x1 ![0, 1] bcast_S16x32_S16x32x1_0_1),
    TRef.nullary (TRef.of (T := ⟨S1x1x80, .i32⟩) main_call0_v1) (iotaInDim S1x1x80 32 2),
    TRef.unary (TRef.of (T := ⟨S16x32x1, .i32⟩) main_call0_v0) (TRef.of (T := ⟨S16x32x80, .i32⟩) main_call0_v2) (broadcastInDim S16x32x80 ![0, 1, 2] bcast_S16x32x1_S16x32x80_0_1_2),
    TRef.unary (TRef.of (T := ⟨S1x1x80, .i32⟩) main_call0_v1) (TRef.of (T := ⟨S16x32x80, .i32⟩) main_call0_v3) (broadcastInDim S16x32x80 ![0, 1, 2] bcast_S1x1x80_S16x32x80_0_1_2),
    TRef.binary (TRef.of (T := ⟨S16x32x80, .i32⟩) main_call0_v2) (TRef.of (T := ⟨S16x32x80, .i32⟩) main_call0_v3) (TRef.of (T := ⟨S16x32x80, .i1⟩) main_call0_v4) (cmpi .eq),
    TRef.unary (TRef.of (T := ⟨S16x32x80, .i1⟩) main_call0_v4) (TRef.of (T := ⟨S16x32x80, .f32⟩) main_v9) (uitofp .f32),
    nullary main_v10 (iotaInDim S16 32 0),
    unary main_v10 main_v11 (broadcastInDim S16x1 ![0] bcast_S16_S16x1_0 : (⟨S16, .i32⟩ : BufTy).Contents (Elt F) → (⟨S16x1, .i32⟩ : BufTy).Contents (Elt F)),
    nullary main_cst_0 (constant S_ .f32 0x41000000#32),
    unary main_cst_0 main_v12 (broadcastInDim S16x32x2 ![] bcast_S_S16x32x2 : (⟨S_, .f32⟩ : BufTy).Contents (Elt F) → (⟨S16x32x2, .f32⟩ : BufTy).Contents (Elt F)),
    binary main_v8 main_v12 main_v13 (Host.divf : (⟨S16x32x2, .f32⟩ : BufTy).Contents (Elt F) → (⟨S16x32x2, .f32⟩ : BufTy).Contents (Elt F) → (⟨S16x32x2, .f32⟩ : BufTy).Contents (Elt F)),
    unary main_v13 main_v14 ((extractStridedSlice S16x32x1 ![0, 0, 1] · slices_S16x32x2_S16x32x1_0_0_1) : (⟨S16x32x2, .f32⟩ : BufTy).Contents (Elt F) → (⟨S16x32x1, .f32⟩ : BufTy).Contents (Elt F)),
    reshape main_v14 main_v15 rfl shapeCasts_S16x32x1_S16x32,
    nullary main_c (constantI S_ 32 0#32),
    nullary main_c_1 (constantI S_ 32 79#32),
    TRef.unary (TRef.of (T := ⟨S_, .i32⟩) main_c) (TRef.of (T := ⟨S_, .f32⟩) main_call1_v0) (sitofp .f32),
    TRef.unary (TRef.of (T := ⟨S_, .f32⟩) main_call1_v0) (TRef.of (T := ⟨S16x32, .f32⟩) main_call1_v1) (broadcastInDim S16x32 ![] bcast_S_S16x32),
    TRef.binary (TRef.of (T := ⟨S16x32, .f32⟩) main_call1_v1) (TRef.of (T := ⟨S16x32, .f32⟩) main_v15) (TRef.of (T := ⟨S16x32, .f32⟩) main_call1_v2) maximumf,
    TRef.unary (TRef.of (T := ⟨S_, .i32⟩) main_c_1) (TRef.of (T := ⟨S_, .f32⟩) main_call1_v3) (sitofp .f32),
    TRef.unary (TRef.of (T := ⟨S_, .f32⟩) main_call1_v3) (TRef.of (T := ⟨S16x32, .f32⟩) main_call1_v4) (broadcastInDim S16x32 ![] bcast_S_S16x32),
    TRef.binary (TRef.of (T := ⟨S16x32, .f32⟩) main_call1_v4) (TRef.of (T := ⟨S16x32, .f32⟩) main_call1_v2) (TRef.of (T := ⟨S16x32, .f32⟩) main_v16) minimumf,
    unary main_v16 main_v17 (fptosi 32 : (⟨S16x32, .f32⟩ : BufTy).Contents (Elt F) → (⟨S16x32, .i32⟩ : BufTy).Contents (Elt F)),
    unary main_v13 main_v18 ((extractStridedSlice S16x32x1 ![0, 0, 0] · slices_S16x32x2_S16x32x1_0_0_0) : (⟨S16x32x2, .f32⟩ : BufTy).Contents (Elt F) → (⟨S16x32x1, .f32⟩ : BufTy).Contents (Elt F)),
    reshape main_v18 main_v19 rfl shapeCasts_S16x32x1_S16x32,
    nullary main_c_2 (constantI S_ 32 0#32),
    nullary main_c_3 (constantI S_ 32 79#32),
    TRef.unary (TRef.of (T := ⟨S_, .i32⟩) main_c_2) (TRef.of (T := ⟨S_, .f32⟩) main_call2_v0) (sitofp .f32),
    TRef.unary (TRef.of (T := ⟨S_, .f32⟩) main_call2_v0) (TRef.of (T := ⟨S16x32, .f32⟩) main_call2_v1) (broadcastInDim S16x32 ![] bcast_S_S16x32),
    TRef.binary (TRef.of (T := ⟨S16x32, .f32⟩) main_call2_v1) (TRef.of (T := ⟨S16x32, .f32⟩) main_v19) (TRef.of (T := ⟨S16x32, .f32⟩) main_call2_v2) maximumf,
    TRef.unary (TRef.of (T := ⟨S_, .i32⟩) main_c_3) (TRef.of (T := ⟨S_, .f32⟩) main_call2_v3) (sitofp .f32),
    TRef.unary (TRef.of (T := ⟨S_, .f32⟩) main_call2_v3) (TRef.of (T := ⟨S16x32, .f32⟩) main_call2_v4) (broadcastInDim S16x32 ![] bcast_S_S16x32),
    TRef.binary (TRef.of (T := ⟨S16x32, .f32⟩) main_call2_v4) (TRef.of (T := ⟨S16x32, .f32⟩) main_call2_v2) (TRef.of (T := ⟨S16x32, .f32⟩) main_v20) minimumf,
    unary main_v20 main_v21 (fptosi 32 : (⟨S16x32, .f32⟩ : BufTy).Contents (Elt F) → (⟨S16x32, .i32⟩ : BufTy).Contents (Elt F)),
    unary main_arg0 main_v22 ((extractStridedSlice S16x64x80x80 ![0, 0, 0, 0] · slices_S16x144x80x80_S16x64x80x80_0_0_0_0) : (⟨S16x144x80x80, .f32⟩ : BufTy).Contents (Elt F) → (⟨S16x64x80x80, .f32⟩ : BufTy).Contents (Elt F)),
    unary main_arg0 main_v23 ((extractStridedSlice S16x80x80x80 ![0, 64, 0, 0] · slices_S16x144x80x80_S16x80x80x80_0_64_0_0) : (⟨S16x144x80x80, .f32⟩ : BufTy).Contents (Elt F) → (⟨S16x80x80x80, .f32⟩ : BufTy).Contents (Elt F)),
    nullary main_c_4 (constantI S_ 32 0#32),
    unary main_c_4 main_v24 (broadcastInDim S16x1 ![] bcast_S_S16x1 : (⟨S_, .i32⟩ : BufTy).Contents (Elt F) → (⟨S16x1, .i32⟩ : BufTy).Contents (Elt F)),
    binary main_v11 main_v24 main_v25 (cmpi .slt : (⟨S16x1, .i32⟩ : BufTy).Contents (Elt F) → (⟨S16x1, .i32⟩ : BufTy).Contents (Elt F) → (⟨S16x1, .i1⟩ : BufTy).Contents (Elt F)),
    nullary main_c_5 (constantI S_ 32 16#32),
    unary main_c_5 main_v26 (broadcastInDim S16x1 ![] bcast_S_S16x1 : (⟨S_, .i32⟩ : BufTy).Contents (Elt F) → (⟨S16x1, .i32⟩ : BufTy).Contents (Elt F)),
    binary main_v11 main_v26 main_v27 (addi : (⟨S16x1, .i32⟩ : BufTy).Contents (Elt F) → (⟨S16x1, .i32⟩ : BufTy).Contents (Elt F) → (⟨S16x1, .i32⟩ : BufTy).Contents (Elt F)),
    ternary main_v25 main_v27 main_v11 main_v28 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_6 (constantI S_ 32 0#32),
    unary main_c_6 main_v29 (broadcastInDim S16x32 ![] bcast_S_S16x32 : (⟨S_, .i32⟩ : BufTy).Contents (Elt F) → (⟨S16x32, .i32⟩ : BufTy).Contents (Elt F)),
    binary main_v17 main_v29 main_v30 (cmpi .slt : (⟨S16x32, .i32⟩ : BufTy).Contents (Elt F) → (⟨S16x32, .i32⟩ : BufTy).Contents (Elt F) → (⟨S16x32, .i1⟩ : BufTy).Contents (Elt F)),
    nullary main_c_7 (constantI S_ 32 80#32),
    unary main_c_7 main_v31 (broadcastInDim S16x32 ![] bcast_S_S16x32 : (⟨S_, .i32⟩ : BufTy).Contents (Elt F) → (⟨S16x32, .i32⟩ : BufTy).Contents (Elt F)),
    binary main_v17 main_v31 main_v32 (addi : (⟨S16x32, .i32⟩ : BufTy).Contents (Elt F) → (⟨S16x32, .i32⟩ : BufTy).Contents (Elt F) → (⟨S16x32, .i32⟩ : BufTy).Contents (Elt F)),
    ternary main_v30 main_v32 main_v17 main_v33 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_8 (constantI S_ 32 0#32),
    unary main_c_8 main_v34 (broadcastInDim S16x32 ![] bcast_S_S16x32 : (⟨S_, .i32⟩ : BufTy).Contents (Elt F) → (⟨S16x32, .i32⟩ : BufTy).Contents (Elt F)),
    binary main_v21 main_v34 main_v35 (cmpi .slt : (⟨S16x32, .i32⟩ : BufTy).Contents (Elt F) → (⟨S16x32, .i32⟩ : BufTy).Contents (Elt F) → (⟨S16x32, .i1⟩ : BufTy).Contents (Elt F)),
    nullary main_c_9 (constantI S_ 32 80#32),
    unary main_c_9 main_v36 (broadcastInDim S16x32 ![] bcast_S_S16x32 : (⟨S_, .i32⟩ : BufTy).Contents (Elt F) → (⟨S16x32, .i32⟩ : BufTy).Contents (Elt F)),
    binary main_v21 main_v36 main_v37 (addi : (⟨S16x32, .i32⟩ : BufTy).Contents (Elt F) → (⟨S16x32, .i32⟩ : BufTy).Contents (Elt F) → (⟨S16x32, .i32⟩ : BufTy).Contents (Elt F)),
    ternary main_v35 main_v37 main_v21 main_v38 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v28 main_v39 (broadcastInDim S16x32 ![0, 1] bcast_S16x1_S16x32_0_1 : (⟨S16x1, .i32⟩ : BufTy).Contents (Elt F) → (⟨S16x32, .i32⟩ : BufTy).Contents (Elt F)),
    unary main_v39 main_v40 (broadcastInDim S16x32x1 ![0, 1] bcast_S16x32_S16x32x1_0_1 : (⟨S16x32, .i32⟩ : BufTy).Contents (Elt F) → (⟨S16x32x1, .i32⟩ : BufTy).Contents (Elt F)),
    unary main_v33 main_v41 (broadcastInDim S16x32x1 ![0, 1] bcast_S16x32_S16x32x1_0_1 : (⟨S16x32, .i32⟩ : BufTy).Contents (Elt F) → (⟨S16x32x1, .i32⟩ : BufTy).Contents (Elt F)),
    unary main_v38 main_v42 (broadcastInDim S16x32x1 ![0, 1] bcast_S16x32_S16x32x1_0_1 : (⟨S16x32, .i32⟩ : BufTy).Contents (Elt F) → (⟨S16x32x1, .i32⟩ : BufTy).Contents (Elt F)),
    nary ![main_v40, main_v41, main_v42] main_v43 (fun u => concatenate S16x32x3 2 [⟨S16x32x1, u 0⟩, ⟨S16x32x1, u 1⟩, ⟨S16x32x1, u 2⟩] concatenates_S16x32x1_S16x32x1_S16x32x1_S16x32x3_d2),
    binary main_v23 main_v43 main_v44 ((fun x i => Host.gather gather_S16x80x80x80_S16x32x3_S16x32x80_2_023_n_n_023_2_18011 x i) : (⟨S16x80x80x80, .f32⟩ : BufTy).Contents (Elt F) → (⟨S16x32x3, .i32⟩ : BufTy).Contents (Elt F) → (⟨S16x32x80, .f32⟩ : BufTy).Contents (Elt F)),
    nullary main_c_10 (constantI S_ 32 0#32),
    unary main_c_10 main_v45 (broadcastInDim S16x1 ![] bcast_S_S16x1 : (⟨S_, .i32⟩ : BufTy).Contents (Elt F) → (⟨S16x1, .i32⟩ : BufTy).Contents (Elt F)),
    binary main_v11 main_v45 main_v46 (cmpi .slt : (⟨S16x1, .i32⟩ : BufTy).Contents (Elt F) → (⟨S16x1, .i32⟩ : BufTy).Contents (Elt F) → (⟨S16x1, .i1⟩ : BufTy).Contents (Elt F)),
    nullary main_c_11 (constantI S_ 32 16#32),
    unary main_c_11 main_v47 (broadcastInDim S16x1 ![] bcast_S_S16x1 : (⟨S_, .i32⟩ : BufTy).Contents (Elt F) → (⟨S16x1, .i32⟩ : BufTy).Contents (Elt F)),
    binary main_v11 main_v47 main_v48 (addi : (⟨S16x1, .i32⟩ : BufTy).Contents (Elt F) → (⟨S16x1, .i32⟩ : BufTy).Contents (Elt F) → (⟨S16x1, .i32⟩ : BufTy).Contents (Elt F)),
    ternary main_v46 main_v48 main_v11 main_v49 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_12 (constantI S_ 32 0#32),
    unary main_c_12 main_v50 (broadcastInDim S16x32 ![] bcast_S_S16x32 : (⟨S_, .i32⟩ : BufTy).Contents (Elt F) → (⟨S16x32, .i32⟩ : BufTy).Contents (Elt F)),
    binary main_v17 main_v50 main_v51 (cmpi .slt : (⟨S16x32, .i32⟩ : BufTy).Contents (Elt F) → (⟨S16x32, .i32⟩ : BufTy).Contents (Elt F) → (⟨S16x32, .i1⟩ : BufTy).Contents (Elt F)),
    nullary main_c_13 (constantI S_ 32 80#32),
    unary main_c_13 main_v52 (broadcastInDim S16x32 ![] bcast_S_S16x32 : (⟨S_, .i32⟩ : BufTy).Contents (Elt F) → (⟨S16x32, .i32⟩ : BufTy).Contents (Elt F)),
    binary main_v17 main_v52 main_v53 (addi : (⟨S16x32, .i32⟩ : BufTy).Contents (Elt F) → (⟨S16x32, .i32⟩ : BufTy).Contents (Elt F) → (⟨S16x32, .i32⟩ : BufTy).Contents (Elt F)),
    ternary main_v51 main_v53 main_v17 main_v54 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_14 (constantI S_ 32 0#32),
    unary main_c_14 main_v55 (broadcastInDim S16x32 ![] bcast_S_S16x32 : (⟨S_, .i32⟩ : BufTy).Contents (Elt F) → (⟨S16x32, .i32⟩ : BufTy).Contents (Elt F)),
    binary main_v21 main_v55 main_v56 (cmpi .slt : (⟨S16x32, .i32⟩ : BufTy).Contents (Elt F) → (⟨S16x32, .i32⟩ : BufTy).Contents (Elt F) → (⟨S16x32, .i1⟩ : BufTy).Contents (Elt F)),
    nullary main_c_15 (constantI S_ 32 80#32),
    unary main_c_15 main_v57 (broadcastInDim S16x32 ![] bcast_S_S16x32 : (⟨S_, .i32⟩ : BufTy).Contents (Elt F) → (⟨S16x32, .i32⟩ : BufTy).Contents (Elt F)),
    binary main_v21 main_v57 main_v58 (addi : (⟨S16x32, .i32⟩ : BufTy).Contents (Elt F) → (⟨S16x32, .i32⟩ : BufTy).Contents (Elt F) → (⟨S16x32, .i32⟩ : BufTy).Contents (Elt F)),
    ternary main_v56 main_v58 main_v21 main_v59 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v49 main_v60 (broadcastInDim S16x32 ![0, 1] bcast_S16x1_S16x32_0_1 : (⟨S16x1, .i32⟩ : BufTy).Contents (Elt F) → (⟨S16x32, .i32⟩ : BufTy).Contents (Elt F)),
    unary main_v60 main_v61 (broadcastInDim S16x32x1 ![0, 1] bcast_S16x32_S16x32x1_0_1 : (⟨S16x32, .i32⟩ : BufTy).Contents (Elt F) → (⟨S16x32x1, .i32⟩ : BufTy).Contents (Elt F)),
    unary main_v54 main_v62 (broadcastInDim S16x32x1 ![0, 1] bcast_S16x32_S16x32x1_0_1 : (⟨S16x32, .i32⟩ : BufTy).Contents (Elt F) → (⟨S16x32x1, .i32⟩ : BufTy).Contents (Elt F)),
    unary main_v59 main_v63 (broadcastInDim S16x32x1 ![0, 1] bcast_S16x32_S16x32x1_0_1 : (⟨S16x32, .i32⟩ : BufTy).Contents (Elt F) → (⟨S16x32x1, .i32⟩ : BufTy).Contents (Elt F)),
    nary ![main_v61, main_v62, main_v63] main_v64 (fun u => concatenate S16x32x3 2 [⟨S16x32x1, u 0⟩, ⟨S16x32x1, u 1⟩, ⟨S16x32x1, u 2⟩] concatenates_S16x32x1_S16x32x1_S16x32x1_S16x32x3_d2),
    binary main_v22 main_v64 main_v65 ((fun x i => Host.gather gather_S16x64x80x80_S16x32x3_S16x32x64_2_023_n_n_023_2_16411 x i) : (⟨S16x64x80x80, .f32⟩ : BufTy).Contents (Elt F) → (⟨S16x32x3, .i32⟩ : BufTy).Contents (Elt F) → (⟨S16x32x64, .f32⟩ : BufTy).Contents (Elt F)),
    nullary main_cst_16 (constant S_ .f32 0x00000000#32),
    unary main_cst_16 main_v66 (broadcastInDim S16x32x80 ![] bcast_S_S16x32x80 : (⟨S_, .f32⟩ : BufTy).Contents (Elt F) → (⟨S16x32x80, .f32⟩ : BufTy).Contents (Elt F)),
    binary main_v44 main_v66 main_v67 (maximumf : (⟨S16x32x80, .f32⟩ : BufTy).Contents (Elt F) → (⟨S16x32x80, .f32⟩ : BufTy).Contents (Elt F) → (⟨S16x32x80, .f32⟩ : BufTy).Contents (Elt F)),
    binary main_v44 main_v9 main_v68 (mulf : (⟨S16x32x80, .f32⟩ : BufTy).Contents (Elt F) → (⟨S16x32x80, .f32⟩ : BufTy).Contents (Elt F) → (⟨S16x32x80, .f32⟩ : BufTy).Contents (Elt F)),
    binary main_v67 main_v68 main_v69 (subf : (⟨S16x32x80, .f32⟩ : BufTy).Contents (Elt F) → (⟨S16x32x80, .f32⟩ : BufTy).Contents (Elt F) → (⟨S16x32x80, .f32⟩ : BufTy).Contents (Elt F)),
    unary main_v44 main_v70 (Host.absf : (⟨S16x32x80, .f32⟩ : BufTy).Contents (Elt F) → (⟨S16x32x80, .f32⟩ : BufTy).Contents (Elt F)),
    unary main_v70 main_v71 (Host.negf : (⟨S16x32x80, .f32⟩ : BufTy).Contents (Elt F) → (⟨S16x32x80, .f32⟩ : BufTy).Contents (Elt F)),
    unary main_v71 main_v72 (Host.exp : (⟨S16x32x80, .f32⟩ : BufTy).Contents (Elt F) → (⟨S16x32x80, .f32⟩ : BufTy).Contents (Elt F)),
    unary main_v72 main_v73 (Host.log1p : (⟨S16x32x80, .f32⟩ : BufTy).Contents (Elt F) → (⟨S16x32x80, .f32⟩ : BufTy).Contents (Elt F)),
    binary main_v69 main_v73 main_v74 (addf : (⟨S16x32x80, .f32⟩ : BufTy).Contents (Elt F) → (⟨S16x32x80, .f32⟩ : BufTy).Contents (Elt F) → (⟨S16x32x80, .f32⟩ : BufTy).Contents (Elt F)),
    nullary main_cst_17 (constant S_ .f32 0x00000000#32),
    binary main_v74 main_cst_17 main_v75 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_18 (constant S_ .f32 0x42A00000#32),
    unary main_cst_18 main_v76 (broadcastInDim S16x32 ![] bcast_S_S16x32 : (⟨S_, .f32⟩ : BufTy).Contents (Elt F) → (⟨S16x32, .f32⟩ : BufTy).Contents (Elt F)),
    binary main_v75 main_v76 main_v77 (Host.divf : (⟨S16x32, .f32⟩ : BufTy).Contents (Elt F) → (⟨S16x32, .f32⟩ : BufTy).Contents (Elt F) → (⟨S16x32, .f32⟩ : BufTy).Contents (Elt F)),
    nullary main_cst_19 (constant S_ .f32 0x00000000#32),
    binary main_v77 main_cst_19 main_v78 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_cst_20 (constant S_ .f32 0x00000000#32),
    binary main_cst_20 main_v78 main_v79 (addf : (⟨S_, .f32⟩ : BufTy).Contents (Elt F) → (⟨S_, .f32⟩ : BufTy).Contents (Elt F) → (⟨S_, .f32⟩ : BufTy).Contents (Elt F)),
    nullary main_cst_21 (constant S_ .f32 0x00000000#32),
    binary main_v65 main_cst_21 main_v80 ((fun x v => Host.reduceAdd x v reducesTo_S16x32x64_S16x32_d2 h_S_) : (⟨S16x32x64, .f32⟩ : BufTy).Contents (Elt F) → (⟨S_, .f32⟩ : BufTy).Contents (Elt F) → (⟨S16x32, .f32⟩ : BufTy).Contents (Elt F)),
    nullary main_cst_22 (constant S_ .f32 0x42800000#32),
    unary main_cst_22 main_v81 (broadcastInDim S16x32 ![] bcast_S_S16x32 : (⟨S_, .f32⟩ : BufTy).Contents (Elt F) → (⟨S16x32, .f32⟩ : BufTy).Contents (Elt F)),
    binary main_v80 main_v81 main_v82 (Host.divf : (⟨S16x32, .f32⟩ : BufTy).Contents (Elt F) → (⟨S16x32, .f32⟩ : BufTy).Contents (Elt F) → (⟨S16x32, .f32⟩ : BufTy).Contents (Elt F)),
    unary main_v82 main_v83 (Host.negf : (⟨S16x32, .f32⟩ : BufTy).Contents (Elt F) → (⟨S16x32, .f32⟩ : BufTy).Contents (Elt F)),
    nullary main_cst_23 (constant S_ .f32 0x3DCCCCCD#32),
    unary main_cst_23 main_v84 (broadcastInDim S16x32 ![] bcast_S_S16x32 : (⟨S_, .f32⟩ : BufTy).Contents (Elt F) → (⟨S16x32, .f32⟩ : BufTy).Contents (Elt F)),
    binary main_v83 main_v84 main_v85 (mulf : (⟨S16x32, .f32⟩ : BufTy).Contents (Elt F) → (⟨S16x32, .f32⟩ : BufTy).Contents (Elt F) → (⟨S16x32, .f32⟩ : BufTy).Contents (Elt F)),
    nullary main_cst_24 (constant S_ .f32 0x00000000#32),
    binary main_v85 main_cst_24 main_v86 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    nullary main_cst_25 (constant S_ .f32 0x00000000#32),
    binary main_cst_25 main_v86 main_v87 (addf : (⟨S_, .f32⟩ : BufTy).Contents (Elt F) → (⟨S_, .f32⟩ : BufTy).Contents (Elt F) → (⟨S_, .f32⟩ : BufTy).Contents (Elt F)),
    nullary main_cst_26 (constant S_ .f32 0x41800000#32),
    unary main_cst_26 main_v88 (broadcastInDim S16x32x2 ![] bcast_S_S16x32x2 : (⟨S_, .f32⟩ : BufTy).Contents (Elt F) → (⟨S16x32x2, .f32⟩ : BufTy).Contents (Elt F)),
    binary main_v8 main_v88 main_v89 (Host.divf : (⟨S16x32x2, .f32⟩ : BufTy).Contents (Elt F) → (⟨S16x32x2, .f32⟩ : BufTy).Contents (Elt F) → (⟨S16x32x2, .f32⟩ : BufTy).Contents (Elt F)),
    unary main_v89 main_v90 ((extractStridedSlice S16x32x1 ![0, 0, 1] · slices_S16x32x2_S16x32x1_0_0_1) : (⟨S16x32x2, .f32⟩ : BufTy).Contents (Elt F) → (⟨S16x32x1, .f32⟩ : BufTy).Contents (Elt F)),
    reshape main_v90 main_v91 rfl shapeCasts_S16x32x1_S16x32,
    nullary main_c_27 (constantI S_ 32 0#32),
    nullary main_c_28 (constantI S_ 32 39#32),
    TRef.unary (TRef.of (T := ⟨S_, .i32⟩) main_c_27) (TRef.of (T := ⟨S_, .f32⟩) main_call3_v0) (sitofp .f32),
    TRef.unary (TRef.of (T := ⟨S_, .f32⟩) main_call3_v0) (TRef.of (T := ⟨S16x32, .f32⟩) main_call3_v1) (broadcastInDim S16x32 ![] bcast_S_S16x32),
    TRef.binary (TRef.of (T := ⟨S16x32, .f32⟩) main_call3_v1) (TRef.of (T := ⟨S16x32, .f32⟩) main_v91) (TRef.of (T := ⟨S16x32, .f32⟩) main_call3_v2) maximumf,
    TRef.unary (TRef.of (T := ⟨S_, .i32⟩) main_c_28) (TRef.of (T := ⟨S_, .f32⟩) main_call3_v3) (sitofp .f32),
    TRef.unary (TRef.of (T := ⟨S_, .f32⟩) main_call3_v3) (TRef.of (T := ⟨S16x32, .f32⟩) main_call3_v4) (broadcastInDim S16x32 ![] bcast_S_S16x32),
    TRef.binary (TRef.of (T := ⟨S16x32, .f32⟩) main_call3_v4) (TRef.of (T := ⟨S16x32, .f32⟩) main_call3_v2) (TRef.of (T := ⟨S16x32, .f32⟩) main_v92) minimumf,
    unary main_v92 main_v93 (fptosi 32 : (⟨S16x32, .f32⟩ : BufTy).Contents (Elt F) → (⟨S16x32, .i32⟩ : BufTy).Contents (Elt F)),
    unary main_v89 main_v94 ((extractStridedSlice S16x32x1 ![0, 0, 0] · slices_S16x32x2_S16x32x1_0_0_0) : (⟨S16x32x2, .f32⟩ : BufTy).Contents (Elt F) → (⟨S16x32x1, .f32⟩ : BufTy).Contents (Elt F)),
    reshape main_v94 main_v95 rfl shapeCasts_S16x32x1_S16x32,
    nullary main_c_29 (constantI S_ 32 0#32),
    nullary main_c_30 (constantI S_ 32 39#32),
    TRef.unary (TRef.of (T := ⟨S_, .i32⟩) main_c_29) (TRef.of (T := ⟨S_, .f32⟩) main_call4_v0) (sitofp .f32),
    TRef.unary (TRef.of (T := ⟨S_, .f32⟩) main_call4_v0) (TRef.of (T := ⟨S16x32, .f32⟩) main_call4_v1) (broadcastInDim S16x32 ![] bcast_S_S16x32),
    TRef.binary (TRef.of (T := ⟨S16x32, .f32⟩) main_call4_v1) (TRef.of (T := ⟨S16x32, .f32⟩) main_v95) (TRef.of (T := ⟨S16x32, .f32⟩) main_call4_v2) maximumf,
    TRef.unary (TRef.of (T := ⟨S_, .i32⟩) main_c_30) (TRef.of (T := ⟨S_, .f32⟩) main_call4_v3) (sitofp .f32),
    TRef.unary (TRef.of (T := ⟨S_, .f32⟩) main_call4_v3) (TRef.of (T := ⟨S16x32, .f32⟩) main_call4_v4) (broadcastInDim S16x32 ![] bcast_S_S16x32),
    TRef.binary (TRef.of (T := ⟨S16x32, .f32⟩) main_call4_v4) (TRef.of (T := ⟨S16x32, .f32⟩) main_call4_v2) (TRef.of (T := ⟨S16x32, .f32⟩) main_v96) minimumf,
    unary main_v96 main_v97 (fptosi 32 : (⟨S16x32, .f32⟩ : BufTy).Contents (Elt F) → (⟨S16x32, .i32⟩ : BufTy).Contents (Elt F)),
    unary main_arg1 main_v98 ((extractStridedSlice S16x64x40x40 ![0, 0, 0, 0] · slices_S16x144x40x40_S16x64x40x40_0_0_0_0) : (⟨S16x144x40x40, .f32⟩ : BufTy).Contents (Elt F) → (⟨S16x64x40x40, .f32⟩ : BufTy).Contents (Elt F)),
    unary main_arg1 main_v99 ((extractStridedSlice S16x80x40x40 ![0, 64, 0, 0] · slices_S16x144x40x40_S16x80x40x40_0_64_0_0) : (⟨S16x144x40x40, .f32⟩ : BufTy).Contents (Elt F) → (⟨S16x80x40x40, .f32⟩ : BufTy).Contents (Elt F)),
    nullary main_c_31 (constantI S_ 32 0#32),
    unary main_c_31 main_v100 (broadcastInDim S16x1 ![] bcast_S_S16x1 : (⟨S_, .i32⟩ : BufTy).Contents (Elt F) → (⟨S16x1, .i32⟩ : BufTy).Contents (Elt F)),
    binary main_v11 main_v100 main_v101 (cmpi .slt : (⟨S16x1, .i32⟩ : BufTy).Contents (Elt F) → (⟨S16x1, .i32⟩ : BufTy).Contents (Elt F) → (⟨S16x1, .i1⟩ : BufTy).Contents (Elt F)),
    nullary main_c_32 (constantI S_ 32 16#32),
    unary main_c_32 main_v102 (broadcastInDim S16x1 ![] bcast_S_S16x1 : (⟨S_, .i32⟩ : BufTy).Contents (Elt F) → (⟨S16x1, .i32⟩ : BufTy).Contents (Elt F)),
    binary main_v11 main_v102 main_v103 (addi : (⟨S16x1, .i32⟩ : BufTy).Contents (Elt F) → (⟨S16x1, .i32⟩ : BufTy).Contents (Elt F) → (⟨S16x1, .i32⟩ : BufTy).Contents (Elt F)),
    ternary main_v101 main_v103 main_v11 main_v104 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_33 (constantI S_ 32 0#32),
    unary main_c_33 main_v105 (broadcastInDim S16x32 ![] bcast_S_S16x32 : (⟨S_, .i32⟩ : BufTy).Contents (Elt F) → (⟨S16x32, .i32⟩ : BufTy).Contents (Elt F)),
    binary main_v93 main_v105 main_v106 (cmpi .slt : (⟨S16x32, .i32⟩ : BufTy).Contents (Elt F) → (⟨S16x32, .i32⟩ : BufTy).Contents (Elt F) → (⟨S16x32, .i1⟩ : BufTy).Contents (Elt F)),
    nullary main_c_34 (constantI S_ 32 40#32),
    unary main_c_34 main_v107 (broadcastInDim S16x32 ![] bcast_S_S16x32 : (⟨S_, .i32⟩ : BufTy).Contents (Elt F) → (⟨S16x32, .i32⟩ : BufTy).Contents (Elt F)),
    binary main_v93 main_v107 main_v108 (addi : (⟨S16x32, .i32⟩ : BufTy).Contents (Elt F) → (⟨S16x32, .i32⟩ : BufTy).Contents (Elt F) → (⟨S16x32, .i32⟩ : BufTy).Contents (Elt F)),
    ternary main_v106 main_v108 main_v93 main_v109 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_35 (constantI S_ 32 0#32),
    unary main_c_35 main_v110 (broadcastInDim S16x32 ![] bcast_S_S16x32 : (⟨S_, .i32⟩ : BufTy).Contents (Elt F) → (⟨S16x32, .i32⟩ : BufTy).Contents (Elt F)),
    binary main_v97 main_v110 main_v111 (cmpi .slt : (⟨S16x32, .i32⟩ : BufTy).Contents (Elt F) → (⟨S16x32, .i32⟩ : BufTy).Contents (Elt F) → (⟨S16x32, .i1⟩ : BufTy).Contents (Elt F)),
    nullary main_c_36 (constantI S_ 32 40#32),
    unary main_c_36 main_v112 (broadcastInDim S16x32 ![] bcast_S_S16x32 : (⟨S_, .i32⟩ : BufTy).Contents (Elt F) → (⟨S16x32, .i32⟩ : BufTy).Contents (Elt F)),
    binary main_v97 main_v112 main_v113 (addi : (⟨S16x32, .i32⟩ : BufTy).Contents (Elt F) → (⟨S16x32, .i32⟩ : BufTy).Contents (Elt F) → (⟨S16x32, .i32⟩ : BufTy).Contents (Elt F)),
    ternary main_v111 main_v113 main_v97 main_v114 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v104 main_v115 (broadcastInDim S16x32 ![0, 1] bcast_S16x1_S16x32_0_1 : (⟨S16x1, .i32⟩ : BufTy).Contents (Elt F) → (⟨S16x32, .i32⟩ : BufTy).Contents (Elt F)),
    unary main_v115 main_v116 (broadcastInDim S16x32x1 ![0, 1] bcast_S16x32_S16x32x1_0_1 : (⟨S16x32, .i32⟩ : BufTy).Contents (Elt F) → (⟨S16x32x1, .i32⟩ : BufTy).Contents (Elt F)),
    unary main_v109 main_v117 (broadcastInDim S16x32x1 ![0, 1] bcast_S16x32_S16x32x1_0_1 : (⟨S16x32, .i32⟩ : BufTy).Contents (Elt F) → (⟨S16x32x1, .i32⟩ : BufTy).Contents (Elt F)),
    unary main_v114 main_v118 (broadcastInDim S16x32x1 ![0, 1] bcast_S16x32_S16x32x1_0_1 : (⟨S16x32, .i32⟩ : BufTy).Contents (Elt F) → (⟨S16x32x1, .i32⟩ : BufTy).Contents (Elt F)),
    nary ![main_v116, main_v117, main_v118] main_v119 (fun u => concatenate S16x32x3 2 [⟨S16x32x1, u 0⟩, ⟨S16x32x1, u 1⟩, ⟨S16x32x1, u 2⟩] concatenates_S16x32x1_S16x32x1_S16x32x1_S16x32x3_d2),
    binary main_v99 main_v119 main_v120 ((fun x i => Host.gather gather_S16x80x40x40_S16x32x3_S16x32x80_2_023_n_n_023_2_18011 x i) : (⟨S16x80x40x40, .f32⟩ : BufTy).Contents (Elt F) → (⟨S16x32x3, .i32⟩ : BufTy).Contents (Elt F) → (⟨S16x32x80, .f32⟩ : BufTy).Contents (Elt F)),
    nullary main_c_37 (constantI S_ 32 0#32),
    unary main_c_37 main_v121 (broadcastInDim S16x1 ![] bcast_S_S16x1 : (⟨S_, .i32⟩ : BufTy).Contents (Elt F) → (⟨S16x1, .i32⟩ : BufTy).Contents (Elt F)),
    binary main_v11 main_v121 main_v122 (cmpi .slt : (⟨S16x1, .i32⟩ : BufTy).Contents (Elt F) → (⟨S16x1, .i32⟩ : BufTy).Contents (Elt F) → (⟨S16x1, .i1⟩ : BufTy).Contents (Elt F)),
    nullary main_c_38 (constantI S_ 32 16#32),
    unary main_c_38 main_v123 (broadcastInDim S16x1 ![] bcast_S_S16x1 : (⟨S_, .i32⟩ : BufTy).Contents (Elt F) → (⟨S16x1, .i32⟩ : BufTy).Contents (Elt F)),
    binary main_v11 main_v123 main_v124 (addi : (⟨S16x1, .i32⟩ : BufTy).Contents (Elt F) → (⟨S16x1, .i32⟩ : BufTy).Contents (Elt F) → (⟨S16x1, .i32⟩ : BufTy).Contents (Elt F)),
    ternary main_v122 main_v124 main_v11 main_v125 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_39 (constantI S_ 32 0#32),
    unary main_c_39 main_v126 (broadcastInDim S16x32 ![] bcast_S_S16x32 : (⟨S_, .i32⟩ : BufTy).Contents (Elt F) → (⟨S16x32, .i32⟩ : BufTy).Contents (Elt F)),
    binary main_v93 main_v126 main_v127 (cmpi .slt : (⟨S16x32, .i32⟩ : BufTy).Contents (Elt F) → (⟨S16x32, .i32⟩ : BufTy).Contents (Elt F) → (⟨S16x32, .i1⟩ : BufTy).Contents (Elt F)),
    nullary main_c_40 (constantI S_ 32 40#32),
    unary main_c_40 main_v128 (broadcastInDim S16x32 ![] bcast_S_S16x32 : (⟨S_, .i32⟩ : BufTy).Contents (Elt F) → (⟨S16x32, .i32⟩ : BufTy).Contents (Elt F)),
    binary main_v93 main_v128 main_v129 (addi : (⟨S16x32, .i32⟩ : BufTy).Contents (Elt F) → (⟨S16x32, .i32⟩ : BufTy).Contents (Elt F) → (⟨S16x32, .i32⟩ : BufTy).Contents (Elt F)),
    ternary main_v127 main_v129 main_v93 main_v130 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_41 (constantI S_ 32 0#32),
    unary main_c_41 main_v131 (broadcastInDim S16x32 ![] bcast_S_S16x32 : (⟨S_, .i32⟩ : BufTy).Contents (Elt F) → (⟨S16x32, .i32⟩ : BufTy).Contents (Elt F)),
    binary main_v97 main_v131 main_v132 (cmpi .slt : (⟨S16x32, .i32⟩ : BufTy).Contents (Elt F) → (⟨S16x32, .i32⟩ : BufTy).Contents (Elt F) → (⟨S16x32, .i1⟩ : BufTy).Contents (Elt F)),
    nullary main_c_42 (constantI S_ 32 40#32),
    unary main_c_42 main_v133 (broadcastInDim S16x32 ![] bcast_S_S16x32 : (⟨S_, .i32⟩ : BufTy).Contents (Elt F) → (⟨S16x32, .i32⟩ : BufTy).Contents (Elt F)),
    binary main_v97 main_v133 main_v134 (addi : (⟨S16x32, .i32⟩ : BufTy).Contents (Elt F) → (⟨S16x32, .i32⟩ : BufTy).Contents (Elt F) → (⟨S16x32, .i32⟩ : BufTy).Contents (Elt F)),
    ternary main_v132 main_v134 main_v97 main_v135 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v125 main_v136 (broadcastInDim S16x32 ![0, 1] bcast_S16x1_S16x32_0_1 : (⟨S16x1, .i32⟩ : BufTy).Contents (Elt F) → (⟨S16x32, .i32⟩ : BufTy).Contents (Elt F)),
    unary main_v136 main_v137 (broadcastInDim S16x32x1 ![0, 1] bcast_S16x32_S16x32x1_0_1 : (⟨S16x32, .i32⟩ : BufTy).Contents (Elt F) → (⟨S16x32x1, .i32⟩ : BufTy).Contents (Elt F)),
    unary main_v130 main_v138 (broadcastInDim S16x32x1 ![0, 1] bcast_S16x32_S16x32x1_0_1 : (⟨S16x32, .i32⟩ : BufTy).Contents (Elt F) → (⟨S16x32x1, .i32⟩ : BufTy).Contents (Elt F)),
    unary main_v135 main_v139 (broadcastInDim S16x32x1 ![0, 1] bcast_S16x32_S16x32x1_0_1 : (⟨S16x32, .i32⟩ : BufTy).Contents (Elt F) → (⟨S16x32x1, .i32⟩ : BufTy).Contents (Elt F)),
    nary ![main_v137, main_v138, main_v139] main_v140 (fun u => concatenate S16x32x3 2 [⟨S16x32x1, u 0⟩, ⟨S16x32x1, u 1⟩, ⟨S16x32x1, u 2⟩] concatenates_S16x32x1_S16x32x1_S16x32x1_S16x32x3_d2),
    binary main_v98 main_v140 main_v141 ((fun x i => Host.gather gather_S16x64x40x40_S16x32x3_S16x32x64_2_023_n_n_023_2_16411 x i) : (⟨S16x64x40x40, .f32⟩ : BufTy).Contents (Elt F) → (⟨S16x32x3, .i32⟩ : BufTy).Contents (Elt F) → (⟨S16x32x64, .f32⟩ : BufTy).Contents (Elt F)),
    nullary main_cst_43 (constant S_ .f32 0x00000000#32),
    unary main_cst_43 main_v142 (broadcastInDim S16x32x80 ![] bcast_S_S16x32x80 : (⟨S_, .f32⟩ : BufTy).Contents (Elt F) → (⟨S16x32x80, .f32⟩ : BufTy).Contents (Elt F)),
    binary main_v120 main_v142 main_v143 (maximumf : (⟨S16x32x80, .f32⟩ : BufTy).Contents (Elt F) → (⟨S16x32x80, .f32⟩ : BufTy).Contents (Elt F) → (⟨S16x32x80, .f32⟩ : BufTy).Contents (Elt F)),
    binary main_v120 main_v9 main_v144 (mulf : (⟨S16x32x80, .f32⟩ : BufTy).Contents (Elt F) → (⟨S16x32x80, .f32⟩ : BufTy).Contents (Elt F) → (⟨S16x32x80, .f32⟩ : BufTy).Contents (Elt F)),
    binary main_v143 main_v144 main_v145 (subf : (⟨S16x32x80, .f32⟩ : BufTy).Contents (Elt F) → (⟨S16x32x80, .f32⟩ : BufTy).Contents (Elt F) → (⟨S16x32x80, .f32⟩ : BufTy).Contents (Elt F)),
    unary main_v120 main_v146 (Host.absf : (⟨S16x32x80, .f32⟩ : BufTy).Contents (Elt F) → (⟨S16x32x80, .f32⟩ : BufTy).Contents (Elt F)),
    unary main_v146 main_v147 (Host.negf : (⟨S16x32x80, .f32⟩ : BufTy).Contents (Elt F) → (⟨S16x32x80, .f32⟩ : BufTy).Contents (Elt F)),
    unary main_v147 main_v148 (Host.exp : (⟨S16x32x80, .f32⟩ : BufTy).Contents (Elt F) → (⟨S16x32x80, .f32⟩ : BufTy).Contents (Elt F)),
    unary main_v148 main_v149 (Host.log1p : (⟨S16x32x80, .f32⟩ : BufTy).Contents (Elt F) → (⟨S16x32x80, .f32⟩ : BufTy).Contents (Elt F)),
    binary main_v145 main_v149 main_v150 (addf : (⟨S16x32x80, .f32⟩ : BufTy).Contents (Elt F) → (⟨S16x32x80, .f32⟩ : BufTy).Contents (Elt F) → (⟨S16x32x80, .f32⟩ : BufTy).Contents (Elt F)),
    nullary main_cst_44 (constant S_ .f32 0x00000000#32),
    binary main_v150 main_cst_44 main_v151 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_45 (constant S_ .f32 0x42A00000#32),
    unary main_cst_45 main_v152 (broadcastInDim S16x32 ![] bcast_S_S16x32 : (⟨S_, .f32⟩ : BufTy).Contents (Elt F) → (⟨S16x32, .f32⟩ : BufTy).Contents (Elt F)),
    binary main_v151 main_v152 main_v153 (Host.divf : (⟨S16x32, .f32⟩ : BufTy).Contents (Elt F) → (⟨S16x32, .f32⟩ : BufTy).Contents (Elt F) → (⟨S16x32, .f32⟩ : BufTy).Contents (Elt F)),
    nullary main_cst_46 (constant S_ .f32 0x00000000#32),
    binary main_v153 main_cst_46 main_v154 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v79 main_v154 main_v155 (addf : (⟨S_, .f32⟩ : BufTy).Contents (Elt F) → (⟨S_, .f32⟩ : BufTy).Contents (Elt F) → (⟨S_, .f32⟩ : BufTy).Contents (Elt F)),
    nullary main_cst_47 (constant S_ .f32 0x00000000#32),
    binary main_v141 main_cst_47 main_v156 ((fun x v => Host.reduceAdd x v reducesTo_S16x32x64_S16x32_d2 h_S_) : (⟨S16x32x64, .f32⟩ : BufTy).Contents (Elt F) → (⟨S_, .f32⟩ : BufTy).Contents (Elt F) → (⟨S16x32, .f32⟩ : BufTy).Contents (Elt F)),
    nullary main_cst_48 (constant S_ .f32 0x42800000#32),
    unary main_cst_48 main_v157 (broadcastInDim S16x32 ![] bcast_S_S16x32 : (⟨S_, .f32⟩ : BufTy).Contents (Elt F) → (⟨S16x32, .f32⟩ : BufTy).Contents (Elt F)),
    binary main_v156 main_v157 main_v158 (Host.divf : (⟨S16x32, .f32⟩ : BufTy).Contents (Elt F) → (⟨S16x32, .f32⟩ : BufTy).Contents (Elt F) → (⟨S16x32, .f32⟩ : BufTy).Contents (Elt F)),
    unary main_v158 main_v159 (Host.negf : (⟨S16x32, .f32⟩ : BufTy).Contents (Elt F) → (⟨S16x32, .f32⟩ : BufTy).Contents (Elt F)),
    nullary main_cst_49 (constant S_ .f32 0x3DCCCCCD#32),
    unary main_cst_49 main_v160 (broadcastInDim S16x32 ![] bcast_S_S16x32 : (⟨S_, .f32⟩ : BufTy).Contents (Elt F) → (⟨S16x32, .f32⟩ : BufTy).Contents (Elt F)),
    binary main_v159 main_v160 main_v161 (mulf : (⟨S16x32, .f32⟩ : BufTy).Contents (Elt F) → (⟨S16x32, .f32⟩ : BufTy).Contents (Elt F) → (⟨S16x32, .f32⟩ : BufTy).Contents (Elt F)),
    nullary main_cst_50 (constant S_ .f32 0x00000000#32),
    binary main_v161 main_cst_50 main_v162 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v87 main_v162 main_v163 (addf : (⟨S_, .f32⟩ : BufTy).Contents (Elt F) → (⟨S_, .f32⟩ : BufTy).Contents (Elt F) → (⟨S_, .f32⟩ : BufTy).Contents (Elt F)),
    nullary main_cst_51 (constant S_ .f32 0x42000000#32),
    unary main_cst_51 main_v164 (broadcastInDim S16x32x2 ![] bcast_S_S16x32x2 : (⟨S_, .f32⟩ : BufTy).Contents (Elt F) → (⟨S16x32x2, .f32⟩ : BufTy).Contents (Elt F)),
    binary main_v8 main_v164 main_v165 (Host.divf : (⟨S16x32x2, .f32⟩ : BufTy).Contents (Elt F) → (⟨S16x32x2, .f32⟩ : BufTy).Contents (Elt F) → (⟨S16x32x2, .f32⟩ : BufTy).Contents (Elt F)),
    unary main_v165 main_v166 ((extractStridedSlice S16x32x1 ![0, 0, 1] · slices_S16x32x2_S16x32x1_0_0_1) : (⟨S16x32x2, .f32⟩ : BufTy).Contents (Elt F) → (⟨S16x32x1, .f32⟩ : BufTy).Contents (Elt F)),
    reshape main_v166 main_v167 rfl shapeCasts_S16x32x1_S16x32,
    nullary main_c_52 (constantI S_ 32 0#32),
    nullary main_c_53 (constantI S_ 32 19#32),
    TRef.unary (TRef.of (T := ⟨S_, .i32⟩) main_c_52) (TRef.of (T := ⟨S_, .f32⟩) main_call5_v0) (sitofp .f32),
    TRef.unary (TRef.of (T := ⟨S_, .f32⟩) main_call5_v0) (TRef.of (T := ⟨S16x32, .f32⟩) main_call5_v1) (broadcastInDim S16x32 ![] bcast_S_S16x32),
    TRef.binary (TRef.of (T := ⟨S16x32, .f32⟩) main_call5_v1) (TRef.of (T := ⟨S16x32, .f32⟩) main_v167) (TRef.of (T := ⟨S16x32, .f32⟩) main_call5_v2) maximumf,
    TRef.unary (TRef.of (T := ⟨S_, .i32⟩) main_c_53) (TRef.of (T := ⟨S_, .f32⟩) main_call5_v3) (sitofp .f32),
    TRef.unary (TRef.of (T := ⟨S_, .f32⟩) main_call5_v3) (TRef.of (T := ⟨S16x32, .f32⟩) main_call5_v4) (broadcastInDim S16x32 ![] bcast_S_S16x32),
    TRef.binary (TRef.of (T := ⟨S16x32, .f32⟩) main_call5_v4) (TRef.of (T := ⟨S16x32, .f32⟩) main_call5_v2) (TRef.of (T := ⟨S16x32, .f32⟩) main_v168) minimumf,
    unary main_v168 main_v169 (fptosi 32 : (⟨S16x32, .f32⟩ : BufTy).Contents (Elt F) → (⟨S16x32, .i32⟩ : BufTy).Contents (Elt F)),
    unary main_v165 main_v170 ((extractStridedSlice S16x32x1 ![0, 0, 0] · slices_S16x32x2_S16x32x1_0_0_0) : (⟨S16x32x2, .f32⟩ : BufTy).Contents (Elt F) → (⟨S16x32x1, .f32⟩ : BufTy).Contents (Elt F)),
    reshape main_v170 main_v171 rfl shapeCasts_S16x32x1_S16x32,
    nullary main_c_54 (constantI S_ 32 0#32),
    nullary main_c_55 (constantI S_ 32 19#32),
    TRef.unary (TRef.of (T := ⟨S_, .i32⟩) main_c_54) (TRef.of (T := ⟨S_, .f32⟩) main_call6_v0) (sitofp .f32),
    TRef.unary (TRef.of (T := ⟨S_, .f32⟩) main_call6_v0) (TRef.of (T := ⟨S16x32, .f32⟩) main_call6_v1) (broadcastInDim S16x32 ![] bcast_S_S16x32),
    TRef.binary (TRef.of (T := ⟨S16x32, .f32⟩) main_call6_v1) (TRef.of (T := ⟨S16x32, .f32⟩) main_v171) (TRef.of (T := ⟨S16x32, .f32⟩) main_call6_v2) maximumf,
    TRef.unary (TRef.of (T := ⟨S_, .i32⟩) main_c_55) (TRef.of (T := ⟨S_, .f32⟩) main_call6_v3) (sitofp .f32),
    TRef.unary (TRef.of (T := ⟨S_, .f32⟩) main_call6_v3) (TRef.of (T := ⟨S16x32, .f32⟩) main_call6_v4) (broadcastInDim S16x32 ![] bcast_S_S16x32),
    TRef.binary (TRef.of (T := ⟨S16x32, .f32⟩) main_call6_v4) (TRef.of (T := ⟨S16x32, .f32⟩) main_call6_v2) (TRef.of (T := ⟨S16x32, .f32⟩) main_v172) minimumf,
    unary main_v172 main_v173 (fptosi 32 : (⟨S16x32, .f32⟩ : BufTy).Contents (Elt F) → (⟨S16x32, .i32⟩ : BufTy).Contents (Elt F)),
    unary main_arg2 main_v174 ((extractStridedSlice S16x64x20x20 ![0, 0, 0, 0] · slices_S16x144x20x20_S16x64x20x20_0_0_0_0) : (⟨S16x144x20x20, .f32⟩ : BufTy).Contents (Elt F) → (⟨S16x64x20x20, .f32⟩ : BufTy).Contents (Elt F)),
    unary main_arg2 main_v175 ((extractStridedSlice S16x80x20x20 ![0, 64, 0, 0] · slices_S16x144x20x20_S16x80x20x20_0_64_0_0) : (⟨S16x144x20x20, .f32⟩ : BufTy).Contents (Elt F) → (⟨S16x80x20x20, .f32⟩ : BufTy).Contents (Elt F)),
    nullary main_c_56 (constantI S_ 32 0#32),
    unary main_c_56 main_v176 (broadcastInDim S16x1 ![] bcast_S_S16x1 : (⟨S_, .i32⟩ : BufTy).Contents (Elt F) → (⟨S16x1, .i32⟩ : BufTy).Contents (Elt F)),
    binary main_v11 main_v176 main_v177 (cmpi .slt : (⟨S16x1, .i32⟩ : BufTy).Contents (Elt F) → (⟨S16x1, .i32⟩ : BufTy).Contents (Elt F) → (⟨S16x1, .i1⟩ : BufTy).Contents (Elt F)),
    nullary main_c_57 (constantI S_ 32 16#32),
    unary main_c_57 main_v178 (broadcastInDim S16x1 ![] bcast_S_S16x1 : (⟨S_, .i32⟩ : BufTy).Contents (Elt F) → (⟨S16x1, .i32⟩ : BufTy).Contents (Elt F)),
    binary main_v11 main_v178 main_v179 (addi : (⟨S16x1, .i32⟩ : BufTy).Contents (Elt F) → (⟨S16x1, .i32⟩ : BufTy).Contents (Elt F) → (⟨S16x1, .i32⟩ : BufTy).Contents (Elt F)),
    ternary main_v177 main_v179 main_v11 main_v180 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_58 (constantI S_ 32 0#32),
    unary main_c_58 main_v181 (broadcastInDim S16x32 ![] bcast_S_S16x32 : (⟨S_, .i32⟩ : BufTy).Contents (Elt F) → (⟨S16x32, .i32⟩ : BufTy).Contents (Elt F)),
    binary main_v169 main_v181 main_v182 (cmpi .slt : (⟨S16x32, .i32⟩ : BufTy).Contents (Elt F) → (⟨S16x32, .i32⟩ : BufTy).Contents (Elt F) → (⟨S16x32, .i1⟩ : BufTy).Contents (Elt F)),
    nullary main_c_59 (constantI S_ 32 20#32),
    unary main_c_59 main_v183 (broadcastInDim S16x32 ![] bcast_S_S16x32 : (⟨S_, .i32⟩ : BufTy).Contents (Elt F) → (⟨S16x32, .i32⟩ : BufTy).Contents (Elt F)),
    binary main_v169 main_v183 main_v184 (addi : (⟨S16x32, .i32⟩ : BufTy).Contents (Elt F) → (⟨S16x32, .i32⟩ : BufTy).Contents (Elt F) → (⟨S16x32, .i32⟩ : BufTy).Contents (Elt F)),
    ternary main_v182 main_v184 main_v169 main_v185 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_60 (constantI S_ 32 0#32),
    unary main_c_60 main_v186 (broadcastInDim S16x32 ![] bcast_S_S16x32 : (⟨S_, .i32⟩ : BufTy).Contents (Elt F) → (⟨S16x32, .i32⟩ : BufTy).Contents (Elt F)),
    binary main_v173 main_v186 main_v187 (cmpi .slt : (⟨S16x32, .i32⟩ : BufTy).Contents (Elt F) → (⟨S16x32, .i32⟩ : BufTy).Contents (Elt F) → (⟨S16x32, .i1⟩ : BufTy).Contents (Elt F)),
    nullary main_c_61 (constantI S_ 32 20#32),
    unary main_c_61 main_v188 (broadcastInDim S16x32 ![] bcast_S_S16x32 : (⟨S_, .i32⟩ : BufTy).Contents (Elt F) → (⟨S16x32, .i32⟩ : BufTy).Contents (Elt F)),
    binary main_v173 main_v188 main_v189 (addi : (⟨S16x32, .i32⟩ : BufTy).Contents (Elt F) → (⟨S16x32, .i32⟩ : BufTy).Contents (Elt F) → (⟨S16x32, .i32⟩ : BufTy).Contents (Elt F)),
    ternary main_v187 main_v189 main_v173 main_v190 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v180 main_v191 (broadcastInDim S16x32 ![0, 1] bcast_S16x1_S16x32_0_1 : (⟨S16x1, .i32⟩ : BufTy).Contents (Elt F) → (⟨S16x32, .i32⟩ : BufTy).Contents (Elt F)),
    unary main_v191 main_v192 (broadcastInDim S16x32x1 ![0, 1] bcast_S16x32_S16x32x1_0_1 : (⟨S16x32, .i32⟩ : BufTy).Contents (Elt F) → (⟨S16x32x1, .i32⟩ : BufTy).Contents (Elt F)),
    unary main_v185 main_v193 (broadcastInDim S16x32x1 ![0, 1] bcast_S16x32_S16x32x1_0_1 : (⟨S16x32, .i32⟩ : BufTy).Contents (Elt F) → (⟨S16x32x1, .i32⟩ : BufTy).Contents (Elt F)),
    unary main_v190 main_v194 (broadcastInDim S16x32x1 ![0, 1] bcast_S16x32_S16x32x1_0_1 : (⟨S16x32, .i32⟩ : BufTy).Contents (Elt F) → (⟨S16x32x1, .i32⟩ : BufTy).Contents (Elt F)),
    nary ![main_v192, main_v193, main_v194] main_v195 (fun u => concatenate S16x32x3 2 [⟨S16x32x1, u 0⟩, ⟨S16x32x1, u 1⟩, ⟨S16x32x1, u 2⟩] concatenates_S16x32x1_S16x32x1_S16x32x1_S16x32x3_d2),
    binary main_v175 main_v195 main_v196 ((fun x i => Host.gather gather_S16x80x20x20_S16x32x3_S16x32x80_2_023_n_n_023_2_18011 x i) : (⟨S16x80x20x20, .f32⟩ : BufTy).Contents (Elt F) → (⟨S16x32x3, .i32⟩ : BufTy).Contents (Elt F) → (⟨S16x32x80, .f32⟩ : BufTy).Contents (Elt F)),
    nullary main_c_62 (constantI S_ 32 0#32),
    unary main_c_62 main_v197 (broadcastInDim S16x1 ![] bcast_S_S16x1 : (⟨S_, .i32⟩ : BufTy).Contents (Elt F) → (⟨S16x1, .i32⟩ : BufTy).Contents (Elt F)),
    binary main_v11 main_v197 main_v198 (cmpi .slt : (⟨S16x1, .i32⟩ : BufTy).Contents (Elt F) → (⟨S16x1, .i32⟩ : BufTy).Contents (Elt F) → (⟨S16x1, .i1⟩ : BufTy).Contents (Elt F)),
    nullary main_c_63 (constantI S_ 32 16#32),
    unary main_c_63 main_v199 (broadcastInDim S16x1 ![] bcast_S_S16x1 : (⟨S_, .i32⟩ : BufTy).Contents (Elt F) → (⟨S16x1, .i32⟩ : BufTy).Contents (Elt F)),
    binary main_v11 main_v199 main_v200 (addi : (⟨S16x1, .i32⟩ : BufTy).Contents (Elt F) → (⟨S16x1, .i32⟩ : BufTy).Contents (Elt F) → (⟨S16x1, .i32⟩ : BufTy).Contents (Elt F)),
    ternary main_v198 main_v200 main_v11 main_v201 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_64 (constantI S_ 32 0#32),
    unary main_c_64 main_v202 (broadcastInDim S16x32 ![] bcast_S_S16x32 : (⟨S_, .i32⟩ : BufTy).Contents (Elt F) → (⟨S16x32, .i32⟩ : BufTy).Contents (Elt F)),
    binary main_v169 main_v202 main_v203 (cmpi .slt : (⟨S16x32, .i32⟩ : BufTy).Contents (Elt F) → (⟨S16x32, .i32⟩ : BufTy).Contents (Elt F) → (⟨S16x32, .i1⟩ : BufTy).Contents (Elt F)),
    nullary main_c_65 (constantI S_ 32 20#32),
    unary main_c_65 main_v204 (broadcastInDim S16x32 ![] bcast_S_S16x32 : (⟨S_, .i32⟩ : BufTy).Contents (Elt F) → (⟨S16x32, .i32⟩ : BufTy).Contents (Elt F)),
    binary main_v169 main_v204 main_v205 (addi : (⟨S16x32, .i32⟩ : BufTy).Contents (Elt F) → (⟨S16x32, .i32⟩ : BufTy).Contents (Elt F) → (⟨S16x32, .i32⟩ : BufTy).Contents (Elt F)),
    ternary main_v203 main_v205 main_v169 main_v206 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    nullary main_c_66 (constantI S_ 32 0#32),
    unary main_c_66 main_v207 (broadcastInDim S16x32 ![] bcast_S_S16x32 : (⟨S_, .i32⟩ : BufTy).Contents (Elt F) → (⟨S16x32, .i32⟩ : BufTy).Contents (Elt F)),
    binary main_v173 main_v207 main_v208 (cmpi .slt : (⟨S16x32, .i32⟩ : BufTy).Contents (Elt F) → (⟨S16x32, .i32⟩ : BufTy).Contents (Elt F) → (⟨S16x32, .i1⟩ : BufTy).Contents (Elt F)),
    nullary main_c_67 (constantI S_ 32 20#32),
    unary main_c_67 main_v209 (broadcastInDim S16x32 ![] bcast_S_S16x32 : (⟨S_, .i32⟩ : BufTy).Contents (Elt F) → (⟨S16x32, .i32⟩ : BufTy).Contents (Elt F)),
    binary main_v173 main_v209 main_v210 (addi : (⟨S16x32, .i32⟩ : BufTy).Contents (Elt F) → (⟨S16x32, .i32⟩ : BufTy).Contents (Elt F) → (⟨S16x32, .i32⟩ : BufTy).Contents (Elt F)),
    ternary main_v208 main_v210 main_v173 main_v211 (select : (⟨S16x32, .i1⟩ : BufTy).Contents (Elt F) → (⟨S16x32, .i32⟩ : BufTy).Contents (Elt F) → (⟨S16x32, .i32⟩ : BufTy).Contents (Elt F) → (⟨S16x32, .i32⟩ : BufTy).Contents (Elt F)),
    unary main_v201 main_v212 (broadcastInDim S16x32 ![0, 1] bcast_S16x1_S16x32_0_1 : (⟨S16x1, .i32⟩ : BufTy).Contents (Elt F) → (⟨S16x32, .i32⟩ : BufTy).Contents (Elt F)),
    unary main_v212 main_v213 (broadcastInDim S16x32x1 ![0, 1] bcast_S16x32_S16x32x1_0_1 : (⟨S16x32, .i32⟩ : BufTy).Contents (Elt F) → (⟨S16x32x1, .i32⟩ : BufTy).Contents (Elt F)),
    unary main_v206 main_v214 (broadcastInDim S16x32x1 ![0, 1] bcast_S16x32_S16x32x1_0_1 : (⟨S16x32, .i32⟩ : BufTy).Contents (Elt F) → (⟨S16x32x1, .i32⟩ : BufTy).Contents (Elt F)),
    unary main_v211 main_v215 (broadcastInDim S16x32x1 ![0, 1] bcast_S16x32_S16x32x1_0_1 : (⟨S16x32, .i32⟩ : BufTy).Contents (Elt F) → (⟨S16x32x1, .i32⟩ : BufTy).Contents (Elt F)),
    nary ![main_v213, main_v214, main_v215] main_v216 (fun u => concatenate S16x32x3 2 [⟨S16x32x1, u 0⟩, ⟨S16x32x1, u 1⟩, ⟨S16x32x1, u 2⟩] concatenates_S16x32x1_S16x32x1_S16x32x1_S16x32x3_d2),
    binary main_v174 main_v216 main_v217 ((fun x i => Host.gather gather_S16x64x20x20_S16x32x3_S16x32x64_2_023_n_n_023_2_16411 x i) : (⟨S16x64x20x20, .f32⟩ : BufTy).Contents (Elt F) → (⟨S16x32x3, .i32⟩ : BufTy).Contents (Elt F) → (⟨S16x32x64, .f32⟩ : BufTy).Contents (Elt F)),
    nullary main_cst_68 (constant S_ .f32 0x00000000#32),
    unary main_cst_68 main_v218 (broadcastInDim S16x32x80 ![] bcast_S_S16x32x80 : (⟨S_, .f32⟩ : BufTy).Contents (Elt F) → (⟨S16x32x80, .f32⟩ : BufTy).Contents (Elt F)),
    binary main_v196 main_v218 main_v219 (maximumf : (⟨S16x32x80, .f32⟩ : BufTy).Contents (Elt F) → (⟨S16x32x80, .f32⟩ : BufTy).Contents (Elt F) → (⟨S16x32x80, .f32⟩ : BufTy).Contents (Elt F)),
    binary main_v196 main_v9 main_v220 (mulf : (⟨S16x32x80, .f32⟩ : BufTy).Contents (Elt F) → (⟨S16x32x80, .f32⟩ : BufTy).Contents (Elt F) → (⟨S16x32x80, .f32⟩ : BufTy).Contents (Elt F)),
    binary main_v219 main_v220 main_v221 (subf : (⟨S16x32x80, .f32⟩ : BufTy).Contents (Elt F) → (⟨S16x32x80, .f32⟩ : BufTy).Contents (Elt F) → (⟨S16x32x80, .f32⟩ : BufTy).Contents (Elt F)),
    unary main_v196 main_v222 (Host.absf : (⟨S16x32x80, .f32⟩ : BufTy).Contents (Elt F) → (⟨S16x32x80, .f32⟩ : BufTy).Contents (Elt F)),
    unary main_v222 main_v223 (Host.negf : (⟨S16x32x80, .f32⟩ : BufTy).Contents (Elt F) → (⟨S16x32x80, .f32⟩ : BufTy).Contents (Elt F)),
    unary main_v223 main_v224 (Host.exp : (⟨S16x32x80, .f32⟩ : BufTy).Contents (Elt F) → (⟨S16x32x80, .f32⟩ : BufTy).Contents (Elt F)),
    unary main_v224 main_v225 (Host.log1p : (⟨S16x32x80, .f32⟩ : BufTy).Contents (Elt F) → (⟨S16x32x80, .f32⟩ : BufTy).Contents (Elt F)),
    binary main_v221 main_v225 main_v226 (addf : (⟨S16x32x80, .f32⟩ : BufTy).Contents (Elt F) → (⟨S16x32x80, .f32⟩ : BufTy).Contents (Elt F) → (⟨S16x32x80, .f32⟩ : BufTy).Contents (Elt F)),
    nullary main_cst_69 (constant S_ .f32 0x00000000#32),
    binary main_v226 main_cst_69 main_v227 ((fun x v => Host.reduceAdd x v reducesTo_S16x32x80_S16x32_d2 h_S_) : (⟨S16x32x80, .f32⟩ : BufTy).Contents (Elt F) → (⟨S_, .f32⟩ : BufTy).Contents (Elt F) → (⟨S16x32, .f32⟩ : BufTy).Contents (Elt F)),
    nullary main_cst_70 (constant S_ .f32 0x42A00000#32),
    unary main_cst_70 main_v228 (broadcastInDim S16x32 ![] bcast_S_S16x32 : (⟨S_, .f32⟩ : BufTy).Contents (Elt F) → (⟨S16x32, .f32⟩ : BufTy).Contents (Elt F)),
    binary main_v227 main_v228 main_v229 (Host.divf : (⟨S16x32, .f32⟩ : BufTy).Contents (Elt F) → (⟨S16x32, .f32⟩ : BufTy).Contents (Elt F) → (⟨S16x32, .f32⟩ : BufTy).Contents (Elt F)),
    nullary main_cst_71 (constant S_ .f32 0x00000000#32),
    binary main_v229 main_cst_71 main_v230 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v155 main_v230 main_v231 (addf : (⟨S_, .f32⟩ : BufTy).Contents (Elt F) → (⟨S_, .f32⟩ : BufTy).Contents (Elt F) → (⟨S_, .f32⟩ : BufTy).Contents (Elt F)),
    nullary main_cst_72 (constant S_ .f32 0x00000000#32),
    binary main_v217 main_cst_72 main_v232 ((fun x v => Host.reduceAdd x v reducesTo_S16x32x64_S16x32_d2 h_S_) : (⟨S16x32x64, .f32⟩ : BufTy).Contents (Elt F) → (⟨S_, .f32⟩ : BufTy).Contents (Elt F) → (⟨S16x32, .f32⟩ : BufTy).Contents (Elt F)),
    nullary main_cst_73 (constant S_ .f32 0x42800000#32),
    unary main_cst_73 main_v233 (broadcastInDim S16x32 ![] bcast_S_S16x32 : (⟨S_, .f32⟩ : BufTy).Contents (Elt F) → (⟨S16x32, .f32⟩ : BufTy).Contents (Elt F)),
    binary main_v232 main_v233 main_v234 (Host.divf : (⟨S16x32, .f32⟩ : BufTy).Contents (Elt F) → (⟨S16x32, .f32⟩ : BufTy).Contents (Elt F) → (⟨S16x32, .f32⟩ : BufTy).Contents (Elt F)),
    unary main_v234 main_v235 (Host.negf : (⟨S16x32, .f32⟩ : BufTy).Contents (Elt F) → (⟨S16x32, .f32⟩ : BufTy).Contents (Elt F)),
    nullary main_cst_74 (constant S_ .f32 0x3DCCCCCD#32),
    unary main_cst_74 main_v236 (broadcastInDim S16x32 ![] bcast_S_S16x32 : (⟨S_, .f32⟩ : BufTy).Contents (Elt F) → (⟨S16x32, .f32⟩ : BufTy).Contents (Elt F)),
    binary main_v235 main_v236 main_v237 (mulf : (⟨S16x32, .f32⟩ : BufTy).Contents (Elt F) → (⟨S16x32, .f32⟩ : BufTy).Contents (Elt F) → (⟨S16x32, .f32⟩ : BufTy).Contents (Elt F)),
    nullary main_cst_75 (constant S_ .f32 0x00000000#32),
    binary main_v237 main_cst_75 main_v238 ((fun x v => Host.reduceAdd x v reducesTo_S16x32_S_d0_1 h_S_) : (⟨S16x32, .f32⟩ : BufTy).Contents (Elt F) → (⟨S_, .f32⟩ : BufTy).Contents (Elt F) → (⟨S_, .f32⟩ : BufTy).Contents (Elt F)),
    binary main_v163 main_v238 main_v239 (addf : (⟨S_, .f32⟩ : BufTy).Contents (Elt F) → (⟨S_, .f32⟩ : BufTy).Contents (Elt F) → (⟨S_, .f32⟩ : BufTy).Contents (Elt F)),
    nullary main_cst_76 (constant S_ .f32 0x44000000#32),
    binary main_v239 main_cst_76 main_v240 (Host.divf : (⟨S_, .f32⟩ : BufTy).Contents (Elt F) → (⟨S_, .f32⟩ : BufTy).Contents (Elt F) → (⟨S_, .f32⟩ : BufTy).Contents (Elt F)),
    reshape main_v240 main_v241 rfl shapeCasts_S_S1,
    nullary main_cst_77 (constant S_ .f32 0x44000000#32),
    binary main_v231 main_cst_77 main_v242 (Host.divf : (⟨S_, .f32⟩ : BufTy).Contents (Elt F) → (⟨S_, .f32⟩ : BufTy).Contents (Elt F) → (⟨S_, .f32⟩ : BufTy).Contents (Elt F)),
    reshape main_v242 main_v243 rfl shapeCasts_S_S1,
    nullary main_cst_78 (constant S_ .f32 0x00000000#32),
    unary main_cst_78 main_v244 (broadcastInDim S1 ![] bcast_S_S1 : (⟨S_, .f32⟩ : BufTy).Contents (Elt F) → (⟨S1, .f32⟩ : BufTy).Contents (Elt F)),
    nullary main_cst_79 (constant S_ .f32 0x40F00000#32),
    unary main_cst_79 main_v245 (broadcastInDim S1 ![] bcast_S_S1 : (⟨S_, .f32⟩ : BufTy).Contents (Elt F) → (⟨S1, .f32⟩ : BufTy).Contents (Elt F)),
    binary main_v245 main_v241 main_v246 (mulf : (⟨S1, .f32⟩ : BufTy).Contents (Elt F) → (⟨S1, .f32⟩ : BufTy).Contents (Elt F) → (⟨S1, .f32⟩ : BufTy).Contents (Elt F)),
    nullary main_cst_80 (constant S_ .f32 0x3F000000#32),
    unary main_cst_80 main_v247 (broadcastInDim S1 ![] bcast_S_S1 : (⟨S_, .f32⟩ : BufTy).Contents (Elt F) → (⟨S1, .f32⟩ : BufTy).Contents (Elt F)),
    binary main_v247 main_v243 main_v248 (mulf : (⟨S1, .f32⟩ : BufTy).Contents (Elt F) → (⟨S1, .f32⟩ : BufTy).Contents (Elt F) → (⟨S1, .f32⟩ : BufTy).Contents (Elt F)),
    binary main_v246 main_v248 main_v249 (addf : (⟨S1, .f32⟩ : BufTy).Contents (Elt F) → (⟨S1, .f32⟩ : BufTy).Contents (Elt F) → (⟨S1, .f32⟩ : BufTy).Contents (Elt F)),
    nullary main_cst_81 (constant S_ .f32 0x3FC00000#32),
    unary main_cst_81 main_v250 (broadcastInDim S1 ![] bcast_S_S1 : (⟨S_, .f32⟩ : BufTy).Contents (Elt F) → (⟨S1, .f32⟩ : BufTy).Contents (Elt F)),
    binary main_v250 main_v244 main_v251 (mulf : (⟨S1, .f32⟩ : BufTy).Contents (Elt F) → (⟨S1, .f32⟩ : BufTy).Contents (Elt F) → (⟨S1, .f32⟩ : BufTy).Contents (Elt F)),
    binary main_v249 main_v251 main_v252 (addf : (⟨S1, .f32⟩ : BufTy).Contents (Elt F) → (⟨S1, .f32⟩ : BufTy).Contents (Elt F) → (⟨S1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., nullary_bufs_sub .., unary_bufs_sub .., binary_bufs_sub .., unary_bufs_sub .., nullary_bufs_sub .., unary_bufs_sub .., unary_bufs_sub .., binary_bufs_sub .., unary_bufs_sub .., nullary_bufs_sub .., unary_bufs_sub .., nullary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., binary_bufs_sub .., binary_bufs_sub .., nullary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., binary_bufs_sub .., binary_bufs_sub .., nullary_bufs_sub .., binary_bufs_sub .., reshape_bufs_sub .., nullary_bufs_sub .., binary_bufs_sub .., reshape_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
/-- The class loss, as the operations' composed term of the argument arrays. -/
def res_main_v243 (m : (ℓ : Loc nD τ sig) → Buf (Elt F) ℓ) (c : Dev nD) : Buf (Elt F) ((c.tc : Thread nD τ).loc main_v243) :=
  shapeCast _ (Host.divf (addf (addf (addf (constant S_ .f32 0x00000000#32) (Host.reduceAdd (Host.divf (Host.reduceAdd (addf (subf (maximumf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (Host.reduceAdd (Host.divf (Host.reduceAdd (addf (subf (maximumf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (Host.reduceAdd (Host.divf (Host.reduceAdd (addf (subf (maximumf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (constant S_ .f32 0x44000000#32)) shapeCasts_S_S1

set_option maxRecDepth 8192 in
/-- The box loss, as the operations' composed term of the argument arrays. -/
def res_main_v241 (m : (ℓ : Loc nD τ sig) → Buf (Elt F) ℓ) (c : Dev nD) : Buf (Elt F) ((c.tc : Thread nD τ).loc main_v241) :=
  shapeCast _ (Host.divf (addf (addf (addf (constant S_ .f32 0x00000000#32) (Host.reduceAdd (mulf (Host.negf (Host.divf (Host.reduceAdd (Host.gather gather_S16x64x80x80_S16x32x3_S16x32x64_2_023_n_n_023_2_16411 (extractStridedSlice S16x64x80x80 ![0, 0, 0, 0] (m ((c.tc : Thread nD τ).loc main_arg0)) slices_S16x144x80x80_S16x64x80x80_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (Host.reduceAdd (mulf (Host.negf (Host.divf (Host.reduceAdd (Host.gather gather_S16x64x40x40_S16x32x3_S16x32x64_2_023_n_n_023_2_16411 (extractStridedSlice S16x64x40x40 ![0, 0, 0, 0] (m ((c.tc : Thread nD τ).loc main_arg1)) slices_S16x144x40x40_S16x64x40x40_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (Host.reduceAdd (mulf (Host.negf (Host.divf (Host.reduceAdd (Host.gather gather_S16x64x20x20_S16x32x3_S16x32x64_2_023_n_n_023_2_16411 (extractStridedSlice S16x64x20x20 ![0, 0, 0, 0] (m ((c.tc : Thread nD τ).loc main_arg2)) slices_S16x144x20x20_S16x64x20x20_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (constant S_ .f32 0x44000000#32)) shapeCasts_S_S1

set_option maxRecDepth 8192 in
/-- The total loss, as the operations' composed term of the argument arrays. -/
def res_main_v252 (m : (ℓ : Loc nD τ sig) → Buf (Elt F) ℓ) (c : Dev nD) : Buf (Elt F) ((c.tc : Thread nD τ).loc main_v252) :=
  addf (addf (mulf (broadcastInDim S1 ![] bcast_S_S1 (constant S_ .f32 0x40F00000#32)) (shapeCast _ (Host.divf (addf (addf (addf (constant S_ .f32 0x00000000#32) (Host.reduceAdd (mulf (Host.negf (Host.divf (Host.reduceAdd (Host.gather gather_S16x64x80x80_S16x32x3_S16x32x64_2_023_n_n_023_2_16411 (extractStridedSlice S16x64x80x80 ![0, 0, 0, 0] (m ((c.tc : Thread nD τ).loc main_arg0)) slices_S16x144x80x80_S16x64x80x80_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (Host.reduceAdd (mulf (Host.negf (Host.divf (Host.reduceAdd (Host.gather gather_S16x64x40x40_S16x32x3_S16x32x64_2_023_n_n_023_2_16411 (extractStridedSlice S16x64x40x40 ![0, 0, 0, 0] (m ((c.tc : Thread nD τ).loc main_arg1)) slices_S16x144x40x40_S16x64x40x40_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (Host.reduceAdd (mulf (Host.negf (Host.divf (Host.reduceAdd (Host.gather gather_S16x64x20x20_S16x32x3_S16x32x64_2_023_n_n_023_2_16411 (extractStridedSlice S16x64x20x20 ![0, 0, 0, 0] (m ((c.tc : Thread nD τ).loc main_arg2)) slices_S16x144x20x20_S16x64x20x20_0_0_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (constant S_ .f32 0x00000000#32) reducesTo_S16x32x64_S16x32_d2 h_S_) (broadcastInDim S16x32 ![] bcast_S_S16x32 (constant S_ .f32 0x42800000#32)))) (broadcastInDim S16x32 ![] bcast_S_S16x32 (constant S_ .f32 0x3DCCCCCD#32))) (constant S_ .f32 0x00000000#32) reducesTo_S16x32_S_d0_1 h_S_)) (constant S_ .f32 0x44000000#32)) shapeCasts_S_S1)) (mulf (broadcastInDim S1 ![] bcast_S_S1 (constant S_ .f32 0x3F000000#32)) (shapeCast _ (Host.divf (addf (addf (addf (constant S_ .f32 0x00000000#32) (Host.reduceAdd (Host.divf (Host.reduceAdd (addf (subf (maximumf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x80x80_S16x32x3_S16x32x80_2_023_n_n_023_2_18011 (extractStridedSlice S16x80x80x80 ![0, 64, 0, 0] (m ((c.tc : Thread nD τ).loc main_arg0)) slices_S16x144x80x80_S16x80x80x80_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32)))) (broadcastInDim S16x32 ![] bcast_S_S16x32 (constantI S_ 32 80#32))) (fptosi 32 (minimumf (broadcastInDim S16x32 ![] bcast_S_S16x32 (sitofp .f32 (constantI S_ 32 79#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41000000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (Host.reduceAdd (Host.divf (Host.reduceAdd (addf (subf (maximumf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x40x40_S16x32x3_S16x32x80_2_023_n_n_023_2_18011 (extractStridedSlice S16x80x40x40 ![0, 64, 0, 0] (m ((c.tc : Thread nD τ).loc main_arg1)) slices_S16x144x40x40_S16x80x40x40_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32)))) (broadcastInDim S16x32 ![] bcast_S_S16x32 (constantI S_ 32 40#32))) (fptosi 32 (minimumf (broadcastInDim S16x32 ![] bcast_S_S16x32 (sitofp .f32 (constantI S_ 32 39#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x41800000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (Host.reduceAdd (Host.divf (Host.reduceAdd (addf (subf (maximumf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (broadcastInDim S16x32x80 ![] bcast_S_S16x32x80 (constant S_ .f32 0x00000000#32))) (mulf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2)) (uitofp .f32 (cmpi .eq (broadcastInDim S16x32x80 ![0, 1, 2] bcast_S16x32x1_S16x32x80_0_1_2 (broadcastInDim S16x32x1 ![0, 1] bcast_S16x32_S16x32x1_0_1 (fptosi 32 (shapeCast _ (extractStridedSlice S16x32x1 ![0, 0, 4] (m ((c.tc : Thread nD τ).loc main_arg3)) slices_S16x32x5_S16x32x1_0_0_4) shapeCasts_S16x32x1_S16x32)))) (broadcastInDim S16x32x80 ![0, 1, 2] bcast_S1x1x80_S16x32x80_0_1_2 (iotaInDim S1x1x80 32 2)))))) (Host.log1p (Host.exp (Host.negf (Host.absf (Host.gather gather_S16x80x20x20_S16x32x3_S16x32x80_2_023_n_n_023_2_18011 (extractStridedSlice S16x80x20x20 ![0, 64, 0, 0] (m ((c.tc : Thread nD τ).loc main_arg2)) slices_S16x144x20x20_S16x80x20x20_0_64_0_0) (concatenate S16x32x3 2 [⟨S16x32x1, (broadcastInDim S16x32x1 ![0, 1] bcast_S16x32_S16x32x1_0_1 (broadcastInDim S16x32 ![0, 1] bcast_S16x1_S16x32_0_1 (select (cmpi .slt (broadcastInDim S16x1 ![0] bcast_S16_S16x1_0 (iotaInDim S16 32 0)) (broadcastInDim S16x1 ![] bcast_S_S16x1 (constantI S_ 32 0#32))) (addi (broadcastInDim S16x1 ![0] bcast_S16_S16x1_0 (iotaInDim S16 32 0)) (broadcastInDim S16x1 ![] bcast_S_S16x1 (constantI S_ 32 16#32))) (broadcastInDim S16x1 ![0] bcast_S16_S16x1_0 (iotaInDim S16 32 0)))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 1] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_1) shapeCasts_S16x32x1_S16x32))))))⟩, ⟨S16x32x1, (broadcastInDim S16x32x1 ![0, 1] bcast_S16x32_S16x32x1_0_1 (select (cmpi .slt (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 0#32))) (addi (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32)))) (broadcastInDim S16x32 ![] bcast_S_S16x32 (constantI S_ 32 20#32))) (fptosi 32 (minimumf (broadcastInDim S16x32 ![] bcast_S_S16x32 (sitofp .f32 (constantI S_ 32 19#32))) (maximumf (broadcastInDim S16x32 ![] bcast_S_S16x32 (sitofp .f32 (constantI S_ 32 0#32))) (shapeCast _ (extractStridedSlice S16x32x1 ![0, 0, 0] (Host.divf (mulf (addf (extractStridedSlice S16x32x2 ![0, 0, 0] (extractStridedSlice S16x32x4 ![0, 0, 0] (m ((c.tc : Thread nD τ).loc main_arg3)) slices_S16x32x5_S16x32x4_0_0_0) slices_S16x32x4_S16x32x2_0_0_0) (extractStridedSlice S16x32x2 ![0, 0, 2] (extractStridedSlice S16x32x4 ![0, 0, 0] (m ((c.tc : Thread nD τ).loc main_arg3)) slices_S16x32x5_S16x32x4_0_0_0) slices_S16x32x4_S16x32x2_0_0_2)) (broadcastInDim S16x32x2 ![] bcast_S_S16x32x2 (constant S_ .f32 0x3F000000#32))) (broadcastInDim S16x32x2 ![] bcast_S_S16x32x2 (constant S_ .f32 0x42000000#32))) slices_S16x32x2_S16x32x1_0_0_0) shapeCasts_S16x32x1_S16x32))))))⟩] concatenates_S16x32x1_S16x32x1_S16x32x1_S16x32x3_d2))))))) (constant S_ .f32 0x00000000#32) reducesTo_S16x32x80_S16x32_d2 h_S_) (broadcastInDim S16x32 ![] bcast_S_S16x32 (constant S_ .f32 0x42A00000#32))) (constant S_ .f32 0x00000000#32) reducesTo_S16x32_S_d0_1 h_S_)) (constant S_ .f32 0x44000000#32)) shapeCasts_S_S1))) (mulf (broadcastInDim S1 ![] bcast_S_S1 (constant S_ .f32 0x3FC00000#32)) (broadcastInDim S1 ![] bcast_S_S1 (constant S_ .f32 0x00000000#32)))

set_option maxRecDepth 8192 in
set_option maxHeartbeats 148800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v252) = res_main_v252 m c
      ∧ r.2.mem ((c.tc : Thread nD τ).loc main_v241) = res_main_v241 m c
      ∧ r.2.mem ((c.tc : Thread nD τ).loc main_v243) = res_main_v243 m c
      ∧ r.2.mem ((c.tc : Thread nD τ).loc main_v244) = broadcastInDim S1 ![] bcast_S_S1 (constant S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v252).trans (by after_results_simp <;> rfl <;> (unfold res_main_v252; rfl)),
      (h c main_v241).trans (by after_results_simp <;> rfl <;> (unfold res_main_v241; rfl)),
      (h c main_v243).trans (by after_results_simp <;> rfl <;> (unfold res_main_v243; rfl)),
      (h c main_v244).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.TailRun.lean ====
/-
  The reference's run ends with the named functions: each result's composed term is the box loss, the class loss or
  the total of the six gathers and the one-hot class rows, by unfolding the names.
-/
import proofs.«177253_j51616916963406_2_alg».proof.Proof.RefRun
import proofs.«177253_j51616916963406_2_alg».proof.Proof.Tail

set_option maxRecDepth 8192

noncomputable section

namespace Cert.ReferenceIdeal.Tail

open Cert.ReferenceIdeal Cert.ReferenceIdeal.Gen Idealize.ShloMosaic Idealize.ShloMosaic.TcCoe Idealize.SL.Sem Cert.ReferenceIdeal.HandRun

variable {F : FTy → Type} [FloatOps F]

variable (m : (ℓ : Loc nD τ sig) → Buf (Elt F) ℓ) (c : Dev nD)

set_option maxHeartbeats 4000000 in
theorem res243_eq : res_main_v243 m c = clsLoss (gat80c (m ((c.tc : Thread nD τ).loc main_arg0)) (m ((c.tc : Thread nD τ).loc main_arg3)))
    (gat40c (m ((c.tc : Thread nD τ).loc main_arg1)) (m ((c.tc : Thread nD τ).loc main_arg3)))
    (gat20c (m ((c.tc : Thread nD τ).loc main_arg2)) (m ((c.tc : Thread nD τ).loc main_arg3))) (oneHot (m ((c.tc : Thread nD τ).loc main_arg3))) := by
  unfold res_main_v243; rfl

set_option maxHeartbeats 4000000 in
theorem res241_eq : res_main_v241 m c = boxLoss (gat80b (m ((c.tc : Thread nD τ).loc main_arg0)) (m ((c.tc : Thread nD τ).loc main_arg3)))
    (gat40b (m ((c.tc : Thread nD τ).loc main_arg1)) (m ((c.tc : Thread nD τ).loc main_arg3)))
    (gat20b (m ((c.tc : Thread nD τ).loc main_arg2)) (m ((c.tc : Thread nD τ).loc main_arg3))) := by
  unfold res_main_v241; rfl

set_option maxHeartbeats 4000000 in
theorem res252_eq : res_main_v252 m c = total (res_main_v241 m c) (res_main_v243 m c) := by
  unfold res_main_v252 res_main_v241 res_main_v243; rfl

end Cert.ReferenceIdeal.Tail

end
-- ==== Proof.lean ====
/-
  A fused three-level cell gather against advanced indexing.

  Both programs compute, from three prediction pyramids [16, 144, h, w] (h = w = 80, 40, 20) and 32 targets per image,
  a box loss, a class loss, their weighted total and a zero.  Per level a target's grid cell is its box centre over
  the stride, clamped into the grid and truncated; the reference gathers the cell's 80 class logits and 64 box
  features by advanced indexing, while the kernel's region multiplies, per image, the one-hot rows of the flat cell
  indices row · w + column with the flattened prediction block and the host splits the 144 gathered channels
  afterwards.  Over the extended reals a one-hot row picks exactly one entry (0 · x = 0 for every x), the flat index
  stays below h · w, and flattening the two grid axes puts entry (row, column) at row · w + column: the two gathers
  agree entry by entry, with no finiteness of the inputs needed, and everything after the gathers is the same
  composition of operations in both programs.  The kernel's idealization rewrote nothing, so preservation is trivial.
  The three frames: both kernels run through the region's launch with the body's triple proved once symbolically and
  the 117 later host operations writing no staged array; the reference is a straight line of host operations.
-/
import proofs.«177253_j51616916963406_2_alg».proof.Defs
import proofs.«177253_j51616916963406_2_alg».proof.Proof.Gen.Kernel
import proofs.«177253_j51616916963406_2_alg».proof.Proof.Gen.KernelIdeal
import proofs.«177253_j51616916963406_2_alg».proof.Proof.Gen.ReferenceIdeal
import proofs.«177253_j51616916963406_2_alg».proof.Proof.Gen.Pre_finite_inputs
import proofs.«177253_j51616916963406_2_alg».proof.Proof.FrameKernel
import proofs.«177253_j51616916963406_2_alg».proof.Proof.KRun
import proofs.«177253_j51616916963406_2_alg».proof.Proof.TailRun
import Idealize.ShloMosaic.Adequacy
import Idealize.ShloMosaic.Init

set_option maxRecDepth 16384

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Frame.frame m ρ

theorem frame_pi : Cert.frame_KernelIdeal (hKernelIdeal := Cert.KernelIdeal.Gen.facts) (hPre_finite_inputs := Cert.Pre_finite_inputs.Gen.facts) :=
  fun m ρ _ => Cert.KernelIdeal.Frame.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.HandRun.run (F := Ideal) m ρ)

theorem preserves : Cert.preserves_Kernel_KernelIdeal := trivial

/-- Both idealized programs end with the same four results: the kernel's run names them as the reference's functions
    of the argument arrays, and the reference's composed terms are those functions of arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨Cert.KernelIdeal.KRun.outTotal m, Cert.KernelIdeal.KRun.outBox m, Cert.KernelIdeal.KRun.outCls m, Cert.KernelIdeal.KRun.outZero,
    Cert.KernelIdeal.KRun.run m ρ, ?_⟩
  refine (θ_run Cert.ReferenceIdeal.defs _ _).mono (fun _ h c => ?_) (Cert.ReferenceIdeal.HandRun.run (F := Ideal) m' ρ')
  obtain ⟨h0, h1, h2, h3, a0, a1, a2, a3⟩ := h c
  obtain ⟨e0, e1, e2, e3⟩ := hagree c
  refine ⟨h0.trans ?_, h1.trans ?_, h2.trans ?_, h3.trans ?_, a0, a1, a2, a3⟩
  · rw [Cert.ReferenceIdeal.Tail.res252_eq, Cert.ReferenceIdeal.Tail.res241_eq, Cert.ReferenceIdeal.Tail.res243_eq, e0, e1, e2, e3]; rfl
  · rw [Cert.ReferenceIdeal.Tail.res241_eq, e0, e1, e2, e3]; rfl
  · rw [Cert.ReferenceIdeal.Tail.res243_eq, e0, e1, e2, e3]; rfl
  · rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
